-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S768 : Shape := ⟨1, ![768]⟩
abbrev S64x768 : Shape := ⟨2, ![64, 768]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel
  bcast_S_S768 : S_.BroadcastsInDim S768 (![] : Fin 0 → Fin S768.rank)
  reducesTo_S768_S_d0 : S768.ReducesTo [0] S_
  bcast_S_S64x768 : S_.BroadcastsInDim S64x768 (![] : Fin 0 → Fin S64x768.rank)
  reducesTo_S64x768_S_d0_1 : S64x768.ReducesTo [0, 1] S_

variable [Facts]

def fn_part1 {F : FTy → Type} [FloatOps F] (main_arg4 : FVec F S64x768 .f32) (main_arg5 : FVec F S64x768 .f32) (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  let main_v19 : FVec F S64x768 .f32 := Host.absf main_arg4
  let main_cst_6 : FVec F S_ .f32 := constant S_ .f32 0x7F800000#32
  let main_v20 : FVec F S64x768 .f32 := broadcastInDim S64x768 ![] bcast_S_S64x768 main_cst_6
  let main_v21 : IVec S64x768 1 := cmpf .olt main_v19 main_v20
  let main_c_7 : IVec S_ 1 := constantI S_ 1 1#1
  let main_v22 : IVec S_ 1 := (fun x v => Host.reduce IntOp.andi x v reducesTo_S64x768_S_d0_1 h_S_) main_v21 main_c_7
  let main_v23 : IVec S_ 1 := andi main_v18 main_v22
  let main_v24 : FVec F S64x768 .f32 := Host.absf main_arg5
  let main_cst_8 : FVec F S_ .f32 := constant S_ .f32 0x7F800000#32
  let main_v25 : FVec F S64x768 .f32 := broadcastInDim S64x768 ![] bcast_S_S64x768 main_cst_8
  let main_v26 : IVec S64x768 1 := cmpf .olt main_v24 main_v25
  let main_c_9 : IVec S_ 1 := constantI S_ 1 1#1
  let main_v27 : IVec S_ 1 := (fun x v => Host.reduce IntOp.andi x v reducesTo_S64x768_S_d0_1 h_S_) main_v26 main_c_9
  let main_v28 : IVec S_ 1 := andi main_v23 main_v27
  main_v28

def fn {F : FTy → Type} [FloatOps F] (main_arg0 : FVec F S32x1024x768 .f32) (main_arg1 : FVec F S768 .f32) (main_arg2 : FVec F S768 .f32) (main_arg3 : FVec F S64x768 .f32) (main_arg4 : FVec F S64x768 .f32) (main_arg5 : FVec F S64x768 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_arg4 main_arg5 main_v13 main_v16
-- ==== Kernel.lean ====
abbrev S32x1024x768 : Shape := ⟨3, ![32, 1024, 768]⟩
abbrev S768 : Shape := ⟨1, ![768]⟩
abbrev S64x768 : Shape := ⟨2, ![64, 768]⟩
abbrev S768x64 : Shape := ⟨2, ![768, 64]⟩
abbrev S768x192 : Shape := ⟨2, ![768, 192]⟩
abbrev S32x1024x64 : Shape := ⟨3, ![32, 1024, 64]⟩
abbrev S1x1024x768 : Shape := ⟨3, ![1, 1024, 768]⟩
abbrev S1x1024x64 : Shape := ⟨3, ![1, 1024, 64]⟩
abbrev S1024x768 : Shape := ⟨2, ![1024, 768]⟩
abbrev S1024 : Shape := ⟨1, ![1024]⟩
abbrev S1024x1 : Shape := ⟨2, ![1024, 1]⟩
abbrev S1x768 : Shape := ⟨2, ![1, 768]⟩
abbrev S1024x192 : Shape := ⟨2, ![1024, 192]⟩
abbrev S1024x64 : Shape := ⟨2, ![1024, 64]⟩
abbrev S256x256 : Shape := ⟨2, ![256, 256]⟩
abbrev S256x64 : Shape := ⟨2, ![256, 64]⟩
abbrev S256x1 : Shape := ⟨2, ![256, 1]⟩
abbrev S256 : Shape := ⟨1, ![256]⟩
abbrev S1x256x64 : Shape := ⟨3, ![1, 256, 64]⟩

abbrev nBuf : Space → Nat
  | .hbm => 12
  | .vmem => 7
  | .smem => 0
  | _ => 0

abbrev bufTy : (tb : Table) → Fin (tcTables nBuf tb) → BufTy
  | .hbm, ⟨0, _⟩ => ⟨S32x1024x768, .f32⟩
  | .hbm, ⟨1, _⟩ => ⟨S768, .f32⟩
  | .hbm, ⟨2, _⟩ => ⟨S768, .f32⟩
  | .hbm, ⟨3, _⟩ => ⟨S64x768, .f32⟩
  | .hbm, ⟨4, _⟩ => ⟨S64x768, .f32⟩
  | .hbm, ⟨5, _⟩ => ⟨S64x768, .f32⟩
  | .hbm, ⟨6, _⟩ => ⟨S768x64, .f32⟩
  | .hbm, ⟨7, _⟩ => ⟨S768x64, .f32⟩
  | .hbm, ⟨8, _⟩ => ⟨S768x64, .f32⟩
  | .hbm, ⟨9, _⟩ => ⟨S768x192, .f32⟩
  | .hbm, ⟨10, _⟩ => ⟨S768x192, .bf16⟩
  | .hbm, ⟨11, _⟩ => ⟨S32x1024x64, .f32⟩
  | .local _ .vmem, ⟨0, _⟩ => ⟨S1x1024x768, .f32⟩
  | .local _ .vmem, ⟨1, _⟩ => ⟨S1x1024x768, .f32⟩
  | .local _ .vmem, ⟨2, _⟩ => ⟨S768, .f32⟩
  | .local _ .vmem, ⟨3, _⟩ => ⟨S768, .f32⟩
  | .local _ .vmem, ⟨4, _⟩ => ⟨S768x192, .bf16⟩
  | .local _ .vmem, ⟨5, _⟩ => ⟨S1x1024x64, .f32⟩
  | .local _ .vmem, ⟨6, _⟩ => ⟨S1x1024x64, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x768_S768x64_1_0 : S64x768.Transposes [1, 0] S768x64
  concatenates_S768x64_S768x64_S768x64_S768x192_d1 : Shape.Concatenates [S768x64, S768x64, S768x64] S768x192 1
  bitsLt_bf16_f32 : FTy.bits .bf16 < FTy.bits .f32
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  reduces_S1024x768_S1024 : S1024x768.Reduces [1] S1024
  shapeCasts_S1024_S1024x1 : S1024.ShapeCasts S1024x1
  broadcasts_S1024x1_S1024x768 : S1024x1.Broadcasts S1024x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  inb_S768x192_S768x192_0_0 : ∀ a, (![0, 0] : Fin 2 → Nat) a + S768x192.size a ≤ S768x192.size a
  h_S768x192 : 0 < S768x192.numel
  shapeCasts_S768x192_S768x192 : S768x192.ShapeCasts S768x192
  slices_S1024x192_o0_0_S1024x64 : S1024x192.Slices ![0, 0] S1024x64
  slices_S1024x192_o0_64_S1024x64 : S1024x192.Slices ![0, 64] S1024x64
  slices_S1024x192_o0_128_S1024x64 : S1024x192.Slices ![0, 128] S1024x64
  iota_S256x256_d0_w32 : S256x256.Iotas .tc 32 [0]
  iota_S256x256_d1_w32 : S256x256.Iotas .tc 32 [1]
  slices_S1024x64_o0_0_S256x64 : S1024x64.Slices ![0, 0] S256x64
  reduces_S256x256_S256 : S256x256.Reduces [1] S256
  shapeCasts_S256_S256x1 : S256.ShapeCasts S256x1
  broadcasts_S256x1_S256x256 : S256x1.Broadcasts S256x256
  broadcasts_S256x1_S256x64 : S256x1.Broadcasts S256x64
  inb_S1x1024x64_S1x256x64_0_0_0 : ∀ a, (![0, 0, 0] : Fin 3 → Nat) a + S1x256x64.size a ≤ S1x1024x64.size a
  h_S1x256x64 : 0 < S1x256x64.numel
  shapeCasts_S1x256x64_S256x64 : S1x256x64.ShapeCasts S256x64
  shapeCasts_S256x64_S1x256x64 : S256x64.ShapeCasts S1x256x64
  slices_S1024x64_o256_0_S256x64 : S1024x64.Slices ![256, 0] S256x64
  inb_S1x1024x64_S1x256x64_0_256_0 : ∀ a, (![0, 256, 0] : Fin 3 → Nat) a + S1x256x64.size a ≤ S1x1024x64.size a
  slices_S1024x64_o512_0_S256x64 : S1024x64.Slices ![512, 0] S256x64
  inb_S1x1024x64_S1x256x64_0_512_0 : ∀ a, (![0, 512, 0] : Fin 3 → Nat) a + S1x256x64.size a ≤ S1x1024x64.size a
  slices_S1024x64_o768_0_S256x64 : S1024x64.Slices ![768, 0] S256x64
  inb_S1x1024x64_S1x256x64_0_768_0 : ∀ a, (![0, 768, 0] : Fin 3 → Nat) a + S1x256x64.size a ≤ S1x1024x64.size a
  dot_S1024x768_S768x192_S1024x192_1_0_0_1_n_n_wf : DotDims.WF S1024x768 S768x192 S1024x192 [1] [0] [0] [1] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x1024x768.size a
  hwx0_0 : ∀ i : grid0.Coords, EltTy.bits .f32 = 32 ∨ (Rect.block (s := S32x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768.size a ≤ S768.size a
  hwx0_1 : ∀ i : grid0.Coords, EltTy.bits .f32 = 32 ∨ (Rect.block (s := S768) S768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x192.size a ≤ S768x192.size a
  hwx0_3 : ∀ i : grid0.Coords, EltTy.bits .bf16 = 32 ∨ (Rect.block (s := S768x192) S768x192.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S32x1024x64.size a
  hwx0_4 : ∀ i : grid0.Coords, EltTy.bits .f32 = 32 ∨ (Rect.block (s := S32x1024x64) S1x1024x64.size (cc0_transform_4 i) (hinb0_4 i)).WholeWords (EltTy.packing .f32)

variable [Facts₀]

def dot_S1024x768_S768x192_S1024x192_1_0_0_1_n_n : DotDims S1024x768 S768x192 S1024x192 where
  lhsContracting := [1]
  rhsContracting := [0]
  lhsNonContracting := [0]
  rhsNonContracting := [1]
  lhsBatch := []
  rhsBatch := []
  wf := dot_S1024x768_S768x192_S1024x192_1_0_0_1_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S768x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x768 : Shape := ⟨3, ![32, 1024, 768]⟩
abbrev S768 : Shape := ⟨1, ![768]⟩
abbrev S64x768 : Shape := ⟨2, ![64, 768]⟩
abbrev S_ : Shape := ⟨0, ![]⟩
abbrev S32x1024 : Shape := ⟨2, ![32, 1024]⟩
abbrev S32x1024x1 : Shape := ⟨3, ![32, 1024, 1]⟩
abbrev S1x1x768 : Shape := ⟨3, ![1, 1, 768]⟩
abbrev S32x1024x64 : Shape := ⟨3, ![32, 1024, 64]⟩
abbrev S32x1024x1024 : Shape := ⟨3, ![32, 1024, 1024]⟩
abbrev S1024x1024 : Shape := ⟨2, ![1024, 1024]⟩

abbrev nBuf : Space → Nat
  | .hbm => 74
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S768, .f32⟩
  | .hbm, ⟨2, _⟩ => ⟨S768, .f32⟩
  | .hbm, ⟨3, _⟩ => ⟨S64x768, .f32⟩
  | .hbm, ⟨4, _⟩ => ⟨S64x768, .f32⟩
  | .hbm, ⟨5, _⟩ => ⟨S64x768, .f32⟩
  | .hbm, ⟨6, _⟩ => ⟨S_, .f32⟩
  | .hbm, ⟨7, _⟩ => ⟨S32x1024, .f32⟩
  | .hbm, ⟨8, _⟩ => ⟨S32x1024x1, .f32⟩
  | .hbm, ⟨9, _⟩ => ⟨S_, .f32⟩
  | .hbm, ⟨10, _⟩ => ⟨S32x1024x1, .f32⟩
  | .hbm, ⟨11, _⟩ => ⟨S32x1024x1, .f32⟩
  | .hbm, ⟨12, _⟩ => ⟨S32x1024x768, .f32⟩
  | .hbm, ⟨13, _⟩ => ⟨S32x1024x768, .f32⟩
  | .hbm, ⟨14, _⟩ => ⟨S32x1024x768, .f32⟩
  | .hbm, ⟨15, _⟩ => ⟨S_, .f32⟩
  | .hbm, ⟨16, _⟩ => ⟨S32x1024, .f32⟩
  | .hbm, ⟨17, _⟩ => ⟨S32x1024x1, .f32⟩
  | .hbm, ⟨18, _⟩ => ⟨S_, .f32⟩
  | .hbm, ⟨19, _⟩ => ⟨S32x1024x1, .f32⟩
  | .hbm, ⟨20, _⟩ => ⟨S32x1024x1, .f32⟩
  | .hbm, ⟨21, _⟩ => ⟨S32x1024x768, .f32⟩
  | .hbm, ⟨22, _⟩ => ⟨S32x1024x768, .f32⟩
  | .hbm, ⟨23, _⟩ => ⟨S_, .f32⟩
  | .hbm, ⟨24, _⟩ => ⟨S32x1024x1, .f32⟩
  | .hbm, ⟨25, _⟩ => ⟨S32x1024x1, .f32⟩
  | .hbm, ⟨26, _⟩ => ⟨S32x1024x1, .f32⟩
  | .hbm, ⟨27, _⟩ => ⟨S32x1024x768, .f32⟩
  | .hbm, ⟨28, _⟩ => ⟨S32x1024x768, .f32⟩
  | .hbm, ⟨29, _⟩ => ⟨S1x1x768, .f32⟩
  | .hbm, ⟨30, _⟩ => ⟨S32x1024x768, .f32⟩
  | .hbm, ⟨31, _⟩ => ⟨S32x1024x768, .f32⟩
  | .hbm, ⟨32, _⟩ => ⟨S1x1x768, .f32⟩
  | .hbm, ⟨33, _⟩ => ⟨S32x1024x768, .f32⟩
  | .hbm, ⟨34, _⟩ => ⟨S32x1024x768, .f32⟩
  | .hbm, ⟨35, _⟩ => ⟨S32x1024x64, .f32⟩
  | .hbm, ⟨36, _⟩ => ⟨S32x1024x64, .f32⟩
  | .hbm, ⟨37, _⟩ => ⟨S32x1024x64, .f32⟩
  | .hbm, ⟨38, _⟩ => ⟨S32x1024x1024, .f32⟩
  | .hbm, ⟨39, _⟩ => ⟨S_, .f32⟩
  | .hbm, ⟨40, _⟩ => ⟨S_, .f32⟩
  | .hbm, ⟨41, _⟩ => ⟨S32x1024x1024, .f32⟩
  | .hbm, ⟨42, _⟩ => ⟨S32x1024x1024, .f32⟩
  | .hbm, ⟨43, _⟩ => ⟨S_, .i1⟩
  | .hbm, ⟨44, _⟩ => ⟨S1024x1024, .i1⟩
  | .hbm, ⟨45, _⟩ => ⟨S1024x1024, .i32⟩
  | .hbm, ⟨46, _⟩ => ⟨S_, .i32⟩
  | .hbm, ⟨47, _⟩ => ⟨S1024x1024, .i32⟩
  | .hbm, ⟨48, _⟩ => ⟨S1024x1024, .i32⟩
  | .hbm, ⟨49, _⟩ => ⟨S1024x1024, .i32⟩
  | .hbm, ⟨50, _⟩ => ⟨S1024x1024, .i1⟩
  | .hbm, ⟨51, _⟩ => ⟨S_, .i1⟩
  | .hbm, ⟨52, _⟩ => ⟨S1024x1024, .i1⟩
  | .hbm, ⟨53, _⟩ => ⟨S1024x1024, .i1⟩
  | .hbm, ⟨54, _⟩ => ⟨S_, .f32⟩
  | .hbm, ⟨55, _⟩ => ⟨S_, .f32⟩
  | .hbm, ⟨56, _⟩ => ⟨S32x1024x1024, .i1⟩
  | .hbm, ⟨57, _⟩ => ⟨S32x1024x1024, .f32⟩
  | .hbm, ⟨58, _⟩ => ⟨S32x1024x1024, .f32⟩
  | .hbm, ⟨59, _⟩ => ⟨S_, .f32⟩
  | .hbm, ⟨60, _⟩ => ⟨S32x1024, .f32⟩
  | .hbm, ⟨61, _⟩ => ⟨S_, .f32⟩
  | .hbm, ⟨62, _⟩ => ⟨S32x1024, .f32⟩
  | .hbm, ⟨63, _⟩ => ⟨S32x1024, .f32⟩
  | .hbm, ⟨64, _⟩ => ⟨S32x1024x1, .f32⟩
  | .hbm, ⟨65, _⟩ => ⟨S32x1024x1024, .f32⟩
  | .hbm, ⟨66, _⟩ => ⟨S32x1024x1024, .f32⟩
  | .hbm, ⟨67, _⟩ => ⟨S32x1024x1024, .f32⟩
  | .hbm, ⟨68, _⟩ => ⟨S_, .f32⟩
  | .hbm, ⟨69, _⟩ => ⟨S32x1024, .f32⟩
  | .hbm, ⟨70, _⟩ => ⟨S32x1024x1, .f32⟩
  | .hbm, ⟨71, _⟩ => ⟨S32x1024x1024, .f32⟩
  | .hbm, ⟨72, _⟩ => ⟨S32x1024x1024, .f32⟩
  | .hbm, ⟨73, _⟩ => ⟨S32x1024x64, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_v31 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_0 : Ref sig .tc := ⟨.hbm, 51, rfl⟩
abbrev main_call0_v5 : Ref sig .tc := ⟨.hbm, 52, rfl⟩
abbrev main_v32 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩

abbrev nD : Nat := 1
abbrev τ : Topo := Topo.v7x

variable {F : FTy → Type} [FloatOps F]

class Facts₀ : Prop where
  reducesTo_S32x1024x768_S32x1024_d2 : S32x1024x768.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x768_0_1_2 : S32x1024x1.BroadcastsInDim S32x1024x768 (![0, 1, 2] : Fin 3 → Fin S32x1024x768.rank)
  bcast_S768_S1x1x768_2 : S768.BroadcastsInDim S1x1x768 (![2] : Fin 1 → Fin S1x1x768.rank)
  bcast_S1x1x768_S32x1024x768_0_1_2 : S1x1x768.BroadcastsInDim S32x1024x768 (![0, 1, 2] : Fin 3 → Fin S32x1024x768.rank)
  bcast_S_S32x1024x1024 : S_.BroadcastsInDim S32x1024x1024 (![] : Fin 0 → Fin S32x1024x1024.rank)
  bcast_S_S1024x1024 : S_.BroadcastsInDim S1024x1024 (![] : Fin 0 → Fin S1024x1024.rank)
  bcast_S1024x1024_S32x1024x1024_1_2 : S1024x1024.BroadcastsInDim S32x1024x1024 (![1, 2] : Fin 2 → Fin S32x1024x1024.rank)
  reducesTo_S32x1024x1024_S32x1024_d2 : S32x1024x1024.ReducesTo [2] S32x1024
  bcast_S_S32x1024 : S_.BroadcastsInDim S32x1024 (![] : Fin 0 → Fin S32x1024.rank)
  bcast_S32x1024x1_S32x1024x1024_0_1_2 : S32x1024x1.BroadcastsInDim S32x1024x1024 (![0, 1, 2] : Fin 3 → Fin S32x1024x1024.rank)
  dot_S32x1024x768_S64x768_S32x1024x64_2_1_01_0_n_n_wf : DotDims.WF S32x1024x768 S64x768 S32x1024x64 [2] [1] [0, 1] [0] [] []
  dot_S32x1024x64_S32x1024x64_S32x1024x1024_2_2_1_1_0_0_wf : DotDims.WF S32x1024x64 S32x1024x64 S32x1024x1024 [2] [2] [1] [1] [0] [0]
  dot_S32x1024x1024_S32x1024x64_S32x1024x64_2_1_1_2_0_0_wf : DotDims.WF S32x1024x1024 S32x1024x64 S32x1024x64 [2] [1] [1] [2] [0] [0]

variable [Facts₀]

def dot_S32x1024x768_S64x768_S32x1024x64_2_1_01_0_n_n : DotDims S32x1024x768 S64x768 S32x1024x64 where
  lhsContracting := [2]
  rhsContracting := [1]
  lhsNonContracting := [0, 1]
  rhsNonContracting := [0]
  lhsBatch := []
  rhsBatch := []
  wf := dot_S32x1024x768_S64x768_S32x1024x64_2_1_01_0_n_n_wf
def dot_S32x1024x64_S32x1024x64_S32x1024x1024_2_2_1_1_0_0 : DotDims S32x1024x64 S32x1024x64 S32x1024x1024 where
  lhsContracting := [2]
  rhsContracting := [2]
  lhsNonContracting := [1]
  rhsNonContracting := [1]
  lhsBatch := [0]
  rhsBatch := [0]
  wf := dot_S32x1024x64_S32x1024x64_S32x1024x1024_2_2_1_1_0_0_wf
def dot_S32x1024x1024_S32x1024x64_S32x1024x64_2_1_1_2_0_0 : DotDims S32x1024x1024 S32x1024x64 S32x1024x64 where
  lhsContracting := [2]
  rhsContracting := [1]
  lhsNonContracting := [1]
  rhsNonContracting := [2]
  lhsBatch := [0]
  rhsBatch := [0]
  wf := dot_S32x1024x1024_S32x1024x64_S32x1024x64_2_1_1_2_0_0_wf

class Facts : Prop extends Facts₀ where

variable [Facts]
-- ==== Proof.KernelFrame.lean ====
import proofs.«105540_j9242769622267_2_alg».proof.Proof.Gen.Kernel.Launch
import proofs.«105540_j9242769622267_2_alg».proof.Proof.Gen.Kernel.Skeleton
import proofs.«105540_j9242769622267_2_alg».proof.Proof.Gen.Kernel.Points
import Idealize.ShloMosaic.Lib.Pipeline.FrameBody
import Idealize.ShloMosaic.Lib.Ring
import Idealize.ShloMosaic.Lib.Tactic

/-!
# The frame of the attention kernel

The program is five host operations (three transposes, a concatenation, a conversion to bf16) followed by one
pipelined region over a grid of 32 points. Four windows are read (the activation block, the two LayerNorm
vectors, the fused projection matrix) and one is written (the attention output block). The body stores four
row tiles of 256 rows each, which together tile the output block, so what the body leaves in the output
buffer is a function of the four input blocks alone: `out0_4`. From the body's triple the pipeline's frame
run follows, and from it the claim that every argument array ends as it started.
-/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the region -/

/-- Core `c`'s buffers when the region is entered: the launch contents after the five host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post is a run to
    the frame claim's post: a staged input array ends at its entry contents, an array no window stages keeps its
    entry contents, and no host operation writes an argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's accesses -/

/-- The whole activation block. -/
abbrev rX : Rect S1x1024x768 := Rect.unit (s := S1x1024x768) ![0, 0, 0] S1x1024x768.size inb_S1x1024x768_S1x1024x768_0_0_0
/-- A whole LayerNorm vector. -/
abbrev rG : Rect S768 := Rect.unit (s := S768) ![0] S768.size inb_S768_S768_0
/-- The whole projection matrix. -/
abbrev rW : Rect S768x192 := Rect.unit (s := S768x192) ![0, 0] S768x192.size inb_S768x192_S768x192_0_0
/-- Rows 0–255 of the output block. -/
abbrev rO0 : Rect S1x1024x64 := Rect.unit (s := S1x1024x64) ![0, 0, 0] S1x256x64.size inb_S1x1024x64_S1x256x64_0_0_0
/-- Rows 256–511 of the output block. -/
abbrev rO1 : Rect S1x1024x64 := Rect.unit (s := S1x1024x64) ![0, 256, 0] S1x256x64.size inb_S1x1024x64_S1x256x64_0_256_0
/-- Rows 512–767 of the output block. -/
abbrev rO2 : Rect S1x1024x64 := Rect.unit (s := S1x1024x64) ![0, 512, 0] S1x256x64.size inb_S1x1024x64_S1x256x64_0_512_0
/-- Rows 768–1023 of the output block. -/
abbrev rO3 : Rect S1x1024x64 := Rect.unit (s := S1x1024x64) ![0, 768, 0] S1x256x64.size inb_S1x1024x64_S1x256x64_0_768_0

/-! ## What the body leaves in the output window's buffer -/

/-- The query projection of the normalised block, in bf16 (columns 0–63 of the fused product). -/
def projQ (x0 : Vec F S1x1024x768 .f32) (x1 x2 : Vec F S768 .f32) (x3 : Vec F S768x192 .bf16) : FVec F S1024x64 .bf16 :=
  k0_pay3 (View.ld x0 rX) (View.ld x1 rG) (View.ld x2 rG) (View.ld x3 rW)
/-- The key projection (columns 64–127). -/
def projK (x0 : Vec F S1x1024x768 .f32) (x1 x2 : Vec F S768 .f32) (x3 : Vec F S768x192 .bf16) : FVec F S1024x64 .bf16 :=
  k0_pay4 (View.ld x0 rX) (View.ld x1 rG) (View.ld x2 rG) (View.ld x3 rW)
/-- The value projection (columns 128–191). -/
def projV (x0 : Vec F S1x1024x768 .f32) (x1 x2 : Vec F S768 .f32) (x3 : Vec F S768x192 .bf16) : FVec F S1024x64 .bf16 :=
  k0_pay5 (View.ld x0 rX) (View.ld x1 rG) (View.ld x2 rG) (View.ld x3 rW)
/-- Rows 0–255 of the query projection. -/
def projQ0 (x0 : Vec F S1x1024x768 .f32) (x1 x2 : Vec F S768 .f32) (x3 : Vec F S768x192 .bf16) : FVec F S256x64 .bf16 :=
  k0_pay7 (View.ld x0 rX) (View.ld x1 rG) (View.ld x2 rG) (View.ld x3 rW)

/-- Output rows 0–255: query tile 0 against key/value tile 0, under the causal mask. -/
def tile0 (k v : FVec F S1024x64 .bf16) (q0 : FVec F S256x64 .bf16) : FVec F S1x256x64 .f32 :=
  k0_pay10 k v k0_pay6 q0 (k0_pay8 (F := F)) (k0_pay9 (F := F))
/-- Output rows 256–511: query tile 1 against key/value tiles 0 (unmasked) and 1 (masked). -/
def tile1 (q k v : FVec F S1024x64 .bf16) : FVec F S1x256x64 .f32 :=
  k0_pay19 k v k0_pay6 (k0_pay11 q) (k0_pay13 (F := F)) (k0_pay14 (F := F)) (k0_pay15 v) (k0_pay16 q k) (k0_pay17 q k) (k0_pay18 q k)
/-- Output rows 512–767: query tile 2 against key/value tiles 0, 1 (unmasked) and 2 (masked). -/
def tile2 (q k v : FVec F S1024x64 .bf16) : FVec F S1x256x64 .f32 :=
  k0_pay35 k0_pay6 (k0_pay28 k (k0_pay20 q) (k0_pay21 (F := F))) (k0_pay31 k (k0_pay20 q) (k0_pay21 (F := F)) (k0_pay22 (F := F)))
    (k0_pay32 k v (k0_pay20 q) (k0_pay21 (F := F)) (Scalar.ofBits .f32 0x00000000#32 : F .f32)) (k0_pay33 v) (k0_pay34 k (k0_pay20 q))
    (Scalar.ofBits .f32 0x3E000000#32 : F .f32)
/-- Output rows 768–1023: query tile 3 against key/value tiles 0, 1, 2 (unmasked) and 3 (masked). -/
def tile3 (q k v : FVec F S1024x64 .bf16) : FVec F S1x256x64 .f32 :=
  k0_pay1 k v k0_pay6 (k0_pay36 q) (k0_pay50 v) (k0_pay52 k (k0_pay36 q) (k0_pay41 q k))
    (k0_pay55 k (k0_pay36 q) (k0_pay41 q k) (k0_pay44 q k) (k0_pay45 q k))
    (k0_pay56 k v (k0_pay36 q) (k0_pay38 (F := F)) (k0_pay39 v) (k0_pay41 q k) (k0_pay42 q k) (k0_pay43 q k))
    (k0_pay57 k (k0_pay36 q) (k0_pay41 q k)) (constant S256x64 .f32 0x00000000#32 : FVec F S256x64 .f32)

/-- Window 4's staging buffer after the body, from the input windows' blocks: its four stores as pieces, the last
    store first. -/
def out0_4 (x0 : Vec F S1x1024x768 .f32) (x1 x2 : Vec F S768 .f32) (x3 : Vec F S768x192 .bf16) : Vec F S1x1024x64 .f32 :=
  View.canon [⟨rO3, tile3 (projQ x0 x1 x2 x3) (projK x0 x1 x2 x3) (projV x0 x1 x2 x3)⟩,
    ⟨rO2, tile2 (projQ x0 x1 x2 x3) (projK x0 x1 x2 x3) (projV x0 x1 x2 x3)⟩,
    ⟨rO1, tile1 (projQ x0 x1 x2 x3) (projK x0 x1 x2 x3) (projV x0 x1 x2 x3)⟩,
    ⟨rO0, tile0 (projK x0 x1 x2 x3) (projV x0 x1 x2 x3) (projQ0 x0 x1 x2 x3)⟩]

/-- The four row tiles tile the block, so they cover it. -/
theorem cover0_4 (p0 p1 p2 p3 : Vec F S1x256x64 .f32) (y : S1x1024x64.Idx) :
    ∃ pc ∈ ([⟨rO3, p0⟩, ⟨rO2, p1⟩, ⟨rO1, p2⟩, ⟨rO0, p3⟩] : List (View.Piece (Elt F) S1x1024x64 .f32)), y ∈ pc.1.set :=
  View.cover_of_tiled [⟨rO3, p0⟩, ⟨rO2, p1⟩, ⟨rO1, p2⟩, ⟨rO0, p3⟩] S1x256x64.size (by rfl) y

/-! ## The body's triple -/

set_option maxHeartbeats 4000000 in
/-- The kernel body on whole staging memrefs, the inputs' at contents `xW` and the output's at anything, runs to the
    continuation holding the inputs' as they were and the output's at `out0_4` of the inputs'. The body reads the
    output buffer before each store, but uses none of what it reads. -/
theorem sound_kernel (c : Dev nD) (E : Set ℕ) (i : grid0.Coords) (arg1 : Memref sig .tc .vmem S1x1024x768 .f32) (harg1 : arg1.IsWhole)
    (arg2 : Memref sig .tc .vmem S768 .f32) (harg2 : arg2.IsWhole) (arg3 : Memref sig .tc .vmem S768 .f32) (harg3 : arg3.IsWhole)
    (arg4 : Memref sig .tc .vmem S768x192 .bf16) (harg4 : arg4.IsWhole) (arg5 : Memref sig .tc .vmem S1x1024x64 .f32) (harg5 : arg5.IsWhole)
    (x0 : Vec F S1x1024x768 .f32) (x1 x2 : Vec F S768 .f32) (x3 : Vec F S768x192 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__attn_kernel i arg1 harg1 arg2 harg2 arg3 harg3 arg4 harg4 arg5 harg5) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _ _ _)

/-! ## The pipeline's proof data -/

/-- The proof data of the pipeline on core `c`: the arrays as the region finds them; after the body at point `t`
    each input's buffer at its block and the output's at `out0_4` of the input blocks; the invariant the scoped rest
    and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- For any values, from any memory with zero counters: every weakly fair execution of the program on the TensorCores
    terminates, and every final state has every array of the pipeline at what the proof data computes and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- The frame: the program runs, and each of its six argument arrays ends as it started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KernelTiles.lean ====
/-
  The attention kernel's four stores, each written as a streaming softmax over key tiles.

  The body works on the query, key and value matrices `Q K V : [1024, 64]` of one batch entry, cut into four
  tiles of 256 rows. For query tile `a` it walks the key tiles `b = 0 … a`, keeping a running row maximum `m`,
  a running denominator `l` and a running numerator `acc`:

      s      = (Q_a · K_bᵀ) · (1/8), on the diagonal tile b = a masked to -∞ above the diagonal
      mnew   = max m (row maximum of s)
      p      = exp (s - mnew)
      l'     = exp (m - mnew) · l   + row sum of p
      acc'   = exp (m - mnew) · acc + p · V_b
      result = acc / l

  Here each of these steps is one definition, stated for any float instance, and each stored value is
  shown to be the nest of these steps — by unfolding only: the stored values are the same operations in the
  same order.
-/
import proofs.«105540_j9242769622267_2_alg».proof.Proof.Gen.KernelIdeal.Skeleton

set_option maxRecDepth 65536

noncomputable section

namespace Cert.KernelIdeal.Tiles

open Idealize.ShloMosaic Idealize.SL.Sem Cert.KernelIdeal Cert.KernelIdeal.Gen

variable {F : FTy → Type} [FloatOps F] [Named F]

/-- The running state of one query tile: row maxima, denominators, numerators. -/
structure St (F : FTy → Type) where
  m : FVec F S256x1 .f32
  l : FVec F S256x1 .f32
  acc : FVec F S256x64 .f32

/-- The state before any key tile: maxima -∞, denominators and numerators 0. -/
def st0 : St F :=
  ⟨broadcast S256x1 (Scalar.ofBits .f32 0xFF800000#32), broadcast S256x1 (Scalar.ofBits .f32 0x00000000#32),
   broadcast S256x64 (Scalar.ofBits .f32 0x00000000#32)⟩

/-- A tile of 256 rows of a `[1024, 64]` matrix. -/
def tileAt (off : Nat) (X : FVec F S1024x64 .bf16) (h : S1024x64.Slices ![off, 0] S256x64) : FVec F S256x64 .bf16 :=
  extractStridedSlice S256x64 ![off, 0] X h

/-- The scaled scores of a query tile against a key tile. -/
def scores (qt kt : FVec F S256x64 .bf16) : FVec F S256x256 .f32 :=
  mulf (matmul dot_S256x64_S256x64_S256x256_1_1_0_0_n_n none qt kt (constant S256x256 .f32 0x00000000#32))
    (broadcast S256x256 (Scalar.ofBits .f32 0x3E000000#32))

/-- The causal mask of a diagonal tile: entries above the diagonal replaced by the named -∞. -/
def masked (msk : IVec S256x256 1) (s : FVec F S256x256 .f32) : FVec F S256x256 .f32 :=
  select msk s (broadcast S256x256 (Named.named κ "neg_big" 0xFF333332#32))

/-- The new running maximum. -/
def newMax (m : FVec F S256x1 .f32) (s : FVec F S256x256 .f32) : FVec F S256x1 .f32 :=
  maximumf m (shapeCast S256x1 (multiReduction .maximumf [1] S256 s 0xFF800000#32 reduces_S256x256_S256 (.inl rfl) rfl) shapeCasts_S256_S256x1)

/-- The unnormalised weights at the new maximum. -/
def probs (mnew : FVec F S256x1 .f32) (s : FVec F S256x256 .f32) : FVec F S256x256 .f32 :=
  exp (subf s (broadcastTo S256x256 mnew broadcasts_S256x1_S256x256))

/-- The new denominator. -/
def newL (m mnew l : FVec F S256x1 .f32) (p : FVec F S256x256 .f32) : FVec F S256x1 .f32 :=
  addf (mulf (exp (subf m mnew)) l)
    (shapeCast S256x1 (multiReduction .add [1] S256 p 0x00000000#32 reduces_S256x256_S256 (.inl rfl) rfl) shapeCasts_S256_S256x1)

/-- The new numerator. -/
def newAcc (m mnew : FVec F S256x1 .f32) (acc : FVec F S256x64 .f32) (p : FVec F S256x256 .f32) (vt : FVec F S256x64 .bf16) :
    FVec F S256x64 .f32 :=
  addf (mulf (broadcastTo S256x64 (exp (subf m mnew)) broadcasts_S256x1_S256x64) acc)
    (matmul dot_S256x256_S256x64_S256x64_1_0_0_1_n_n none (truncf .bf16 p bitsLt_bf16_f32) vt (constant S256x64 .f32 0x00000000#32))

/-- One key tile joins the state. -/
def step (st : St F) (s : FVec F S256x256 .f32) (vt : FVec F S256x64 .bf16) : St F :=
  ⟨newMax st.m s, newL st.m (newMax st.m s) st.l (probs (newMax st.m s) s),
   newAcc st.m (newMax st.m s) st.acc (probs (newMax st.m s) s) vt⟩

/-- The stored block: numerators over denominators, given its leading unit axis. -/
def finish (st : St F) : FVec F S1x256x64 .f32 :=
  shapeCast S1x256x64 (divf st.acc (broadcastTo S256x64 st.l broadcasts_S256x1_S256x64)) shapeCasts_S256x64_S1x256x64

section Stores

variable (v0 : Vec F S1x1024x768 .f32) (v20 v24 : Vec F S768 .f32) (v29 : Vec F S768x192 .bf16)

/-- Query, key and value matrices of the batch entry. -/
abbrev Qm : FVec F S1024x64 .bf16 := k0_pay3 v0 v20 v24 v29
abbrev Km : FVec F S1024x64 .bf16 := k0_pay4 v0 v20 v24 v29
abbrev Vm : FVec F S1024x64 .bf16 := k0_pay5 v0 v20 v24 v29

/-- The score tile of query tile at `a` against key tile at `b`. -/
def sc (a b : Nat) (ha : S1024x64.Slices ![a, 0] S256x64) (hb : S1024x64.Slices ![b, 0] S256x64) : FVec F S256x256 .f32 :=
  scores (tileAt a (Qm v0 v20 v24 v29) ha) (tileAt b (Km v0 v20 v24 v29) hb)

/-- Rows 0 … 255. -/
def tile0 : FVec F S1x256x64 .f32 :=
  finish (step st0 (masked k0_pay6 (sc v0 v20 v24 v29 0 0 slices_S1024x64_o0_0_S256x64 slices_S1024x64_o0_0_S256x64))
    (tileAt 0 (Vm v0 v20 v24 v29) slices_S1024x64_o0_0_S256x64))

/-- Rows 256 … 511. -/
def tile1 : FVec F S1x256x64 .f32 :=
  finish (step (step st0 (sc v0 v20 v24 v29 256 0 slices_S1024x64_o256_0_S256x64 slices_S1024x64_o0_0_S256x64)
      (tileAt 0 (Vm v0 v20 v24 v29) slices_S1024x64_o0_0_S256x64))
    (masked k0_pay6 (sc v0 v20 v24 v29 256 256 slices_S1024x64_o256_0_S256x64 slices_S1024x64_o256_0_S256x64))
    (tileAt 256 (Vm v0 v20 v24 v29) slices_S1024x64_o256_0_S256x64))

/-- Rows 512 … 767. -/
def tile2 : FVec F S1x256x64 .f32 :=
  finish (step (step (step st0 (sc v0 v20 v24 v29 512 0 slices_S1024x64_o512_0_S256x64 slices_S1024x64_o0_0_S256x64)
        (tileAt 0 (Vm v0 v20 v24 v29) slices_S1024x64_o0_0_S256x64))
      (sc v0 v20 v24 v29 512 256 slices_S1024x64_o512_0_S256x64 slices_S1024x64_o256_0_S256x64)
      (tileAt 256 (Vm v0 v20 v24 v29) slices_S1024x64_o256_0_S256x64))
    (masked k0_pay6 (sc v0 v20 v24 v29 512 512 slices_S1024x64_o512_0_S256x64 slices_S1024x64_o512_0_S256x64))
    (tileAt 512 (Vm v0 v20 v24 v29) slices_S1024x64_o512_0_S256x64))

/-- Rows 768 … 1023. -/
def tile3 : FVec F S1x256x64 .f32 :=
  finish (step (step (step (step st0 (sc v0 v20 v24 v29 768 0 slices_S1024x64_o768_0_S256x64 slices_S1024x64_o0_0_S256x64)
          (tileAt 0 (Vm v0 v20 v24 v29) slices_S1024x64_o0_0_S256x64))
        (sc v0 v20 v24 v29 768 256 slices_S1024x64_o768_0_S256x64 slices_S1024x64_o256_0_S256x64)
        (tileAt 256 (Vm v0 v20 v24 v29) slices_S1024x64_o256_0_S256x64))
      (sc v0 v20 v24 v29 768 512 slices_S1024x64_o768_0_S256x64 slices_S1024x64_o512_0_S256x64)
      (tileAt 512 (Vm v0 v20 v24 v29) slices_S1024x64_o512_0_S256x64))
    (masked k0_pay6 (sc v0 v20 v24 v29 768 768 slices_S1024x64_o768_0_S256x64 slices_S1024x64_o768_0_S256x64))
    (tileAt 768 (Vm v0 v20 v24 v29) slices_S1024x64_o768_0_S256x64))

/-- The first store's value is tile 0. -/
theorem store0_eq :
    k0_pay10 (Km v0 v20 v24 v29) (Vm v0 v20 v24 v29) k0_pay6 (k0_pay7 v0 v20 v24 v29) (k0_pay8 (F := F)) (k0_pay9 (F := F))
      = tile0 v0 v20 v24 v29 := rfl

/-- The second store's value is tile 1. -/
theorem store1_eq :
    k0_pay19 (Km v0 v20 v24 v29) (Vm v0 v20 v24 v29) k0_pay6 (k0_pay11 (Qm v0 v20 v24 v29)) (k0_pay13 (F := F)) (k0_pay14 (F := F))
        (k0_pay15 (Vm v0 v20 v24 v29)) (k0_pay16 (Qm v0 v20 v24 v29) (Km v0 v20 v24 v29))
        (k0_pay17 (Qm v0 v20 v24 v29) (Km v0 v20 v24 v29)) (k0_pay18 (Qm v0 v20 v24 v29) (Km v0 v20 v24 v29))
      = tile1 v0 v20 v24 v29 := rfl

/-- The third store's value is tile 2. -/
theorem store2_eq :
    k0_pay35 k0_pay6 (k0_pay28 (Km v0 v20 v24 v29) (k0_pay20 (Qm v0 v20 v24 v29)) (k0_pay21 (F := F)))
        (k0_pay31 (Km v0 v20 v24 v29) (k0_pay20 (Qm v0 v20 v24 v29)) (k0_pay21 (F := F)) (k0_pay22 (F := F)))
        (k0_pay32 (Km v0 v20 v24 v29) (Vm v0 v20 v24 v29) (k0_pay20 (Qm v0 v20 v24 v29)) (k0_pay21 (F := F)) (Scalar.ofBits .f32 0x00000000#32 : F .f32))
        (k0_pay33 (Vm v0 v20 v24 v29)) (k0_pay34 (Km v0 v20 v24 v29) (k0_pay20 (Qm v0 v20 v24 v29)))
        (Scalar.ofBits .f32 0x3E000000#32 : F .f32)
      = tile2 v0 v20 v24 v29 := rfl

/-- The fourth store's value is tile 3. -/
theorem store3_eq :
    k0_pay1 (Km v0 v20 v24 v29) (Vm v0 v20 v24 v29) k0_pay6 (k0_pay36 (Qm v0 v20 v24 v29)) (k0_pay50 (Vm v0 v20 v24 v29))
        (k0_pay52 (Km v0 v20 v24 v29) (k0_pay36 (Qm v0 v20 v24 v29)) (k0_pay41 (Qm v0 v20 v24 v29) (Km v0 v20 v24 v29)))
        (k0_pay55 (Km v0 v20 v24 v29) (k0_pay36 (Qm v0 v20 v24 v29)) (k0_pay41 (Qm v0 v20 v24 v29) (Km v0 v20 v24 v29))
          (k0_pay44 (Qm v0 v20 v24 v29) (Km v0 v20 v24 v29)) (k0_pay45 (Qm v0 v20 v24 v29) (Km v0 v20 v24 v29)))
        (k0_pay56 (Km v0 v20 v24 v29) (Vm v0 v20 v24 v29) (k0_pay36 (Qm v0 v20 v24 v29)) (k0_pay38 (F := F)) (k0_pay39 (Vm v0 v20 v24 v29))
          (k0_pay41 (Qm v0 v20 v24 v29) (Km v0 v20 v24 v29)) (k0_pay42 (Qm v0 v20 v24 v29) (Km v0 v20 v24 v29)) (k0_pay43 (Qm v0 v20 v24 v29) (Km v0 v20 v24 v29)))
        (k0_pay57 (Km v0 v20 v24 v29) (k0_pay36 (Qm v0 v20 v24 v29)) (k0_pay41 (Qm v0 v20 v24 v29) (Km v0 v20 v24 v29)))
        (constant S256x64 .f32 0x00000000#32 : FVec F S256x64 .f32)
      = tile3 v0 v20 v24 v29 := rfl

end Stores

end Cert.KernelIdeal.Tiles

end
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.LibTransposedProduct.lean ====
import Idealize.ShloMosaic.PureOps.Ideal
import Idealize.ShloMosaic.PureOps.Ideal.Laws
import Idealize.ShloMosaic.Lib.ValueIdx

/-!
# A matrix product whose right factor is stored transposed

`matmul_rowsT_apply`: for an `[a, k]` matrix `L` and a `[b, k]` matrix `R` (the right factor stored row by row, as a
linear layer stores its weights), the product contracted over the LAST axis of both and accumulated into zero is, at
`(r, c)`, the sum over `u < k` of `L (r, u) · R (c, u)` on the extended reals — at any extents, for any
dimension-numbers record whose operand indices have those coordinates.
-/

noncomputable section

open scoped BigOperators

namespace Cert.TransposedProduct

open Idealize.ShloMosaic Idealize.ShloMosaic.ValueIdx

/-- L · Rᵀ accumulated into zero, at `(r, c)`: row `r` of `L` against row `c` of `R`. -/
theorem matmul_rowsT_apply {a k b : ℕ} {φ₁ φ₂ : FTy}
    (D : DotDims ⟨2, ![a, k]⟩ ⟨2, ![b, k]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (L : FVec Ideal ⟨2, ![a, k]⟩ φ₁) (R : FVec Ideal ⟨2, ![b, k]⟩ φ₂) (r : Fin a) (c : Fin b) :
    FloatOps.matmul D prec L R (constant ⟨2, ![a, b]⟩ .f32 0x00000000#32) (ix2 r c)
      = ∑ u : Fin k, L (ix2 r u) * R (ix2 c u) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 c u := by
    funext ax
    match ax with
    | ⟨0, _⟩ => exact Fin.ext (hr0 _ _)
    | ⟨1, _⟩ => exact Fin.ext ((hr1 _ _).trans (contrEquiv1_symm_val D k hr hs u))
  rw [hL, hR]

end Cert.TransposedProduct

end
-- ==== Proof.Spec.lean ====
/-
  Causal single-head attention after a layer normalisation, as a function of real arrays.

  One batch entry is a matrix `X : Fin 1024 → Fin 768 → ℝ` of 1024 rows. Each row is normalised
  (mean `mu`, variance `var` as the mean of the squared deviations, then
  `(x - mu) · (√(var + ε))⁻¹ · γ + β`), projected onto 64 query, key and value directions, and row `q`
  attends to the rows `k ≤ q` with the softmax weights of the scores `⟨query q, key k⟩ / 8`.
  The softmax quotient is written at shift 0; it does not depend on the shift.
  Also here: the float literals the two programs spell, as the extended reals they denote.
-/
import Idealize.ShloMosaic.PureOps.Ideal
import Mathlib.Analysis.SpecialFunctions.Exp
import Mathlib.Analysis.SpecialFunctions.Sqrt

noncomputable section

namespace AttnSpec

open Idealize.ShloMosaic
open scoped BigOperators

/-! ### The literals -/

/-- The layer normalisation's ε: the binary value of the f32 word nearest to 1e-5. -/
def epsR : ℝ := 10995116 / 2 ^ 40

theorem epsR_pos : 0 < epsR := by unfold epsR; positivity

theorem ofBits_zero : Ideal.ofBits .f32 0x00000000#32 = 0 := by
  simp [Ideal.ofBits, Ideal.ieee]

theorem ofBits_768 : Ideal.ofBits .f32 0x44400000#32 = ((768 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_eps : Ideal.ofBits .f32 0x3727C5AC#32 = ((epsR : ℝ) : EReal) := by
  simp [Ideal.ofBits, Ideal.ieee, -EReal.coe_mul, epsR]; norm_num

theorem ofBits_neg_inf : Ideal.ofBits .f32 0xFF800000#32 = (⊥ : EReal) := by
  simp [Ideal.ofBits, Ideal.ieee]

/-! ### The function -/

/-- The mean of a row. -/
def mu (x : Fin 768 → ℝ) : ℝ := (∑ d, x d) / 768

/-- The variance of a row: the mean of the squared deviations. -/
def var (x : Fin 768 → ℝ) : ℝ := (∑ d, (x d - mu x) * (x d - mu x)) / 768

theorem var_nonneg (x : Fin 768 → ℝ) : 0 ≤ var x :=
  div_nonneg (Finset.sum_nonneg fun d _ => mul_self_nonneg _) (by norm_num)

theorem var_eps_pos (x : Fin 768 → ℝ) : 0 < var x + epsR := add_pos_of_nonneg_of_pos (var_nonneg x) epsR_pos

/-- One entry of the normalised row. -/
def xn (x γ β : Fin 768 → ℝ) (d : Fin 768) : ℝ :=
  (x d - mu x) * (Real.sqrt (var x + epsR))⁻¹ * γ d + β d

/-- The normalised row against one direction `w`. -/
def proj (x γ β w : Fin 768 → ℝ) : ℝ := ∑ d, xn x γ β d * w d

/-- The score of query row `q` against key row `k`. -/
def score (X : Fin 1024 → Fin 768 → ℝ) (γ β : Fin 768 → ℝ) (Wq Wk : Fin 64 → Fin 768 → ℝ) (q k : Fin 1024) : ℝ :=
  (∑ h : Fin 64, proj (X q) γ β (Wq h) * proj (X k) γ β (Wk h)) / 8

/-- The rows a query row attends to. -/
def seen (q : Fin 1024) : Finset (Fin 1024) := Finset.univ.filter fun k => k.val ≤ q.val

theorem seen_nonempty (q : Fin 1024) : (seen q).Nonempty := ⟨q, Finset.mem_filter.mpr ⟨Finset.mem_univ _, le_rfl⟩⟩

/-- Entry `(q, h)` of the attention's result for one batch entry. -/
def out (X : Fin 1024 → Fin 768 → ℝ) (γ β : Fin 768 → ℝ) (Wk Wq Wv : Fin 64 → Fin 768 → ℝ) (q : Fin 1024) (h : Fin 64) : ℝ :=
  (∑ k ∈ seen q, Real.exp (score X γ β Wq Wk q k - 0) * proj (X k) γ β (Wv h))
    / (∑ k ∈ seen q, Real.exp (score X γ β Wq Wk q k - 0))

end AttnSpec

end
-- ==== Proof.KernelStep.lean ====
/-
  One step of the streaming softmax, read entry by entry on the extended reals.

  For a row `r` of a query tile: the new maximum is the old one against the row's maximum of the
  score tile; the weights are `exp (s - mnew)`; the denominator and the numerator are rescaled by
  `exp (m - mnew)` and take the row's sum of weights, and of weights times values. The scores are
  `(∑ u, q (r, u) · k (c, u)) · (1/8)`; the causal mask of a diagonal tile keeps the entries with
  `c ≤ r` and sets the others to -∞; a tile of a `[1024, 64]` matrix reads the matrix 256·(tile number) rows down.
-/
import proofs.«105540_j9242769622267_2_alg».proof.Proof.KernelTiles
import proofs.«105540_j9242769622267_2_alg».proof.Proof.LibDenseRows
import proofs.«105540_j9242769622267_2_alg».proof.Proof.LibTransposedProduct
import proofs.«105540_j9242769622267_2_alg».proof.Proof.Spec
import Idealize.ShloMosaic.Lib.ValueLayout
import Idealize.ShloMosaic.Lib.Affine
import Idealize.ShloMosaic.PureOps.IdealRules

noncomputable section

namespace Cert.KernelIdeal.Tiles

open Idealize.ShloMosaic Idealize.ShloMosaic.ValueIdx Cert.KernelIdeal Cert.KernelIdeal.Gen Cert.DenseRows
open scoped BigOperators

/-- The running maximum after a tile, at row `r`. -/
theorem newMax_apply (m : FVec Ideal S256x1 .f32) (s : FVec Ideal S256x256 .f32) (r : Fin 256) :
    newMax m s (ix2 r (0 : Fin 1))
      = max (m (ix2 r (0 : Fin 1))) ((Finset.univ : Finset (Fin 256)).fold max (⊥ : EReal) fun c => s (ix2 r c)) := by
  unfold newMax
  refine (maximumf_apply _ _ _).trans ?_
  refine congrArg (max (m (ix2 r (0 : Fin 1)))) ?_
  refine (col_cast_apply _ shapeCasts_S256_S256x1 r).trans ?_
  refine (row_max_apply s 0xFF800000#32 reduces_S256x256_S256 (.inl rfl) rfl r).trans ?_
  exact congrArg (fun z => (Finset.univ : Finset (Fin 256)).fold max z fun c => s (ix2 r c)) AttnSpec.ofBits_neg_inf

/-- The weights at `(r, c)`. -/
theorem probs_apply (mnew : FVec Ideal S256x1 .f32) (s : FVec Ideal S256x256 .f32) (r c : Fin 256) :
    probs mnew s (ix2 r c) = Ideal.exp (s (ix2 r c) - mnew (ix2 r (0 : Fin 1))) := by
  unfold probs
  show Ideal.exp (subf s (broadcastTo S256x256 mnew broadcasts_S256x1_S256x256) (ix2 r c)) = _
  refine congrArg Ideal.exp ?_
  refine (subf_apply _ _ _).trans ?_
  exact congrArg (s (ix2 r c) - ·) (col_bcast_apply _ broadcasts_S256x1_S256x256 r c)

/-- The new denominator at row `r`. -/
theorem newL_apply (m mnew l : FVec Ideal S256x1 .f32) (p : FVec Ideal S256x256 .f32) (r : Fin 256) :
    newL m mnew l p (ix2 r (0 : Fin 1))
      = Ideal.exp (m (ix2 r (0 : Fin 1)) - mnew (ix2 r (0 : Fin 1))) * l (ix2 r (0 : Fin 1)) + ∑ c : Fin 256, p (ix2 r c) := by
  unfold newL
  refine (addf_apply _ _ _).trans ?_
  refine congrArg₂ (· + ·) rfl ?_
  exact (col_cast_apply _ shapeCasts_S256_S256x1 r).trans (row_sum_apply p 0x00000000#32 reduces_S256x256_S256 (.inl rfl) rfl r)

/-- The new numerator at `(r, h)`. -/
theorem newAcc_apply (m mnew : FVec Ideal S256x1 .f32) (acc : FVec Ideal S256x64 .f32) (p : FVec Ideal S256x256 .f32)
    (vt : FVec Ideal S256x64 .bf16) (r : Fin 256) (h : Fin 64) :
    newAcc m mnew acc p vt (ix2 r h)
      = Ideal.exp (m (ix2 r (0 : Fin 1)) - mnew (ix2 r (0 : Fin 1))) * acc (ix2 r h) + ∑ c : Fin 256, p (ix2 r c) * vt (ix2 c h) := by
  unfold newAcc
  refine (addf_apply _ _ _).trans ?_
  refine congrArg₂ (· + ·) ?_ ?_
  · refine (mulf_apply _ _ _).trans ?_
    exact congrArg (· * acc (ix2 r h)) (col_bcast_apply _ broadcasts_S256x1_S256x64 r h)
  · exact matmul_rows_apply dot_S256x256_S256x64_S256x64_1_0_0_1_n_n rfl rfl (fun _ _ => rfl) (fun _ _ => rfl) (fun _ _ => rfl)
      (fun _ _ => rfl) none (truncf .bf16 p bitsLt_bf16_f32) vt r h

/-- The stored block at `(0, r, h)`: numerator over denominator. -/
theorem finish_apply (st : St Ideal) (r : Fin 256) (h : Fin 64) :
    finish st (ix3 (0 : Fin 1) r h) = Ideal.div (st.acc (ix2 r h)) (st.l (ix2 r (0 : Fin 1))) := by
  unfold finish
  refine (shapeCast_ab_1ab_apply _ shapeCasts_S256x64_S1x256x64 0 r h).trans ?_
  refine (divf_apply _ _ _).trans ?_
  exact congrArg (Ideal.div (st.acc (ix2 r h))) (col_bcast_apply _ broadcasts_S256x1_S256x64 r h)

/-- The scaled scores at `(r, c)`. -/
theorem scores_apply (qt kt : FVec Ideal S256x64 .bf16) (r c : Fin 256) :
    scores qt kt (ix2 r c) = (∑ u : Fin 64, qt (ix2 r u) * kt (ix2 c u)) * ((1 / 8 : ℝ) : EReal) := by
  unfold scores
  refine (mulf_apply _ _ _).trans ?_
  refine congrArg₂ (· * ·) ?_ AttnSpec.ofBits_eighth
  exact Cert.TransposedProduct.matmul_rowsT_apply dot_S256x64_S256x64_S256x256_1_1_0_0_n_n rfl rfl (fun _ _ => rfl) (fun _ _ => rfl)
    (fun _ _ => rfl) (fun _ _ => rfl) none qt kt r c

private theorem toInt_small (n : ℕ) (hn : n < 256) : (BitVec.ofNat 32 n).toInt = (n : Int) := by
  rw [BitVec.toInt_eq_toNat_cond, BitVec.toNat_ofNat]
  have h1 : n % 2 ^ 32 = n := Nat.mod_eq_of_lt (by omega)
  rw [h1]
  have h2 : (2 : ℕ) ^ 32 = 4294967296 := by norm_num
  rw [h2]
  split <;> omega

/-- The causal mask's word at `(r, c)`: one exactly when `c ≤ r`. -/
theorem mask_apply (r c : Fin 256) : (k0_pay6 (ix2 r c) = 1#1) ↔ c.val ≤ r.val := by
  unfold k0_pay6
  show IntOp.cmpi .sge (iota .tc S256x256 32 [0] iota_S256x256_d0_w32 (ix2 r c)) (iota .tc S256x256 32 [1] iota_S256x256_d1_w32 (ix2 r c)) = 1#1 ↔ _
  rw [iota_single_apply, iota_single_apply, IntOp.cmpi_sge]
  show (BitVec.ofNat 32 c.val).toInt ≤ (BitVec.ofNat 32 r.val).toInt ↔ _
  rw [toInt_small _ c.isLt, toInt_small _ r.isLt]
  omega

/-- The named fill is -∞. -/
theorem neg_big_eq : Named.named (F := Ideal) κ "neg_big" (φ := .f32) 0xFF333332#32 = (⊥ : EReal) :=
  IdealRules.named_const.ideal_named_scalar _ _ _ _ rfl

/-- A masked score tile at `(r, c)`. -/
theorem masked_apply (s : FVec Ideal S256x256 .f32) (r c : Fin 256) :
    masked k0_pay6 s (ix2 r c) = if c.val ≤ r.val then s (ix2 r c) else (⊥ : EReal) := by
  unfold masked
  refine (select_apply _ _ _ _).trans ?_
  by_cases hc : c.val ≤ r.val
  · rw [if_pos hc, (mask_apply r c).mpr hc, select_one]
  · rw [if_neg hc, eq_zero_of_ne_one (fun h => hc ((mask_apply r c).mp h)), select_zero]
    exact neg_big_eq

/-- A tile of a `[1024, 64]` matrix reads the matrix `off` rows down. -/
theorem tileAt_apply (off : Nat) (X : FVec Ideal S1024x64 .bf16) (h : S1024x64.Slices ![off, 0] S256x64)
    (r : Fin 256) (u : Fin 64) (k : Fin 1024) (hk : k.val = off + r.val) :
    tileAt off X h (ix2 r u) = X (ix2 k u) := by
  unfold tileAt
  exact slice2_axis0_apply off X h r u k hk

end Cert.KernelIdeal.Tiles

end
-- ==== Proof.LibOnlineSoftmax.lean ====
/-
  Online (streaming) softmax, over the extended reals.

  A softmax-weighted sum `(∑ i, exp (s i - c) * v i) / (∑ i, exp (s i - c))` of real scores
  `s` and real values `v` does not depend on the real shift `c`. A streaming evaluation
  walks the keys block by block and keeps a running shift `m`, a running denominator `l`
  and a running numerator `acc`:

      start   m = ⊥ (that is -∞),  l = 0,  acc = 0
      step    mnew = max m bm                     (bm a real number)
              a    = exp (m - mnew)
              l'   = a * l   + ∑ k, exp (s k - mnew)
              acc' = a * acc + ∑ k, exp (s k - mnew) * v k
              m'   = mnew
      result  acc / l

  This file proves, for ANY real shifts `mnew` (no property of the maximum is used), any
  number of blocks and any finite index sets:

  * the real-number facts: re-shifting a sum of exponentials (`rescale_sum_exp`,
    `rescale_sum_exp_mul`) and the shift invariance of the quotient
    (`softmax_shift_invariant`, `sum_div_eq_sum_weights`);
  * the extended-real wrappers, stated with the operations of the instance `Ideal`
    (`Ideal.exp`, `Ideal.div`, EReal's `+ - * max`): the coercion of a finite sum
    (`coe_sum`), the exponential of a difference (`exp_coe_sub_coe`, `exp_bot_sub_coe`),
    the maxima (`max_bot_coe`, `max_coe_coe`, `fold_max_coe`, `fold_max_bot_coe`), the quotient of coerced reals
    (`div_coe_coe`, `mul_recip_coe`), the first step from the empty state
    (`first_step_l`, `first_step_acc`), a later step (`later_step_l`, `later_step_acc`, and
    their one-index-type forms over a disjoint union), and the final quotient against the
    reference's normalise-then-sum form (`final_div`, `final_div_raw`);
  * the whole recurrence for any number of blocks (`run`, `run_succ`, `run_result`).
-/
import Idealize.ShloMosaic.PureOps.Ideal
import Idealize.ShloMosaic.PureOps.Ideal.Laws
import Mathlib.Analysis.SpecialFunctions.Exp
import Mathlib.Data.EReal.Operations
import Mathlib.Data.EReal.Inv
import Mathlib.Algebra.BigOperators.Field
import Mathlib.Tactic.FieldSimp
import Mathlib.Tactic.Ring

noncomputable section

namespace OnlineSoftmax

open Idealize.ShloMosaic
open scoped BigOperators

/-! ### Real-number facts -/

section RealFacts
variable {ι : Type*}

/-- Moving the shift of one exponential from `μ` to `c`. -/
theorem exp_rescale (x μ c : ℝ) : Real.exp (μ - c) * Real.exp (x - μ) = Real.exp (x - c) := by
  rw [← Real.exp_add]; congr 1; ring

/-- Moving the shift of a sum of exponentials from `μ` to `c`. -/
theorem rescale_sum_exp (t : Finset ι) (s : ι → ℝ) (μ c : ℝ) :
    Real.exp (μ - c) * ∑ i ∈ t, Real.exp (s i - μ) = ∑ i ∈ t, Real.exp (s i - c) := by
  rw [Finset.mul_sum]
  exact Finset.sum_congr rfl fun i _ => exp_rescale (s i) μ c

/-- Moving the shift of a weighted sum of exponentials from `μ` to `c`. -/
theorem rescale_sum_exp_mul (t : Finset ι) (s v : ι → ℝ) (μ c : ℝ) :
    Real.exp (μ - c) * ∑ i ∈ t, Real.exp (s i - μ) * v i = ∑ i ∈ t, Real.exp (s i - c) * v i := by
  rw [Finset.mul_sum]
  refine Finset.sum_congr rfl fun i _ => ?_
  rw [← mul_assoc, exp_rescale]

/-- A nonempty sum of exponentials is positive. -/
theorem sum_exp_pos {t : Finset ι} (ht : t.Nonempty) (s : ι → ℝ) (c : ℝ) :
    0 < ∑ i ∈ t, Real.exp (s i - c) :=
  Finset.sum_pos (fun i _ => Real.exp_pos _) ht

theorem sum_exp_ne_zero {t : Finset ι} (ht : t.Nonempty) (s : ι → ℝ) (c : ℝ) :
    ∑ i ∈ t, Real.exp (s i - c) ≠ 0 :=
  (sum_exp_pos ht s c).ne'

/-- The softmax-weighted sum does not depend on the shift. -/
theorem softmax_shift_invariant {t : Finset ι} (ht : t.Nonempty) (s v : ι → ℝ) (μ M : ℝ) :
    (∑ i ∈ t, Real.exp (s i - μ) * v i) / (∑ i ∈ t, Real.exp (s i - μ))
      = (∑ i ∈ t, Real.exp (s i - M) * v i) / (∑ i ∈ t, Real.exp (s i - M)) := by
  rw [← rescale_sum_exp t s M μ, ← rescale_sum_exp_mul t s v M μ]
  rw [mul_div_mul_left _ _ (Real.exp_pos _).ne']

/-- Dividing the weighted sum by the total is summing with the normalised weights. -/
theorem sum_div_eq_sum_weights (t : Finset ι) (s v : ι → ℝ) (M : ℝ) :
    (∑ i ∈ t, Real.exp (s i - M) * v i) / (∑ i ∈ t, Real.exp (s i - M))
      = ∑ i ∈ t, Real.exp (s i - M) / (∑ i' ∈ t, Real.exp (s i' - M)) * v i := by
  rw [Finset.sum_div]
  refine Finset.sum_congr rfl fun i _ => ?_
  rw [div_mul_eq_mul_div]

/-- The streaming quotient at shift `μ` is the reference's normalise-then-sum at shift `M`. -/
theorem softmax_final_real {t : Finset ι} (ht : t.Nonempty) (s v : ι → ℝ) (μ M : ℝ) :
    (∑ i ∈ t, Real.exp (s i - μ) * v i) / (∑ i ∈ t, Real.exp (s i - μ))
      = ∑ i ∈ t, Real.exp (s i - M) / (∑ i' ∈ t, Real.exp (s i' - M)) * v i := by
  rw [softmax_shift_invariant ht s v μ M, sum_div_eq_sum_weights]

end RealFacts

/-! ### Extended-real wrappers: coercions, exponentials, maxima -/

section Wrappers
variable {ι κ : Type*}

/-- The coercion of a finite real sum is the sum of the coercions. -/
theorem coe_sum (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- `max` against `-∞` is the identity. -/
theorem max_bot_coe (x : ℝ) : max (⊥ : EReal) (x : EReal) = (x : EReal) := max_bot_left _

theorem max_bot_left' (x : EReal) : max (⊥ : EReal) x = x := max_bot_left _

/-- The maximum of two coerced reals is the coerced maximum. -/
theorem max_coe_coe (x y : ℝ) : max (x : EReal) (y : EReal) = ((max x y : ℝ) : EReal) :=
  (EReal.coe_strictMono.monotone.map_max).symm

/-- A fold of `max` over coerced reals, from a coerced real, is a coerced real. -/
theorem fold_max_coe (t : Finset κ) (f : κ → ℝ) (b : ℝ) :
    t.fold max (b : EReal) (fun k => (f k : EReal)) = ((t.fold max b f : ℝ) : EReal) := by
  classical
  induction t using Finset.induction_on with
  | empty => simp
  | insert a t ha ih => rw [Finset.fold_insert ha, Finset.fold_insert ha, ih, max_coe_coe]

/-- A fold of `max` over coerced reals, from `-∞`, over a nonempty set, is a coerced real. -/
theorem fold_max_bot_coe {t : Finset κ} (ht : t.Nonempty) (f : κ → ℝ) :
    ∃ x : ℝ, t.fold max (⊥ : EReal) (fun k => (f k : EReal)) = (x : EReal) := by
  classical
  induction ht using Finset.Nonempty.cons_induction with
  | singleton a => exact ⟨f a, by simp⟩
  | cons a t ha _ ih =>
    obtain ⟨x, hx⟩ := ih
    exact ⟨max (f a) x, by rw [Finset.fold_cons, hx, max_coe_coe]⟩

/-- The exponential of a difference of coerced reals. -/
theorem exp_coe_sub_coe (x c : ℝ) :
    Ideal.exp ((x : EReal) - (c : EReal)) = ((Real.exp (x - c) : ℝ) : EReal) := by
  rw [← EReal.coe_sub, Ideal.exp_coe]

/-- `exp (-∞ - x) = 0`: the first step's rescaling factor. -/
theorem exp_bot_sub (x : EReal) : Ideal.exp ((⊥ : EReal) - x) = 0 := by
  rw [EReal.bot_sub, Ideal.exp_bot]

theorem exp_bot_sub_coe (c : ℝ) : Ideal.exp ((⊥ : EReal) - (c : EReal)) = 0 := exp_bot_sub _

/-- A block's sum of exponentials is a coerced real. -/
theorem sum_exp_coe (t : Finset ι) (s : ι → ℝ) (c : ℝ) :
    ∑ i ∈ t, Ideal.exp ((s i : EReal) - (c : EReal)) = ((∑ i ∈ t, Real.exp (s i - c) : ℝ) : EReal) := by
  rw [coe_sum]
  exact Finset.sum_congr rfl fun i _ => exp_coe_sub_coe _ _

/-- A block's weighted sum of exponentials is a coerced real. -/
theorem sum_exp_mul_coe (t : Finset ι) (s v : ι → ℝ) (c : ℝ) :
    ∑ i ∈ t, Ideal.exp ((s i : EReal) - (c : EReal)) * (v i : EReal)
      = ((∑ i ∈ t, Real.exp (s i - c) * v i : ℝ) : EReal) := by
  rw [coe_sum]
  refine Finset.sum_congr rfl fun i _ => ?_
  rw [exp_coe_sub_coe, EReal.coe_mul]

/-- The instance's quotient of coerced reals, off a zero divisor, is the coerced quotient. -/
theorem div_coe_coe (x : ℝ) {y : ℝ} (h : y ≠ 0) :
    Ideal.div (x : EReal) (y : EReal) = ((x / y : ℝ) : EReal) := by
  rw [Ideal.div_coe h, ← EReal.coe_mul, mul_one_div]

/-- A product with the instance's reciprocal of a nonzero real is the instance's quotient. -/
theorem mul_recip_coe (x : EReal) {y : ℝ} (h : y ≠ 0) :
    x * Ideal.div 1 (y : EReal) = Ideal.div x (y : EReal) := by
  rw [Ideal.div_coe h, Ideal.div_coe h, one_mul]

end Wrappers

/-! ### One step of the recurrence -/

section Steps
variable {ι κ : Type*}

/-- First step, denominator: from `m = -∞`, `l = 0`. -/
theorem first_step_l (t : Finset κ) (s : κ → ℝ) (mnew : ℝ) :
    Ideal.exp ((⊥ : EReal) - (mnew : EReal)) * (0 : EReal)
        + ∑ k ∈ t, Ideal.exp ((s k : EReal) - (mnew : EReal))
      = ((∑ k ∈ t, Real.exp (s k - mnew) : ℝ) : EReal) := by
  rw [exp_bot_sub_coe, mul_zero, zero_add, sum_exp_coe]

/-- First step, numerator: from `m = -∞`, `acc = 0`. -/
theorem first_step_acc (t : Finset κ) (s v : κ → ℝ) (mnew : ℝ) :
    Ideal.exp ((⊥ : EReal) - (mnew : EReal)) * (0 : EReal)
        + ∑ k ∈ t, Ideal.exp ((s k : EReal) - (mnew : EReal)) * (v k : EReal)
      = ((∑ k ∈ t, Real.exp (s k - mnew) * v k : ℝ) : EReal) := by
  rw [exp_bot_sub_coe, mul_zero, zero_add, sum_exp_mul_coe]

/-- Later step, denominator: the keys seen so far (`P`, at shift `μ`) and this block (`B`), at the new
    shift. -/
theorem later_step_l (P : Finset ι) (B : Finset κ) (sP : ι → ℝ) (sB : κ → ℝ) (μ mnew : ℝ) :
    Ideal.exp ((μ : EReal) - (mnew : EReal)) * ((∑ i ∈ P, Real.exp (sP i - μ) : ℝ) : EReal)
        + ∑ k ∈ B, Ideal.exp ((sB k : EReal) - (mnew : EReal))
      = ((∑ i ∈ P, Real.exp (sP i - mnew) + ∑ k ∈ B, Real.exp (sB k - mnew) : ℝ) : EReal) := by
  rw [exp_coe_sub_coe, sum_exp_coe, ← EReal.coe_mul, ← EReal.coe_add, rescale_sum_exp]

/-- Later step, numerator. -/
theorem later_step_acc (P : Finset ι) (B : Finset κ) (sP vP : ι → ℝ) (sB vB : κ → ℝ) (μ mnew : ℝ) :
    Ideal.exp ((μ : EReal) - (mnew : EReal)) * ((∑ i ∈ P, Real.exp (sP i - μ) * vP i : ℝ) : EReal)
        + ∑ k ∈ B, Ideal.exp ((sB k : EReal) - (mnew : EReal)) * (vB k : EReal)
      = ((∑ i ∈ P, Real.exp (sP i - mnew) * vP i + ∑ k ∈ B, Real.exp (sB k - mnew) * vB k : ℝ) : EReal) := by
  rw [exp_coe_sub_coe, sum_exp_mul_coe, ← EReal.coe_mul, ← EReal.coe_add, rescale_sum_exp_mul]

/-- Later step, denominator, in one index type: seen keys and block are disjoint sets. -/
theorem later_step_l_union [DecidableEq ι] {P B : Finset ι} (h : Disjoint P B) (s : ι → ℝ) (μ mnew : ℝ) :
    Ideal.exp ((μ : EReal) - (mnew : EReal)) * ((∑ i ∈ P, Real.exp (s i - μ) : ℝ) : EReal)
        + ∑ k ∈ B, Ideal.exp ((s k : EReal) - (mnew : EReal))
      = ((∑ i ∈ P ∪ B, Real.exp (s i - mnew) : ℝ) : EReal) := by
  rw [later_step_l, Finset.sum_union h]

/-- Later step, numerator, in one index type. -/
theorem later_step_acc_union [DecidableEq ι] {P B : Finset ι} (h : Disjoint P B) (s v : ι → ℝ) (μ mnew : ℝ) :
    Ideal.exp ((μ : EReal) - (mnew : EReal)) * ((∑ i ∈ P, Real.exp (s i - μ) * v i : ℝ) : EReal)
        + ∑ k ∈ B, Ideal.exp ((s k : EReal) - (mnew : EReal)) * (v k : EReal)
      = ((∑ i ∈ P ∪ B, Real.exp (s i - mnew) * v i : ℝ) : EReal) := by
  rw [later_step_acc, Finset.sum_union h]

/-- Later step, denominator, over a sum type: seen keys `ι` and block keys `κ`. -/
theorem later_step_l_sum [Fintype ι] [Fintype κ] (sP : ι → ℝ) (sB : κ → ℝ) (μ mnew : ℝ) :
    Ideal.exp ((μ : EReal) - (mnew : EReal)) * ((∑ i, Real.exp (sP i - μ) : ℝ) : EReal)
        + ∑ k, Ideal.exp ((sB k : EReal) - (mnew : EReal))
      = ((∑ x : ι ⊕ κ, Real.exp (Sum.elim sP sB x - mnew) : ℝ) : EReal) := by
  rw [later_step_l, Fintype.sum_sum_type]; rfl

/-- Later step, numerator, over a sum type. -/
theorem later_step_acc_sum [Fintype ι] [Fintype κ] (sP vP : ι → ℝ) (sB vB : κ → ℝ) (μ mnew : ℝ) :
    Ideal.exp ((μ : EReal) - (mnew : EReal)) * ((∑ i, Real.exp (sP i - μ) * vP i : ℝ) : EReal)
        + ∑ k, Ideal.exp ((sB k : EReal) - (mnew : EReal)) * (vB k : EReal)
      = ((∑ x : ι ⊕ κ, Real.exp (Sum.elim sP sB x - mnew) * Sum.elim vP vB x : ℝ) : EReal) := by
  rw [later_step_acc, Fintype.sum_sum_type]; rfl

end Steps

/-! ### The final quotient against the reference's normalise-then-sum -/

section Final
variable {ι : Type*}

/-- The streaming quotient at shift `μ` is a coerced real: the softmax-weighted sum at any shift `M`. -/
theorem final_div_coe {t : Finset ι} (ht : t.Nonempty) (s v : ι → ℝ) (μ M : ℝ) :
    Ideal.div ((∑ i ∈ t, Real.exp (s i - μ) * v i : ℝ) : EReal) ((∑ i ∈ t, Real.exp (s i - μ) : ℝ) : EReal)
      = (((∑ i ∈ t, Real.exp (s i - M) * v i) / (∑ i ∈ t, Real.exp (s i - M)) : ℝ) : EReal) := by
  rw [div_coe_coe _ (sum_exp_ne_zero ht s μ), softmax_shift_invariant ht s v μ M]

/-- The streaming quotient at shift `μ` is the reference's sum of normalised weights times values at
    shift `M`, the weights and the total already coerced reals. -/
theorem final_div {t : Finset ι} (ht : t.Nonempty) (s v : ι → ℝ) (μ M : ℝ) :
    Ideal.div ((∑ i ∈ t, Real.exp (s i - μ) * v i : ℝ) : EReal) ((∑ i ∈ t, Real.exp (s i - μ) : ℝ) : EReal)
      = ∑ i ∈ t, Ideal.div ((Real.exp (s i - M) : ℝ) : EReal) ((∑ i' ∈ t, Real.exp (s i' - M) : ℝ) : EReal)
          * (v i : EReal) := by
  rw [div_coe_coe _ (sum_exp_ne_zero ht s μ), softmax_final_real ht s v μ M, coe_sum]
  refine Finset.sum_congr rfl fun i _ => ?_
  rw [div_coe_coe _ (sum_exp_ne_zero ht s M), EReal.coe_mul]

/-- The same with the reference's side written with the instance's own operations. -/
theorem final_div_raw {t : Finset ι} (ht : t.Nonempty) (s v : ι → ℝ) (μ M : ℝ) :
    Ideal.div ((∑ i ∈ t, Real.exp (s i - μ) * v i : ℝ) : EReal) ((∑ i ∈ t, Real.exp (s i - μ) : ℝ) : EReal)
      = ∑ i ∈ t, Ideal.div (Ideal.exp ((s i : EReal) - (M : EReal)))
            (∑ i' ∈ t, Ideal.exp ((s i' : EReal) - (M : EReal))) * (v i : EReal) := by
  rw [final_div ht s v μ M, sum_exp_coe]
  exact Finset.sum_congr rfl fun i _ => by rw [exp_coe_sub_coe]

end Final

/-! ### The whole recurrence, for any number of blocks -/

section Run
variable {α κ : Type*}

/-- Moving the shift of a sum over blocks of sums of exponentials. -/
theorem rescale_sum_sum_exp (R : Finset α) (B : α → Finset κ) (s : α → κ → ℝ) (μ c : ℝ) :
    Real.exp (μ - c) * ∑ j ∈ R, ∑ k ∈ B j, Real.exp (s j k - μ)
      = ∑ j ∈ R, ∑ k ∈ B j, Real.exp (s j k - c) := by
  rw [Finset.mul_sum]
  exact Finset.sum_congr rfl fun j _ => rescale_sum_exp (B j) (s j) μ c

/-- Moving the shift of a sum over blocks of weighted sums of exponentials. -/
theorem rescale_sum_sum_exp_mul (R : Finset α) (B : α → Finset κ) (s v : α → κ → ℝ) (μ c : ℝ) :
    Real.exp (μ - c) * ∑ j ∈ R, ∑ k ∈ B j, Real.exp (s j k - μ) * v j k
      = ∑ j ∈ R, ∑ k ∈ B j, Real.exp (s j k - c) * v j k := by
  rw [Finset.mul_sum]
  exact Finset.sum_congr rfl fun j _ => rescale_sum_exp_mul (B j) (s j) (v j) μ c

/-- Later step, denominator, blocks counted by `ℕ`: blocks `0 … n-1` seen, block `n` joins. -/
theorem later_step_l_range (B : ℕ → Finset κ) (s : ℕ → κ → ℝ) (n : ℕ) (μ mnew : ℝ) :
    Ideal.exp ((μ : EReal) - (mnew : EReal))
          * ((∑ j ∈ Finset.range n, ∑ k ∈ B j, Real.exp (s j k - μ) : ℝ) : EReal)
        + ∑ k ∈ B n, Ideal.exp ((s n k : EReal) - (mnew : EReal))
      = ((∑ j ∈ Finset.range (n + 1), ∑ k ∈ B j, Real.exp (s j k - mnew) : ℝ) : EReal) := by
  rw [exp_coe_sub_coe, sum_exp_coe, ← EReal.coe_mul, ← EReal.coe_add,
    rescale_sum_sum_exp (Finset.range n) B s μ mnew, Finset.sum_range_succ]

/-- Later step, numerator, blocks counted by `ℕ`. -/
theorem later_step_acc_range (B : ℕ → Finset κ) (s v : ℕ → κ → ℝ) (n : ℕ) (μ mnew : ℝ) :
    Ideal.exp ((μ : EReal) - (mnew : EReal))
          * ((∑ j ∈ Finset.range n, ∑ k ∈ B j, Real.exp (s j k - μ) * v j k : ℝ) : EReal)
        + ∑ k ∈ B n, Ideal.exp ((s n k : EReal) - (mnew : EReal)) * (v n k : EReal)
      = ((∑ j ∈ Finset.range (n + 1), ∑ k ∈ B j, Real.exp (s j k - mnew) * v j k : ℝ) : EReal) := by
  rw [exp_coe_sub_coe, sum_exp_mul_coe, ← EReal.coe_mul, ← EReal.coe_add,
    rescale_sum_sum_exp_mul (Finset.range n) B s v μ mnew, Finset.sum_range_succ]

/-- The state `(m, l, acc)` after `n` blocks: block `j` has keys `B j`, real scores `s j` and real
    values `v j`, and the real number `bm j` joins the running shift by `max`. -/
def run (B : ℕ → Finset κ) (s v : ℕ → κ → ℝ) (bm : ℕ → ℝ) : ℕ → EReal × EReal × EReal
  | 0 => (⊥, 0, 0)
  | n + 1 =>
    (max (run B s v bm n).1 (bm n : EReal),
     Ideal.exp ((run B s v bm n).1 - max (run B s v bm n).1 (bm n : EReal)) * (run B s v bm n).2.1
       + ∑ k ∈ B n, Ideal.exp ((s n k : EReal) - max (run B s v bm n).1 (bm n : EReal)),
     Ideal.exp ((run B s v bm n).1 - max (run B s v bm n).1 (bm n : EReal)) * (run B s v bm n).2.2
       + ∑ k ∈ B n, Ideal.exp ((s n k : EReal) - max (run B s v bm n).1 (bm n : EReal)) * (v n k : EReal))

theorem run_zero (B : ℕ → Finset κ) (s v : ℕ → κ → ℝ) (bm : ℕ → ℝ) : run B s v bm 0 = (⊥, 0, 0) := rfl

theorem run_succ_eq (B : ℕ → Finset κ) (s v : ℕ → κ → ℝ) (bm : ℕ → ℝ) (n : ℕ) :
    run B s v bm (n + 1) =
      (max (run B s v bm n).1 (bm n : EReal),
       Ideal.exp ((run B s v bm n).1 - max (run B s v bm n).1 (bm n : EReal)) * (run B s v bm n).2.1
         + ∑ k ∈ B n, Ideal.exp ((s n k : EReal) - max (run B s v bm n).1 (bm n : EReal)),
       Ideal.exp ((run B s v bm n).1 - max (run B s v bm n).1 (bm n : EReal)) * (run B s v bm n).2.2
         + ∑ k ∈ B n, Ideal.exp ((s n k : EReal) - max (run B s v bm n).1 (bm n : EReal)) * (v n k : EReal)) :=
  rfl

/-- After at least one block the state is three coerced reals: a real shift `μ`, and the sums of
    exponentials and of weighted exponentials over every key seen, at that shift. -/
theorem run_succ (B : ℕ → Finset κ) (s v : ℕ → κ → ℝ) (bm : ℕ → ℝ) (n : ℕ) :
    ∃ μ : ℝ, run B s v bm (n + 1) =
      ((μ : EReal),
       ((∑ j ∈ Finset.range (n + 1), ∑ k ∈ B j, Real.exp (s j k - μ) : ℝ) : EReal),
       ((∑ j ∈ Finset.range (n + 1), ∑ k ∈ B j, Real.exp (s j k - μ) * v j k : ℝ) : EReal)) := by
  induction n with
  | zero =>
    refine ⟨bm 0, ?_⟩
    rw [run_succ_eq, run_zero]
    dsimp only
    rw [max_bot_coe, first_step_l, first_step_acc, Finset.range_one, Finset.sum_singleton,
      Finset.sum_singleton]
  | succ n ih =>
    obtain ⟨μ, hμ⟩ := ih
    refine ⟨max μ (bm (n + 1)), ?_⟩
    rw [run_succ_eq, hμ]
    dsimp only
    rw [max_coe_coe, later_step_l_range, later_step_acc_range]

/-- The result of the recurrence after at least one block, some block nonempty: the softmax-weighted sum over
    every key, at any real shift `M`. -/
theorem run_result (B : ℕ → Finset κ) (s v : ℕ → κ → ℝ) (bm : ℕ → ℝ) (n : ℕ)
    (hne : ∃ j ∈ Finset.range (n + 1), (B j).Nonempty) (M : ℝ) :
    Ideal.div (run B s v bm (n + 1)).2.2 (run B s v bm (n + 1)).2.1
      = (((∑ j ∈ Finset.range (n + 1), ∑ k ∈ B j, Real.exp (s j k - M) * v j k)
            / (∑ j ∈ Finset.range (n + 1), ∑ k ∈ B j, Real.exp (s j k - M)) : ℝ) : EReal) := by
  obtain ⟨μ, hμ⟩ := run_succ B s v bm n
  rw [hμ]
  dsimp only
  have ht : ((Finset.range (n + 1)).sigma B).Nonempty := Finset.sigma_nonempty.mpr hne
  have h := final_div_coe ht (fun x : (_ : ℕ) × κ => s x.1 x.2) (fun x => v x.1 x.2) μ M
  simp only [Finset.sum_sigma']
  exact h

end Run

end OnlineSoftmax
-- ==== Proof.KernelLN.lean ====
/-
  The layer normalisation and the fused projection of one batch entry, read entry by entry.

  The body normalises each of the 1024 rows of the block (mean, variance as the mean of the squared deviations,
  `(x - mean) · rsqrt (variance + ε) · γ + β`) and multiplies the normalised block by the `[768, 192]` matrix
  whose columns 0 … 63, 64 … 127 and 128 … 191 are the query, key and value directions. Here the stages are
  named, the fused product is shown to be the product of those stages (by unfolding only), and for REAL
  inputs every stage is read at an index as the coerced real number of the specification
  (`AttnSpec.mu`, `var`, `xn`).
-/
import proofs.«105540_j9242769622267_2_alg».proof.Proof.KernelTiles
import proofs.«105540_j9242769622267_2_alg».proof.Proof.LibDenseRows
import proofs.«105540_j9242769622267_2_alg».proof.Proof.LibOnlineSoftmax
import proofs.«105540_j9242769622267_2_alg».proof.Proof.Spec
import Idealize.ShloMosaic.Lib.ValueLayout

set_option maxRecDepth 65536

noncomputable section

namespace Cert.KernelIdeal.LN

open Idealize.ShloMosaic Idealize.ShloMosaic.ValueIdx Cert.KernelIdeal Cert.KernelIdeal.Gen Cert.DenseRows
open scoped BigOperators

section Stages

variable {F : FTy → Type} [FloatOps F] [Named F]

/-- The block as a matrix of 1024 rows. -/
def xmat (v0 : Vec F S1x1024x768 .f32) : FVec F S1024x768 .f32 := shapeCast S1024x768 v0 shapeCasts_S1x1024x768_S1024x768

/-- The mean of each row, as a column. -/
def rowMeanCol (v1 : FVec F S1024x768 .f32) : FVec F S1024x1 .f32 :=
  divf (shapeCast S1024x1 (multiReduction .add [1] S1024 v1 0x00000000#32 reduces_S1024x768_S1024 (.inl rfl) rfl) shapeCasts_S1024_S1024x1)
    (broadcast S1024x1 (Scalar.ofBits .f32 0x44400000#32))

/-- Each entry less its row's mean. -/
def centered (v1 : FVec F S1024x768 .f32) : FVec F S1024x768 .f32 :=
  subf v1 (broadcastTo S1024x768 (rowMeanCol v1) broadcasts_S1024x1_S1024x768)

/-- The reciprocal standard deviation of each row, as a column. -/
def rstdCol (v1 : FVec F S1024x768 .f32) : FVec F S1024x1 .f32 :=
  rsqrt (addf (rowMeanCol (mulf (centered v1) (centered v1))) (broadcast S1024x1 (Scalar.ofBits .f32 0x3727C5AC#32)))

/-- The normalised block. -/
def lnBlock (v0 : Vec F S1x1024x768 .f32) (v20 v24 : Vec F S768 .f32) : FVec F S1024x768 .f32 :=
  addf (mulf (mulf (centered (xmat v0)) (broadcastTo S1024x768 (rstdCol (xmat v0)) broadcasts_S1024x1_S1024x768))
      (broadcastTo S1024x768 (shapeCast S1x768 v20 shapeCasts_S768_S1x768) broadcasts_S1x768_S1024x768))
    (broadcastTo S1024x768 (shapeCast S1x768 v24 shapeCasts_S768_S1x768) broadcasts_S1x768_S1024x768)

/-- The fused product is the normalised block times the weight matrix. -/
theorem pay2_eq (v0 : Vec F S1x1024x768 .f32) (v20 v24 : Vec F S768 .f32) (v29 : Vec F S768x192 .bf16) :
    k0_pay2 v0 v20 v24 v29
      = matmul dot_S1024x768_S768x192_S1024x192_1_0_0_1_n_n none (truncf .bf16 (lnBlock v0 v20 v24) bitsLt_bf16_f32)
          (shapeCast S768x192 v29 shapeCasts_S768x192_S768x192) (constant S1024x192 .f32 0x00000000#32) := rfl

end Stages

/-! ### The stages on real inputs -/

section Real

variable (v1 : FVec Ideal S1024x768 .f32) (Y : Fin 1024 → Fin 768 → ℝ)

/-- The mean of row `s`. -/
theorem rowMeanCol_apply (hY : ∀ s d, v1 (ix2 s d) = ((Y s d : ℝ) : EReal)) (s : Fin 1024) :
    rowMeanCol v1 (ix2 s (0 : Fin 1)) = (((∑ d, Y s d) / 768 : ℝ) : EReal) := by
  unfold rowMeanCol
  refine (divf_apply _ _ _).trans ?_
  have h1 : shapeCast S1024x1 (multiReduction .add [1] S1024 v1 0x00000000#32 reduces_S1024x768_S1024 (.inl rfl) rfl) shapeCasts_S1024_S1024x1
      (ix2 s (0 : Fin 1)) = ((∑ d, Y s d : ℝ) : EReal) := by
    refine (col_cast_apply _ shapeCasts_S1024_S1024x1 s).trans ?_
    refine (row_sum_apply v1 0x00000000#32 reduces_S1024x768_S1024 (.inl rfl) rfl s).trans ?_
    rw [OnlineSoftmax.coe_sum]
    exact Finset.sum_congr rfl fun d _ => hY s d
  rw [h1]
  show Ideal.div _ (Ideal.ofBits .f32 0x44400000#32) = _
  rw [AttnSpec.ofBits_768, OnlineSoftmax.div_coe_coe _ (by norm_num : (768 : ℝ) ≠ 0)]

/-- A centred entry. -/
theorem centered_apply (hY : ∀ s d, v1 (ix2 s d) = ((Y s d : ℝ) : EReal)) (s : Fin 1024) (d : Fin 768) :
    centered v1 (ix2 s d) = ((Y s d - AttnSpec.mu (Y s) : ℝ) : EReal) := by
  unfold centered
  refine (subf_apply _ _ _).trans ?_
  rw [col_bcast_apply _ broadcasts_S1024x1_S1024x768 s d, rowMeanCol_apply v1 Y hY s, hY s d, ← EReal.coe_sub]
  rfl

/-- The reciprocal standard deviation of row `s`. -/
theorem rstdCol_apply (hY : ∀ s d, v1 (ix2 s d) = ((Y s d : ℝ) : EReal)) (s : Fin 1024) :
    rstdCol v1 (ix2 s (0 : Fin 1)) = (((Real.sqrt (AttnSpec.var (Y s) + AttnSpec.epsR))⁻¹ : ℝ) : EReal) := by
  unfold rstdCol
  show Ideal.rsqrt (addf (rowMeanCol (mulf (centered v1) (centered v1))) (broadcast S1024x1 (Scalar.ofBits .f32 0x3727C5AC#32)) (ix2 s (0 : Fin 1))) = _
  have hsq : ∀ s d, mulf (centered v1) (centered v1) (ix2 s d)
      = (((Y s d - AttnSpec.mu (Y s)) * (Y s d - AttnSpec.mu (Y s)) : ℝ) : EReal) := fun s d => by
    refine (mulf_apply _ _ _).trans ?_
    rw [centered_apply v1 Y hY s d, ← EReal.coe_mul]
  rw [addf_apply, rowMeanCol_apply _ (fun s d => (Y s d - AttnSpec.mu (Y s)) * (Y s d - AttnSpec.mu (Y s))) hsq s]
  show Ideal.rsqrt (_ + Ideal.ofBits .f32 0x3727C5AC#32) = _
  rw [AttnSpec.ofBits_eps, ← EReal.coe_add]
  show Ideal.rsqrt ((AttnSpec.var (Y s) + AttnSpec.epsR : ℝ) : EReal) = _
  rw [Ideal.rsqrt_coe, if_neg (not_lt.mpr (AttnSpec.var_eps_pos (Y s)).le), if_neg (AttnSpec.var_eps_pos (Y s)).ne']

end Real

/-- An entry of the normalised block, for real inputs. -/
theorem lnBlock_apply (v0 : Vec Ideal S1x1024x768 .f32) (v20 v24 : Vec Ideal S768 .f32)
    (X : Fin 1024 → Fin 768 → ℝ) (γ β : Fin 768 → ℝ)
    (hx : ∀ s d, v0 (ix3 (0 : Fin 1) s d) = ((X s d : ℝ) : EReal))
    (hg : ∀ d, v20 (ix1 d) = ((γ d : ℝ) : EReal)) (hb : ∀ d, v24 (ix1 d) = ((β d : ℝ) : EReal))
    (s : Fin 1024) (d : Fin 768) :
    lnBlock v0 v20 v24 (ix2 s d) = ((AttnSpec.xn (X s) γ β d : ℝ) : EReal) := by
  have hY : ∀ s d, xmat v0 (ix2 s d) = ((X s d : ℝ) : EReal) := fun s d =>
    (shapeCast_1ab_ab_apply v0 shapeCasts_S1x1024x768_S1024x768 s d).trans (hx s d)
  unfold lnBlock
  refine (addf_apply _ _ _).trans ?_
  rw [mulf_apply, mulf_apply, centered_apply _ X hY s d, col_bcast_apply _ broadcasts_S1024x1_S1024x768 s d,
    rstdCol_apply _ X hY s, broadcastTo_1b_ab_apply _ broadcasts_S1x768_S1024x768 s d,
    broadcastTo_1b_ab_apply _ broadcasts_S1x768_S1024x768 s d, shapeCast_a_1a_apply _ shapeCasts_S768_S1x768 0 d,
    shapeCast_a_1a_apply _ shapeCasts_S768_S1x768 0 d, hg d, hb d, ← EReal.coe_mul, ← EReal.coe_mul, ← EReal.coe_add]
  rfl

/-- An entry of the fused product, for real inputs: the normalised row against column `j` of the weights. -/
theorem pay2_apply (v0 : Vec Ideal S1x1024x768 .f32) (v20 v24 : Vec Ideal S768 .f32) (v29 : Vec Ideal S768x192 .bf16)
    (X : Fin 1024 → Fin 768 → ℝ) (γ β : Fin 768 → ℝ) (Wc : Fin 768 → Fin 192 → ℝ)
    (hx : ∀ s d, v0 (ix3 (0 : Fin 1) s d) = ((X s d : ℝ) : EReal))
    (hg : ∀ d, v20 (ix1 d) = ((γ d : ℝ) : EReal)) (hb : ∀ d, v24 (ix1 d) = ((β d : ℝ) : EReal))
    (hw : ∀ d j, v29 (ix2 d j) = ((Wc d j : ℝ) : EReal))
    (s : Fin 1024) (j : Fin 192) :
    k0_pay2 v0 v20 v24 v29 (ix2 s j) = ((∑ d, AttnSpec.xn (X s) γ β d * Wc d j : ℝ) : EReal) := by
  rw [pay2_eq]
  refine (matmul_rows_apply dot_S1024x768_S768x192_S1024x192_1_0_0_1_n_n rfl rfl (fun _ _ => rfl) (fun _ _ => rfl) (fun _ _ => rfl)
    (fun _ _ => rfl) none _ _ s j).trans ?_
  rw [OnlineSoftmax.coe_sum]
  refine Finset.sum_congr rfl fun d _ => ?_
  rw [EReal.coe_mul]
  refine congrArg₂ (· * ·) ?_ ?_
  · exact (lnBlock_apply v0 v20 v24 X γ β hx hg hb s d)
  · rw [shapeCast_self]; exact hw d j

end Cert.KernelIdeal.LN

end
-- ==== Proof.CausalRows.lean ====
/-
  A causal attention row computed tile by tile.

  Query row `q` (a natural number) sees the keys `k ≤ q`. The keys come in tiles of 256: tile `j` holds the keys
  `256·j + c`, `c < 256`, of which the row sees those with `256·j + c ≤ q` (all of them for the tiles strictly
  below the diagonal one, the first `q - 256·j + 1` on the diagonal tile). A masked score row is the real score on the
  seen columns and -∞ on the others: its exponentials vanish off the seen columns, and its maximum is a real number as
  soon as column 0 is seen. With these, one step of the streaming softmax over a masked tile is one step of the
  recurrence `OnlineSoftmax.run`, and the recurrence's result over the tiles `0 … n` is the softmax-weighted sum
  over the keys `0 … q`.
-/
import proofs.«105540_j9242769622267_2_alg».proof.Proof.LibOnlineSoftmax
import proofs.«105540_j9242769622267_2_alg».proof.Proof.Spec
import Mathlib.Algebra.BigOperators.Intervals

noncomputable section

namespace CausalRows

open OnlineSoftmax Idealize.ShloMosaic
open scoped BigOperators

/-- The columns of tile `j` that query row `q` sees. -/
def blk (q j : ℕ) : Finset (Fin 256) := Finset.univ.filter fun c => 256 * j + c.val ≤ q

theorem mem_blk {q j : ℕ} {c : Fin 256} : c ∈ blk q j ↔ 256 * j + c.val ≤ q := by
  unfold blk; rw [Finset.mem_filter]; exact ⟨fun h => h.2, fun h => ⟨Finset.mem_univ _, h⟩⟩

/-- A masked row of scores of tile `j`: the real score where seen, -∞ elsewhere. -/
def mrow (q j : ℕ) (s : ℕ → Fin 256 → ℝ) (c : Fin 256) : EReal :=
  if 256 * j + c.val ≤ q then (s j c : EReal) else ⊥

/-- The maximum of a masked row that sees its column 0 is a real number. -/
theorem mrow_max_real (q j : ℕ) (s : ℕ → Fin 256 → ℝ) (h0 : 256 * j ≤ q) :
    ∃ x : ℝ, (Finset.univ : Finset (Fin 256)).fold max (⊥ : EReal) (mrow q j s) = (x : EReal) := by
  have hlt : (Finset.univ : Finset (Fin 256)).fold max (⊥ : EReal) (mrow q j s) < ⊤ := by
    rw [Finset.fold_max_lt]
    refine ⟨bot_lt_top, fun c _ => ?_⟩
    unfold mrow; split
    · exact EReal.coe_lt_top _
    · exact bot_lt_top
  have hgt : (⊥ : EReal) < (Finset.univ : Finset (Fin 256)).fold max (⊥ : EReal) (mrow q j s) := by
    rw [Finset.lt_fold_max]
    refine Or.inr ⟨(0 : Fin 256), Finset.mem_univ _, ?_⟩
    unfold mrow
    rw [if_pos (by show 256 * j + 0 ≤ q; omega)]
    exact EReal.bot_lt_coe _
  exact ⟨_, (EReal.coe_toReal hlt.ne hgt.ne').symm⟩

/-- That maximum, as a real number. -/
def bmOf (q : ℕ) (s : ℕ → Fin 256 → ℝ) (j : ℕ) : ℝ :=
  ((Finset.univ : Finset (Fin 256)).fold max (⊥ : EReal) (mrow q j s)).toReal

theorem bmOf_spec (q j : ℕ) (s : ℕ → Fin 256 → ℝ) (h0 : 256 * j ≤ q) :
    (Finset.univ : Finset (Fin 256)).fold max (⊥ : EReal) (mrow q j s) = (bmOf q s j : EReal) := by
  obtain ⟨x, hx⟩ := mrow_max_real q j s h0
  unfold bmOf
  rw [hx, EReal.toReal_coe]

/-- The exponentials of a masked row vanish off the seen columns. -/
theorem sum_exp_mrow (q j : ℕ) (s : ℕ → Fin 256 → ℝ) (μ : EReal) :
    ∑ c, Ideal.exp (mrow q j s c - μ) = ∑ c ∈ blk q j, Ideal.exp ((s j c : EReal) - μ) := by
  unfold blk
  rw [Finset.sum_filter]
  refine Finset.sum_congr rfl fun c _ => ?_
  unfold mrow
  split
  · rfl
  · rw [EReal.bot_sub, Ideal.exp_bot]

/-- The same for the weighted sum. -/
theorem sum_exp_mrow_mul (q j : ℕ) (s : ℕ → Fin 256 → ℝ) (μ : EReal) (w : Fin 256 → EReal) :
    ∑ c, Ideal.exp (mrow q j s c - μ) * w c = ∑ c ∈ blk q j, Ideal.exp ((s j c : EReal) - μ) * w c := by
  unfold blk
  rw [Finset.sum_filter]
  refine Finset.sum_congr rfl fun c _ => ?_
  unfold mrow
  split
  · rfl
  · rw [EReal.bot_sub, Ideal.exp_bot, zero_mul]

/-- One step of the streaming softmax over a masked tile is one step of the recurrence. -/
theorem step_run (q : ℕ) (s v : ℕ → Fin 256 → ℝ) (n : ℕ) (h0 : 256 * n ≤ q) (m l acc : EReal)
    (hm : m = (run (blk q) s v (bmOf q s) n).1) (hl : l = (run (blk q) s v (bmOf q s) n).2.1)
    (hacc : acc = (run (blk q) s v (bmOf q s) n).2.2)
    (S W : Fin 256 → EReal) (hS : ∀ c, S c = mrow q n s c) (hW : ∀ c, W c = (v n c : EReal)) :
    max m ((Finset.univ : Finset (Fin 256)).fold max (⊥ : EReal) S) = (run (blk q) s v (bmOf q s) (n + 1)).1
    ∧ Ideal.exp (m - max m ((Finset.univ : Finset (Fin 256)).fold max (⊥ : EReal) S)) * l
          + ∑ c, Ideal.exp (S c - max m ((Finset.univ : Finset (Fin 256)).fold max (⊥ : EReal) S))
        = (run (blk q) s v (bmOf q s) (n + 1)).2.1
    ∧ Ideal.exp (m - max m ((Finset.univ : Finset (Fin 256)).fold max (⊥ : EReal) S)) * acc
          + ∑ c, Ideal.exp (S c - max m ((Finset.univ : Finset (Fin 256)).fold max (⊥ : EReal) S)) * W c
        = (run (blk q) s v (bmOf q s) (n + 1)).2.2 := by
  have eS : S = mrow q n s := funext hS
  have eW : W = fun c => (v n c : EReal) := funext hW
  subst eS eW hm hl hacc
  rw [bmOf_spec q n s h0, run_succ_eq]
  dsimp only
  rw [sum_exp_mrow, sum_exp_mrow_mul]
  exact ⟨rfl, rfl, rfl⟩

/-- Sums over the seen columns of the tiles `0 … n-1` are sums over the keys below `256·n` that the row sees. -/
theorem sum_blocks (q : ℕ) (G : ℕ → ℝ) (n : ℕ) :
    ∑ j ∈ Finset.range n, ∑ c ∈ blk q j, G (256 * j + c.val)
      = ∑ k ∈ Finset.range (256 * n), if k ≤ q then G k else 0 := by
  induction n with
  | zero => simp
  | succ n ih =>
    rw [Finset.sum_range_succ, ih, show 256 * (n + 1) = 256 * n + 256 by ring, Finset.sum_range_add]
    congr 1
    unfold blk
    rw [Finset.sum_filter, ← Fin.sum_univ_eq_sum_range (fun c => if 256 * n + c ≤ q then G (256 * n + c) else 0) 256]

/-- Below any bound past `q`, the seen keys are `0 … q`. -/
theorem sum_seen_range (q : ℕ) (G : ℕ → ℝ) (N : ℕ) (hN : q < N) :
    (∑ k ∈ Finset.range N, if k ≤ q then G k else 0) = ∑ k ∈ Finset.range (q + 1), G k := by
  rw [← Finset.sum_filter]
  refine Finset.sum_congr ?_ fun _ _ => rfl
  ext k
  rw [Finset.mem_filter, Finset.mem_range, Finset.mem_range]
  omega

/-- The recurrence's result over the tiles `0 … n`, the diagonal tile the last: the softmax-weighted sum over the
    keys `0 … q`, at shift 0. -/
theorem run_causal (q : ℕ) (s v : ℕ → Fin 256 → ℝ) (n : ℕ) (h0 : 256 * n ≤ q) (hq : q < 256 * (n + 1))
    (g gv : ℕ → ℝ) (hs : ∀ j c, s j c = g (256 * j + c.val)) (hv : ∀ j c, v j c = gv (256 * j + c.val)) :
    Ideal.div (run (blk q) s v (bmOf q s) (n + 1)).2.2 (run (blk q) s v (bmOf q s) (n + 1)).2.1
      = (((∑ k ∈ Finset.range (q + 1), Real.exp (g k - 0) * gv k)
            / (∑ k ∈ Finset.range (q + 1), Real.exp (g k - 0)) : ℝ) : EReal) := by
  have hne : ∃ j ∈ Finset.range (n + 1), (blk q j).Nonempty :=
    ⟨0, Finset.mem_range.mpr (Nat.succ_pos _), ⟨(0 : Fin 256), mem_blk.mpr (by show 256 * 0 + 0 ≤ q; omega)⟩⟩
  rw [run_result (blk q) s v (bmOf q s) n hne 0]
  have e1 : ∑ j ∈ Finset.range (n + 1), ∑ k ∈ blk q j, Real.exp (s j k - 0) * v j k
      = ∑ k ∈ Finset.range (q + 1), Real.exp (g k - 0) * gv k := by
    rw [← sum_seen_range q (fun k => Real.exp (g k - 0) * gv k) (256 * (n + 1)) hq, ← sum_blocks]
    refine Finset.sum_congr rfl fun j _ => Finset.sum_congr rfl fun c _ => ?_
    rw [hs, hv]
  have e2 : ∑ j ∈ Finset.range (n + 1), ∑ k ∈ blk q j, Real.exp (s j k - 0)
      = ∑ k ∈ Finset.range (q + 1), Real.exp (g k - 0) := by
    rw [← sum_seen_range q (fun k => Real.exp (g k - 0)) (256 * (n + 1)) hq, ← sum_blocks]
    refine Finset.sum_congr rfl fun j _ => Finset.sum_congr rfl fun c _ => ?_
    rw [hs]
  rw [e1, e2]

/-- A sum over the keys a row of `Fin 1024` sees, as a sum over `0 … q` of the function extended by 0. -/
theorem sum_seen (qf : Fin 1024) (f : Fin 1024 → ℝ) :
    ∑ k ∈ AttnSpec.seen qf, f k = ∑ k ∈ Finset.range (qf.val + 1), (if h : k < 1024 then f ⟨k, h⟩ else 0) := by
  unfold AttnSpec.seen
  rw [Finset.sum_filter, ← sum_seen_range qf.val (fun k => if h : k < 1024 then f ⟨k, h⟩ else 0) 1024 qf.isLt,
    ← Fin.sum_univ_eq_sum_range (fun k => if k ≤ qf.val then (if h : k < 1024 then f ⟨k, h⟩ else 0) else 0) 1024]
  refine Finset.sum_congr rfl fun k _ => ?_
  rw [dif_pos k.isLt]

end CausalRows

end
-- ==== Proof.KernelAttn.lean ====
/-
  The four stored blocks of the kernel, for real inputs, are the causal attention of the specification.

  With real inputs the query, key and value matrices are the coerced projections `AttnSpec.proj`, a score tile
  holds the coerced `AttnSpec.score`, and row `r` of query tile `a` is query row `q = 256·a + r`. Its masked
  or unmasked score rows are the masked rows of `CausalRows`, so each step of the kernel's sweep is one step of
  the recurrence `OnlineSoftmax.run`, and the stored quotient is `AttnSpec.out` at `(q, h)`.
-/
import proofs.«105540_j9242769622267_2_alg».proof.Proof.KernelStep
import proofs.«105540_j9242769622267_2_alg».proof.Proof.KernelLN
import proofs.«105540_j9242769622267_2_alg».proof.Proof.CausalRows

noncomputable section

namespace Cert.KernelIdeal.Attn

open Idealize.ShloMosaic Idealize.ShloMosaic.ValueIdx Cert.KernelIdeal Cert.KernelIdeal.Gen Cert.KernelIdeal.Tiles
open OnlineSoftmax CausalRows AttnSpec
open scoped BigOperators

/-! ### The real data -/

section Data

variable (X : Fin 1024 → Fin 768 → ℝ) (γ β : Fin 768 → ℝ) (Wq Wk Wv : Fin 64 → Fin 768 → ℝ)

/-- The fused weight matrix: columns 0 … 63 the query directions, 64 … 127 the key ones, 128 … 191 the value ones. -/
def wcat (d : Fin 768) (j : Fin 192) : ℝ :=
  if h : j.val < 64 then Wq ⟨j.val, h⟩ d
  else if h2 : j.val < 128 then Wk ⟨j.val - 64, by omega⟩ d else Wv ⟨j.val - 128, by omega⟩ d

theorem wcat_q (d : Fin 768) (u : Fin 64) (j : Fin 192) (hj : j.val = u.val) : wcat Wq Wk Wv d j = Wq u d := by
  unfold wcat
  rw [dif_pos (by omega)]
  exact congrArg (fun t => Wq t d) (Fin.ext hj)

theorem wcat_k (d : Fin 768) (u : Fin 64) (j : Fin 192) (hj : j.val = 64 + u.val) : wcat Wq Wk Wv d j = Wk u d := by
  unfold wcat
  rw [dif_neg (by omega), dif_pos (by omega)]
  exact congrArg (fun t => Wk t d) (Fin.ext (by show j.val - 64 = u.val; omega))

theorem wcat_v (d : Fin 768) (u : Fin 64) (j : Fin 192) (hj : j.val = 128 + u.val) : wcat Wq Wk Wv d j = Wv u d := by
  unfold wcat
  rw [dif_neg (by omega), dif_neg (by omega)]
  exact congrArg (fun t => Wv t d) (Fin.ext (by show j.val - 128 = u.val; omega))

/-- The scores of query row `qf` against every key, extended by 0 past the last key. -/
def gS (qf : Fin 1024) (k : ℕ) : ℝ := if h : k < 1024 then score X γ β Wq Wk qf ⟨k, h⟩ else 0

/-- Column `hh` of the value matrix, extended by 0. -/
def gV (hh : Fin 64) (k : ℕ) : ℝ := if h : k < 1024 then proj (X ⟨k, h⟩) γ β (Wv hh) else 0

/-- The same, tile by tile. -/
def sB (qf : Fin 1024) (j : ℕ) (c : Fin 256) : ℝ := gS X γ β Wq Wk qf (256 * j + c.val)
def vB (hh : Fin 64) (j : ℕ) (c : Fin 256) : ℝ := gV X γ β Wv hh (256 * j + c.val)

/-- The recurrence over the tiles `0 … n` of a row on the diagonal tile `n` ends at the specification's entry. -/
theorem finish_eq (qf : Fin 1024) (hh : Fin 64) (n : ℕ) (h0 : 256 * n ≤ qf.val) (hq : qf.val < 256 * (n + 1)) :
    Ideal.div (run (blk qf.val) (sB X γ β Wq Wk qf) (vB X γ β Wv hh) (bmOf qf.val (sB X γ β Wq Wk qf)) (n + 1)).2.2
        (run (blk qf.val) (sB X γ β Wq Wk qf) (vB X γ β Wv hh) (bmOf qf.val (sB X γ β Wq Wk qf)) (n + 1)).2.1
      = ((out X γ β Wk Wq Wv qf hh : ℝ) : EReal) := by
  rw [run_causal qf.val (sB X γ β Wq Wk qf) (vB X γ β Wv hh) n h0 hq (gS X γ β Wq Wk qf) (gV X γ β Wv hh)
    (fun _ _ => rfl) (fun _ _ => rfl)]
  unfold out
  rw [sum_seen, sum_seen]
  refine congrArg _ (congrArg₂ (· / ·) ?_ ?_) <;> refine Finset.sum_congr rfl fun k hk => ?_
  · have hk' : k < 1024 := by have := Finset.mem_range.mp hk; have := qf.isLt; omega
    unfold gS gV; rw [dif_pos hk', dif_pos hk', dif_pos hk']
  · have hk' : k < 1024 := by have := Finset.mem_range.mp hk; have := qf.isLt; omega
    unfold gS; rw [dif_pos hk', dif_pos hk']

end Data

/-! ### The kernel's matrices and tiles on real inputs -/

section Kernel

variable (v0 : Vec Ideal S1x1024x768 .f32) (v20 v24 : Vec Ideal S768 .f32) (v29 : Vec Ideal S768x192 .bf16)
  (X : Fin 1024 → Fin 768 → ℝ) (γ β : Fin 768 → ℝ) (Wq Wk Wv : Fin 64 → Fin 768 → ℝ)
  (hx : ∀ s d, v0 (ix3 (0 : Fin 1) s d) = ((X s d : ℝ) : EReal))
  (hg : ∀ d, v20 (ix1 d) = ((γ d : ℝ) : EReal)) (hb : ∀ d, v24 (ix1 d) = ((β d : ℝ) : EReal))
  (hw : ∀ d j, v29 (ix2 d j) = ((wcat Wq Wk Wv d j : ℝ) : EReal))

include hx hg hb hw

theorem Qm_apply (s : Fin 1024) (u : Fin 64) :
    Qm v0 v20 v24 v29 (ix2 s u) = ((proj (X s) γ β (Wq u) : ℝ) : EReal) := by
  show extractStridedSlice S1024x64 ![0, 0] (k0_pay2 v0 v20 v24 v29) slices_S1024x192_o0_0_S1024x64 (ix2 s u) = _
  refine (slice2_axis1_apply 0 _ slices_S1024x192_o0_0_S1024x64 s u ⟨u.val, by omega⟩ (by simp)).trans ?_
  rw [LN.pay2_apply v0 v20 v24 v29 X γ β (wcat Wq Wk Wv) hx hg hb hw]
  unfold proj
  exact congrArg _ (Finset.sum_congr rfl fun d _ => by rw [wcat_q Wq Wk Wv d u _ rfl])

theorem Km_apply (s : Fin 1024) (u : Fin 64) :
    Km v0 v20 v24 v29 (ix2 s u) = ((proj (X s) γ β (Wk u) : ℝ) : EReal) := by
  show extractStridedSlice S1024x64 ![0, 64] (k0_pay2 v0 v20 v24 v29) slices_S1024x192_o0_64_S1024x64 (ix2 s u) = _
  refine (slice2_axis1_apply 64 _ slices_S1024x192_o0_64_S1024x64 s u ⟨64 + u.val, by omega⟩ rfl).trans ?_
  rw [LN.pay2_apply v0 v20 v24 v29 X γ β (wcat Wq Wk Wv) hx hg hb hw]
  unfold proj
  exact congrArg _ (Finset.sum_congr rfl fun d _ => by rw [wcat_k Wq Wk Wv d u _ rfl])

theorem Vm_apply (s : Fin 1024) (u : Fin 64) :
    Vm v0 v20 v24 v29 (ix2 s u) = ((proj (X s) γ β (Wv u) : ℝ) : EReal) := by
  show extractStridedSlice S1024x64 ![0, 128] (k0_pay2 v0 v20 v24 v29) slices_S1024x192_o0_128_S1024x64 (ix2 s u) = _
  refine (slice2_axis1_apply 128 _ slices_S1024x192_o0_128_S1024x64 s u ⟨128 + u.val, by omega⟩ rfl).trans ?_
  rw [LN.pay2_apply v0 v20 v24 v29 X γ β (wcat Wq Wk Wv) hx hg hb hw]
  unfold proj
  exact congrArg _ (Finset.sum_congr rfl fun d _ => by rw [wcat_v Wq Wk Wv d u _ rfl])

/-- A score tile holds the specification's scores. -/
theorem sc_apply (oa ob : ℕ) (ha : S1024x64.Slices ![oa, 0] S256x64) (hb' : S1024x64.Slices ![ob, 0] S256x64)
    (r c : Fin 256) (qf kf : Fin 1024) (hq : qf.val = oa + r.val) (hk : kf.val = ob + c.val) :
    sc v0 v20 v24 v29 oa ob ha hb' (ix2 r c) = ((score X γ β Wq Wk qf kf : ℝ) : EReal) := by
  unfold sc
  rw [scores_apply]
  have e : ∀ u : Fin 64, tileAt oa (Qm v0 v20 v24 v29) ha (ix2 r u) * tileAt ob (Km v0 v20 v24 v29) hb' (ix2 c u)
      = ((proj (X qf) γ β (Wq u) * proj (X kf) γ β (Wk u) : ℝ) : EReal) := fun u => by
    rw [tileAt_apply oa _ ha r u qf hq, tileAt_apply ob _ hb' c u kf hk,
      Qm_apply v0 v20 v24 v29 X γ β Wq Wk Wv hx hg hb hw, Km_apply v0 v20 v24 v29 X γ β Wq Wk Wv hx hg hb hw, EReal.coe_mul]
  have e' : (∑ u : Fin 64, tileAt oa (Qm v0 v20 v24 v29) ha (ix2 r u) * tileAt ob (Km v0 v20 v24 v29) hb' (ix2 c u))
      = ((∑ u : Fin 64, proj (X qf) γ β (Wq u) * proj (X kf) γ β (Wk u) : ℝ) : EReal) := by
    rw [coe_sum]; exact Finset.sum_congr rfl fun u _ => e u
  rw [e', ← EReal.coe_mul]
  unfold score
  exact congrArg _ (by ring)

/-- An unmasked score row below the diagonal tile is a masked row that sees every column. -/
theorem S_plain (oa ob b : ℕ) (ha : S1024x64.Slices ![oa, 0] S256x64) (hb' : S1024x64.Slices ![ob, 0] S256x64)
    (hob : ob = 256 * b) (hlt : 256 * (b + 1) ≤ oa) (r : Fin 256) (qf : Fin 1024) (hq : qf.val = oa + r.val) (c : Fin 256) :
    sc v0 v20 v24 v29 oa ob ha hb' (ix2 r c) = mrow qf.val b (sB X γ β Wq Wk qf) c := by
  have hk : 256 * b + c.val < 1024 := by have := qf.isLt; have := c.isLt; omega
  unfold mrow
  rw [if_pos (by have := c.isLt; omega),
    sc_apply v0 v20 v24 v29 X γ β Wq Wk Wv hx hg hb hw oa ob ha hb' r c qf ⟨256 * b + c.val, hk⟩ hq (by rw [hob])]
  unfold sB gS
  rw [dif_pos hk]

/-- The masked score row of the diagonal tile is the masked row of that tile. -/
theorem S_diag (oa a : ℕ) (ha : S1024x64.Slices ![oa, 0] S256x64) (hoa : oa = 256 * a)
    (r : Fin 256) (qf : Fin 1024) (hq : qf.val = oa + r.val) (c : Fin 256) :
    masked k0_pay6 (sc v0 v20 v24 v29 oa oa ha ha) (ix2 r c) = mrow qf.val a (sB X γ β Wq Wk qf) c := by
  rw [masked_apply]
  unfold mrow
  by_cases hc : c.val ≤ r.val
  · have hk : 256 * a + c.val < 1024 := by have := qf.isLt; omega
    rw [if_pos hc, if_pos (by omega),
      sc_apply v0 v20 v24 v29 X γ β Wq Wk Wv hx hg hb hw oa oa ha ha r c qf ⟨256 * a + c.val, hk⟩ hq (by rw [hoa])]
    unfold sB gS
    rw [dif_pos hk]
  · rw [if_neg hc, if_neg (by omega)]

/-- A value tile holds the specification's value column. -/
theorem V_tile (ob b : ℕ) (hb' : S1024x64.Slices ![ob, 0] S256x64) (hob : ob = 256 * b) (hlt : 256 * (b + 1) ≤ 1024)
    (c : Fin 256) (hh : Fin 64) :
    tileAt ob (Vm v0 v20 v24 v29) hb' (ix2 c hh) = ((vB X γ β Wv hh b c : ℝ) : EReal) := by
  have hk : 256 * b + c.val < 1024 := by have := c.isLt; omega
  rw [tileAt_apply ob _ hb' c hh ⟨256 * b + c.val, hk⟩ (by rw [hob]), Vm_apply v0 v20 v24 v29 X γ β Wq Wk Wv hx hg hb hw]
  unfold vB gV
  rw [dif_pos hk]

end Kernel

/-! ### The sweep, row by row -/

/-- Before any tile the state is the recurrence's start. -/
theorem st0_row (r : Fin 256) (hh : Fin 64) (q : ℕ) (s v : ℕ → Fin 256 → ℝ) :
    (st0 (F := Ideal)).m (ix2 r (0 : Fin 1)) = (run (blk q) s v (bmOf q s) 0).1
    ∧ (st0 (F := Ideal)).l (ix2 r (0 : Fin 1)) = (run (blk q) s v (bmOf q s) 0).2.1
    ∧ (st0 (F := Ideal)).acc (ix2 r hh) = (run (blk q) s v (bmOf q s) 0).2.2 :=
  ⟨AttnSpec.ofBits_neg_inf, AttnSpec.ofBits_zero, AttnSpec.ofBits_zero⟩

/-- One tile joins: the state at row `r` moves one step along the recurrence. -/
theorem step_row (st : St Ideal) (S : FVec Ideal S256x256 .f32) (vt : FVec Ideal S256x64 .bf16) (r : Fin 256) (hh : Fin 64)
    (q : ℕ) (s v : ℕ → Fin 256 → ℝ) (n : ℕ) (h0 : 256 * n ≤ q)
    (hst : st.m (ix2 r (0 : Fin 1)) = (run (blk q) s v (bmOf q s) n).1
      ∧ st.l (ix2 r (0 : Fin 1)) = (run (blk q) s v (bmOf q s) n).2.1
      ∧ st.acc (ix2 r hh) = (run (blk q) s v (bmOf q s) n).2.2)
    (hS : ∀ c, S (ix2 r c) = mrow q n s c) (hV : ∀ c, vt (ix2 c hh) = ((v n c : ℝ) : EReal)) :
    (step st S vt).m (ix2 r (0 : Fin 1)) = (run (blk q) s v (bmOf q s) (n + 1)).1
    ∧ (step st S vt).l (ix2 r (0 : Fin 1)) = (run (blk q) s v (bmOf q s) (n + 1)).2.1
    ∧ (step st S vt).acc (ix2 r hh) = (run (blk q) s v (bmOf q s) (n + 1)).2.2 := by
  have key := CausalRows.step_run q s v n h0 _ _ _ hst.1 hst.2.1 hst.2.2 (fun c => S (ix2 r c)) (fun c => vt (ix2 c hh)) hS hV
  unfold step
  dsimp only
  rw [newL_apply, newAcc_apply, newMax_apply]
  simp only [probs_apply, newMax_apply]
  exact key

/-! ### The four stored blocks -/

section Blocks

variable (v0 : Vec Ideal S1x1024x768 .f32) (v20 v24 : Vec Ideal S768 .f32) (v29 : Vec Ideal S768x192 .bf16)
  (X : Fin 1024 → Fin 768 → ℝ) (γ β : Fin 768 → ℝ) (Wq Wk Wv : Fin 64 → Fin 768 → ℝ)
  (hx : ∀ s d, v0 (ix3 (0 : Fin 1) s d) = ((X s d : ℝ) : EReal))
  (hg : ∀ d, v20 (ix1 d) = ((γ d : ℝ) : EReal)) (hb : ∀ d, v24 (ix1 d) = ((β d : ℝ) : EReal))
  (hw : ∀ d j, v29 (ix2 d j) = ((wcat Wq Wk Wv d j : ℝ) : EReal))

include hx hg hb hw

/-- Rows 0 … 255: the stored block is the specification's attention at those rows. -/
theorem tile0_apply (r : Fin 256) (hh : Fin 64) (qf : Fin 1024) (hq : qf.val = 256 * 0 + r.val) :
    tile0 v0 v20 v24 v29 (ix3 (0 : Fin 1) r hh) = ((out X γ β Wk Wq Wv qf hh : ℝ) : EReal) := by
  have hq' : qf.val = 0 + r.val := by omega
  unfold tile0
  rw [finish_apply]
  have e0 := step_row (st0 (F := Ideal)) (masked k0_pay6 (sc v0 v20 v24 v29 0 0 slices_S1024x64_o0_0_S256x64 slices_S1024x64_o0_0_S256x64)) (tileAt 0 (Vm v0 v20 v24 v29) slices_S1024x64_o0_0_S256x64) r hh qf.val (sB X γ β Wq Wk qf) (vB X γ β Wv hh) 0 (by omega) (st0_row r hh qf.val (sB X γ β Wq Wk qf) (vB X γ β Wv hh))
    (S_diag v0 v20 v24 v29 X γ β Wq Wk Wv hx hg hb hw 0 0 slices_S1024x64_o0_0_S256x64 (by norm_num) r qf hq')
    (fun c => V_tile v0 v20 v24 v29 X γ β Wq Wk Wv hx hg hb hw 0 0 slices_S1024x64_o0_0_S256x64 (by norm_num) (by norm_num) c hh)
  rw [e0.2.2, e0.2.1]
  exact finish_eq X γ β Wq Wk Wv qf hh 0 (by omega) (by omega)

/-- Rows 256 … 511: the stored block is the specification's attention at those rows. -/
theorem tile1_apply (r : Fin 256) (hh : Fin 64) (qf : Fin 1024) (hq : qf.val = 256 * 1 + r.val) :
    tile1 v0 v20 v24 v29 (ix3 (0 : Fin 1) r hh) = ((out X γ β Wk Wq Wv qf hh : ℝ) : EReal) := by
  have hq' : qf.val = 256 + r.val := by omega
  unfold tile1
  rw [finish_apply]
  have e0 := step_row (st0 (F := Ideal)) (sc v0 v20 v24 v29 256 0 slices_S1024x64_o256_0_S256x64 slices_S1024x64_o0_0_S256x64) (tileAt 0 (Vm v0 v20 v24 v29) slices_S1024x64_o0_0_S256x64) r hh qf.val (sB X γ β Wq Wk qf) (vB X γ β Wv hh) 0 (by omega) (st0_row r hh qf.val (sB X γ β Wq Wk qf) (vB X γ β Wv hh))
    (S_plain v0 v20 v24 v29 X γ β Wq Wk Wv hx hg hb hw 256 0 0 slices_S1024x64_o256_0_S256x64 slices_S1024x64_o0_0_S256x64 (by norm_num) (by norm_num) r qf hq')
    (fun c => V_tile v0 v20 v24 v29 X γ β Wq Wk Wv hx hg hb hw 0 0 slices_S1024x64_o0_0_S256x64 (by norm_num) (by norm_num) c hh)
  have e1 := step_row (step (st0 (F := Ideal)) (sc v0 v20 v24 v29 256 0 slices_S1024x64_o256_0_S256x64 slices_S1024x64_o0_0_S256x64) (tileAt 0 (Vm v0 v20 v24 v29) slices_S1024x64_o0_0_S256x64)) (masked k0_pay6 (sc v0 v20 v24 v29 256 256 slices_S1024x64_o256_0_S256x64 slices_S1024x64_o256_0_S256x64)) (tileAt 256 (Vm v0 v20 v24 v29) slices_S1024x64_o256_0_S256x64) r hh qf.val (sB X γ β Wq Wk qf) (vB X γ β Wv hh) 1 (by omega) e0
    (S_diag v0 v20 v24 v29 X γ β Wq Wk Wv hx hg hb hw 256 1 slices_S1024x64_o256_0_S256x64 (by norm_num) r qf hq')
    (fun c => V_tile v0 v20 v24 v29 X γ β Wq Wk Wv hx hg hb hw 256 1 slices_S1024x64_o256_0_S256x64 (by norm_num) (by norm_num) c hh)
  rw [e1.2.2, e1.2.1]
  exact finish_eq X γ β Wq Wk Wv qf hh 1 (by omega) (by omega)

/-- Rows 512 … 767: the stored block is the specification's attention at those rows. -/
theorem tile2_apply (r : Fin 256) (hh : Fin 64) (qf : Fin 1024) (hq : qf.val = 256 * 2 + r.val) :
    tile2 v0 v20 v24 v29 (ix3 (0 : Fin 1) r hh) = ((out X γ β Wk Wq Wv qf hh : ℝ) : EReal) := by
  have hq' : qf.val = 512 + r.val := by omega
  unfold tile2
  rw [finish_apply]
  have e0 := step_row (st0 (F := Ideal)) (sc v0 v20 v24 v29 512 0 slices_S1024x64_o512_0_S256x64 slices_S1024x64_o0_0_S256x64) (tileAt 0 (Vm v0 v20 v24 v29) slices_S1024x64_o0_0_S256x64) r hh qf.val (sB X γ β Wq Wk qf) (vB X γ β Wv hh) 0 (by omega) (st0_row r hh qf.val (sB X γ β Wq Wk qf) (vB X γ β Wv hh))
    (S_plain v0 v20 v24 v29 X γ β Wq Wk Wv hx hg hb hw 512 0 0 slices_S1024x64_o512_0_S256x64 slices_S1024x64_o0_0_S256x64 (by norm_num) (by norm_num) r qf hq')
    (fun c => V_tile v0 v20 v24 v29 X γ β Wq Wk Wv hx hg hb hw 0 0 slices_S1024x64_o0_0_S256x64 (by norm_num) (by norm_num) c hh)
  have e1 := step_row (step (st0 (F := Ideal)) (sc v0 v20 v24 v29 512 0 slices_S1024x64_o512_0_S256x64 slices_S1024x64_o0_0_S256x64) (tileAt 0 (Vm v0 v20 v24 v29) slices_S1024x64_o0_0_S256x64)) (sc v0 v20 v24 v29 512 256 slices_S1024x64_o512_0_S256x64 slices_S1024x64_o256_0_S256x64) (tileAt 256 (Vm v0 v20 v24 v29) slices_S1024x64_o256_0_S256x64) r hh qf.val (sB X γ β Wq Wk qf) (vB X γ β Wv hh) 1 (by omega) e0
    (S_plain v0 v20 v24 v29 X γ β Wq Wk Wv hx hg hb hw 512 256 1 slices_S1024x64_o512_0_S256x64 slices_S1024x64_o256_0_S256x64 (by norm_num) (by norm_num) r qf hq')
    (fun c => V_tile v0 v20 v24 v29 X γ β Wq Wk Wv hx hg hb hw 256 1 slices_S1024x64_o256_0_S256x64 (by norm_num) (by norm_num) c hh)
  have e2 := step_row (step (step (st0 (F := Ideal)) (sc v0 v20 v24 v29 512 0 slices_S1024x64_o512_0_S256x64 slices_S1024x64_o0_0_S256x64) (tileAt 0 (Vm v0 v20 v24 v29) slices_S1024x64_o0_0_S256x64)) (sc v0 v20 v24 v29 512 256 slices_S1024x64_o512_0_S256x64 slices_S1024x64_o256_0_S256x64) (tileAt 256 (Vm v0 v20 v24 v29) slices_S1024x64_o256_0_S256x64)) (masked k0_pay6 (sc v0 v20 v24 v29 512 512 slices_S1024x64_o512_0_S256x64 slices_S1024x64_o512_0_S256x64)) (tileAt 512 (Vm v0 v20 v24 v29) slices_S1024x64_o512_0_S256x64) r hh qf.val (sB X γ β Wq Wk qf) (vB X γ β Wv hh) 2 (by omega) e1
    (S_diag v0 v20 v24 v29 X γ β Wq Wk Wv hx hg hb hw 512 2 slices_S1024x64_o512_0_S256x64 (by norm_num) r qf hq')
    (fun c => V_tile v0 v20 v24 v29 X γ β Wq Wk Wv hx hg hb hw 512 2 slices_S1024x64_o512_0_S256x64 (by norm_num) (by norm_num) c hh)
  rw [e2.2.2, e2.2.1]
  exact finish_eq X γ β Wq Wk Wv qf hh 2 (by omega) (by omega)

/-- Rows 768 … 1023: the stored block is the specification's attention at those rows. -/
theorem tile3_apply (r : Fin 256) (hh : Fin 64) (qf : Fin 1024) (hq : qf.val = 256 * 3 + r.val) :
    tile3 v0 v20 v24 v29 (ix3 (0 : Fin 1) r hh) = ((out X γ β Wk Wq Wv qf hh : ℝ) : EReal) := by
  have hq' : qf.val = 768 + r.val := by omega
  unfold tile3
  rw [finish_apply]
  have e0 := step_row (st0 (F := Ideal)) (sc v0 v20 v24 v29 768 0 slices_S1024x64_o768_0_S256x64 slices_S1024x64_o0_0_S256x64) (tileAt 0 (Vm v0 v20 v24 v29) slices_S1024x64_o0_0_S256x64) r hh qf.val (sB X γ β Wq Wk qf) (vB X γ β Wv hh) 0 (by omega) (st0_row r hh qf.val (sB X γ β Wq Wk qf) (vB X γ β Wv hh))
    (S_plain v0 v20 v24 v29 X γ β Wq Wk Wv hx hg hb hw 768 0 0 slices_S1024x64_o768_0_S256x64 slices_S1024x64_o0_0_S256x64 (by norm_num) (by norm_num) r qf hq')
    (fun c => V_tile v0 v20 v24 v29 X γ β Wq Wk Wv hx hg hb hw 0 0 slices_S1024x64_o0_0_S256x64 (by norm_num) (by norm_num) c hh)
  have e1 := step_row (step (st0 (F := Ideal)) (sc v0 v20 v24 v29 768 0 slices_S1024x64_o768_0_S256x64 slices_S1024x64_o0_0_S256x64) (tileAt 0 (Vm v0 v20 v24 v29) slices_S1024x64_o0_0_S256x64)) (sc v0 v20 v24 v29 768 256 slices_S1024x64_o768_0_S256x64 slices_S1024x64_o256_0_S256x64) (tileAt 256 (Vm v0 v20 v24 v29) slices_S1024x64_o256_0_S256x64) r hh qf.val (sB X γ β Wq Wk qf) (vB X γ β Wv hh) 1 (by omega) e0
    (S_plain v0 v20 v24 v29 X γ β Wq Wk Wv hx hg hb hw 768 256 1 slices_S1024x64_o768_0_S256x64 slices_S1024x64_o256_0_S256x64 (by norm_num) (by norm_num) r qf hq')
    (fun c => V_tile v0 v20 v24 v29 X γ β Wq Wk Wv hx hg hb hw 256 1 slices_S1024x64_o256_0_S256x64 (by norm_num) (by norm_num) c hh)
  have e2 := step_row (step (step (st0 (F := Ideal)) (sc v0 v20 v24 v29 768 0 slices_S1024x64_o768_0_S256x64 slices_S1024x64_o0_0_S256x64) (tileAt 0 (Vm v0 v20 v24 v29) slices_S1024x64_o0_0_S256x64)) (sc v0 v20 v24 v29 768 256 slices_S1024x64_o768_0_S256x64 slices_S1024x64_o256_0_S256x64) (tileAt 256 (Vm v0 v20 v24 v29) slices_S1024x64_o256_0_S256x64)) (sc v0 v20 v24 v29 768 512 slices_S1024x64_o768_0_S256x64 slices_S1024x64_o512_0_S256x64) (tileAt 512 (Vm v0 v20 v24 v29) slices_S1024x64_o512_0_S256x64) r hh qf.val (sB X γ β Wq Wk qf) (vB X γ β Wv hh) 2 (by omega) e1
    (S_plain v0 v20 v24 v29 X γ β Wq Wk Wv hx hg hb hw 768 512 2 slices_S1024x64_o768_0_S256x64 slices_S1024x64_o512_0_S256x64 (by norm_num) (by norm_num) r qf hq')
    (fun c => V_tile v0 v20 v24 v29 X γ β Wq Wk Wv hx hg hb hw 512 2 slices_S1024x64_o512_0_S256x64 (by norm_num) (by norm_num) c hh)
  have e3 := step_row (step (step (step (st0 (F := Ideal)) (sc v0 v20 v24 v29 768 0 slices_S1024x64_o768_0_S256x64 slices_S1024x64_o0_0_S256x64) (tileAt 0 (Vm v0 v20 v24 v29) slices_S1024x64_o0_0_S256x64)) (sc v0 v20 v24 v29 768 256 slices_S1024x64_o768_0_S256x64 slices_S1024x64_o256_0_S256x64) (tileAt 256 (Vm v0 v20 v24 v29) slices_S1024x64_o256_0_S256x64)) (sc v0 v20 v24 v29 768 512 slices_S1024x64_o768_0_S256x64 slices_S1024x64_o512_0_S256x64) (tileAt 512 (Vm v0 v20 v24 v29) slices_S1024x64_o512_0_S256x64)) (masked k0_pay6 (sc v0 v20 v24 v29 768 768 slices_S1024x64_o768_0_S256x64 slices_S1024x64_o768_0_S256x64)) (tileAt 768 (Vm v0 v20 v24 v29) slices_S1024x64_o768_0_S256x64) r hh qf.val (sB X γ β Wq Wk qf) (vB X γ β Wv hh) 3 (by omega) e2
    (S_diag v0 v20 v24 v29 X γ β Wq Wk Wv hx hg hb hw 768 3 slices_S1024x64_o768_0_S256x64 (by norm_num) r qf hq')
    (fun c => V_tile v0 v20 v24 v29 X γ β Wq Wk Wv hx hg hb hw 768 3 slices_S1024x64_o768_0_S256x64 (by norm_num) (by norm_num) c hh)
  rw [e3.2.2, e3.2.1]
  exact finish_eq X γ β Wq Wk Wv qf hh 3 (by omega) (by omega)

end Blocks

end Cert.KernelIdeal.Attn

end
-- ==== Proof.KernelIdealFrame.lean ====
import proofs.«105540_j9242769622267_2_alg».proof.Proof.Gen.KernelIdeal.Launch
import proofs.«105540_j9242769622267_2_alg».proof.Proof.Gen.KernelIdeal.Skeleton
import proofs.«105540_j9242769622267_2_alg».proof.Proof.Gen.KernelIdeal.Points
import Idealize.ShloMosaic.Lib.Pipeline.FrameBody
import Idealize.ShloMosaic.Lib.Ring
import Idealize.ShloMosaic.Lib.Tactic

/-!
# The frame of the attention kernel

The program is five host operations (three transposes, a concatenation, a conversion to bf16) followed by one
pipelined region over a grid of 32 points. Four windows are read (the activation block, the two LayerNorm
vectors, the fused projection matrix) and one is written (the attention output block). The body stores four
row tiles of 256 rows each, which together tile the output block, so what the body leaves in the output
buffer is a function of the four input blocks alone: `out0_4`. From the body's triple the pipeline's frame
run follows, and from it the claim that every argument array ends as it started.
-/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The program up to the region -/

/-- Core `c`'s buffers when the region is entered: the launch contents after the five host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post is a run to
    the frame claim's post: a staged input array ends at its entry contents, an array no window stages keeps its
    entry contents, and no host operation writes an argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's accesses -/

/-- The whole activation block. -/
abbrev rX : Rect S1x1024x768 := Rect.unit (s := S1x1024x768) ![0, 0, 0] S1x1024x768.size inb_S1x1024x768_S1x1024x768_0_0_0
/-- A whole LayerNorm vector. -/
abbrev rG : Rect S768 := Rect.unit (s := S768) ![0] S768.size inb_S768_S768_0
/-- The whole projection matrix. -/
abbrev rW : Rect S768x192 := Rect.unit (s := S768x192) ![0, 0] S768x192.size inb_S768x192_S768x192_0_0
/-- Rows 0–255 of the output block. -/
abbrev rO0 : Rect S1x1024x64 := Rect.unit (s := S1x1024x64) ![0, 0, 0] S1x256x64.size inb_S1x1024x64_S1x256x64_0_0_0
/-- Rows 256–511 of the output block. -/
abbrev rO1 : Rect S1x1024x64 := Rect.unit (s := S1x1024x64) ![0, 256, 0] S1x256x64.size inb_S1x1024x64_S1x256x64_0_256_0
/-- Rows 512–767 of the output block. -/
abbrev rO2 : Rect S1x1024x64 := Rect.unit (s := S1x1024x64) ![0, 512, 0] S1x256x64.size inb_S1x1024x64_S1x256x64_0_512_0
/-- Rows 768–1023 of the output block. -/
abbrev rO3 : Rect S1x1024x64 := Rect.unit (s := S1x1024x64) ![0, 768, 0] S1x256x64.size inb_S1x1024x64_S1x256x64_0_768_0

/-! ## What the body leaves in the output window's buffer -/

/-- The query projection of the normalised block, in bf16 (columns 0–63 of the fused product). -/
def projQ (x0 : Vec F S1x1024x768 .f32) (x1 x2 : Vec F S768 .f32) (x3 : Vec F S768x192 .bf16) : FVec F S1024x64 .bf16 :=
  k0_pay3 (View.ld x0 rX) (View.ld x1 rG) (View.ld x2 rG) (View.ld x3 rW)
/-- The key projection (columns 64–127). -/
def projK (x0 : Vec F S1x1024x768 .f32) (x1 x2 : Vec F S768 .f32) (x3 : Vec F S768x192 .bf16) : FVec F S1024x64 .bf16 :=
  k0_pay4 (View.ld x0 rX) (View.ld x1 rG) (View.ld x2 rG) (View.ld x3 rW)
/-- The value projection (columns 128–191). -/
def projV (x0 : Vec F S1x1024x768 .f32) (x1 x2 : Vec F S768 .f32) (x3 : Vec F S768x192 .bf16) : FVec F S1024x64 .bf16 :=
  k0_pay5 (View.ld x0 rX) (View.ld x1 rG) (View.ld x2 rG) (View.ld x3 rW)
/-- Rows 0–255 of the query projection. -/
def projQ0 (x0 : Vec F S1x1024x768 .f32) (x1 x2 : Vec F S768 .f32) (x3 : Vec F S768x192 .bf16) : FVec F S256x64 .bf16 :=
  k0_pay7 (View.ld x0 rX) (View.ld x1 rG) (View.ld x2 rG) (View.ld x3 rW)

/-- Output rows 0–255: query tile 0 against key/value tile 0, under the causal mask. -/
def tile0 (k v : FVec F S1024x64 .bf16) (q0 : FVec F S256x64 .bf16) : FVec F S1x256x64 .f32 :=
  k0_pay10 k v k0_pay6 q0 (k0_pay8 (F := F)) (k0_pay9 (F := F))
/-- Output rows 256–511: query tile 1 against key/value tiles 0 (unmasked) and 1 (masked). -/
def tile1 (q k v : FVec F S1024x64 .bf16) : FVec F S1x256x64 .f32 :=
  k0_pay19 k v k0_pay6 (k0_pay11 q) (k0_pay13 (F := F)) (k0_pay14 (F := F)) (k0_pay15 v) (k0_pay16 q k) (k0_pay17 q k) (k0_pay18 q k)
/-- Output rows 512–767: query tile 2 against key/value tiles 0, 1 (unmasked) and 2 (masked). -/
def tile2 (q k v : FVec F S1024x64 .bf16) : FVec F S1x256x64 .f32 :=
  k0_pay35 k0_pay6 (k0_pay28 k (k0_pay20 q) (k0_pay21 (F := F))) (k0_pay31 k (k0_pay20 q) (k0_pay21 (F := F)) (k0_pay22 (F := F)))
    (k0_pay32 k v (k0_pay20 q) (k0_pay21 (F := F)) (Scalar.ofBits .f32 0x00000000#32 : F .f32)) (k0_pay33 v) (k0_pay34 k (k0_pay20 q))
    (Scalar.ofBits .f32 0x3E000000#32 : F .f32)
/-- Output rows 768–1023: query tile 3 against key/value tiles 0, 1, 2 (unmasked) and 3 (masked). -/
def tile3 (q k v : FVec F S1024x64 .bf16) : FVec F S1x256x64 .f32 :=
  k0_pay1 k v k0_pay6 (k0_pay36 q) (k0_pay50 v) (k0_pay52 k (k0_pay36 q) (k0_pay41 q k))
    (k0_pay55 k (k0_pay36 q) (k0_pay41 q k) (k0_pay44 q k) (k0_pay45 q k))
    (k0_pay56 k v (k0_pay36 q) (k0_pay38 (F := F)) (k0_pay39 v) (k0_pay41 q k) (k0_pay42 q k) (k0_pay43 q k))
    (k0_pay57 k (k0_pay36 q) (k0_pay41 q k)) (constant S256x64 .f32 0x00000000#32 : FVec F S256x64 .f32)

/-- Window 4's staging buffer after the body, from the input windows' blocks: its four stores as pieces, the last
    store first. -/
def out0_4 (x0 : Vec F S1x1024x768 .f32) (x1 x2 : Vec F S768 .f32) (x3 : Vec F S768x192 .bf16) : Vec F S1x1024x64 .f32 :=
  View.canon [⟨rO3, tile3 (projQ x0 x1 x2 x3) (projK x0 x1 x2 x3) (projV x0 x1 x2 x3)⟩,
    ⟨rO2, tile2 (projQ x0 x1 x2 x3) (projK x0 x1 x2 x3) (projV x0 x1 x2 x3)⟩,
    ⟨rO1, tile1 (projQ x0 x1 x2 x3) (projK x0 x1 x2 x3) (projV x0 x1 x2 x3)⟩,
    ⟨rO0, tile0 (projK x0 x1 x2 x3) (projV x0 x1 x2 x3) (projQ0 x0 x1 x2 x3)⟩]

/-- The four row tiles tile the block, so they cover it. -/
theorem cover0_4 (p0 p1 p2 p3 : Vec F S1x256x64 .f32) (y : S1x1024x64.Idx) :
    ∃ pc ∈ ([⟨rO3, p0⟩, ⟨rO2, p1⟩, ⟨rO1, p2⟩, ⟨rO0, p3⟩] : List (View.Piece (Elt F) S1x1024x64 .f32)), y ∈ pc.1.set :=
  View.cover_of_tiled [⟨rO3, p0⟩, ⟨rO2, p1⟩, ⟨rO1, p2⟩, ⟨rO0, p3⟩] S1x256x64.size (by rfl) y

/-! ## The body's triple -/

set_option maxHeartbeats 4000000 in
/-- The kernel body on whole staging memrefs, the inputs' at contents `xW` and the output's at anything, runs to the
    continuation holding the inputs' as they were and the output's at `out0_4` of the inputs'. The body reads the
    output buffer before each store, but uses none of what it reads. -/
theorem sound_kernel (c : Dev nD) (E : Set ℕ) (i : grid0.Coords) (arg1 : Memref sig .tc .vmem S1x1024x768 .f32) (harg1 : arg1.IsWhole)
    (arg2 : Memref sig .tc .vmem S768 .f32) (harg2 : arg2.IsWhole) (arg3 : Memref sig .tc .vmem S768 .f32) (harg3 : arg3.IsWhole)
    (arg4 : Memref sig .tc .vmem S768x192 .bf16) (harg4 : arg4.IsWhole) (arg5 : Memref sig .tc .vmem S1x1024x64 .f32) (harg5 : arg5.IsWhole)
    (x0 : Vec F S1x1024x768 .f32) (x1 x2 : Vec F S768 .f32) (x3 : Vec F S768x192 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__attn_kernel i arg1 harg1 arg2 harg2 arg3 harg3 arg4 harg4 arg5 harg5) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _ _ _)

/-! ## The pipeline's proof data -/

/-- The proof data of the pipeline on core `c`: the arrays as the region finds them; after the body at point `t`
    each input's buffer at its block and the output's at `out0_4` of the input blocks; the invariant the scoped rest
    and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- For any values, from any memory with zero counters: every weakly fair execution of the program on the TensorCores
    terminates, and every final state has every array of the pipeline at what the proof data computes and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- The frame: the program runs, and each of its six argument arrays ends as it started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KernelIdealValue.lean ====
import proofs.«105540_j9242769622267_2_alg».proof.Proof.KernelIdealFrame
import proofs.«105540_j9242769622267_2_alg».proof.Proof.KernelTiles
import Idealize.ShloMosaic.Lib.Pipeline.Value
import Idealize.ShloMosaic.Lib.ValueLayout
import Idealize.ShloMosaic.Lib.Tactic

/-!
# The attention kernel's result as one function of its arguments

The frame run leaves the result array at what the proof data computes from what each grid point writes back. Here
that is read: the output block a point leaves is the canon of four row tiles, each a streaming softmax of the
input blocks; the input blocks are batch entry `t` of the activations, the two LayerNorm vectors, and the fused
projection matrix the host operations build from the three weight matrices; so point `t` writes back batch entry
`t` of one whole-array function `Gk` of the six arguments, the points' blocks cover the result array, and the
result array ends at `Gk`.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## The output block, row tile by row tile -/

section Tiles

variable {F : FTy → Type} [FloatOps F] [Named F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The output block is the canon of the four streaming-softmax tiles of the input blocks: each whole-buffer load
    reads its buffer, and each stored value is the corresponding tile. -/
theorem out0_4_eq_tiles (x0 : Vec F S1x1024x768 .f32) (x1 x2 : Vec F S768 .f32) (x3 : Vec F S768x192 .bf16) :
    out0_4 x0 x1 x2 x3 = View.canon [⟨rO3, Tiles.tile3 x0 x1 x2 x3⟩, ⟨rO2, Tiles.tile2 x0 x1 x2 x3⟩,
      ⟨rO1, Tiles.tile1 x0 x1 x2 x3⟩, ⟨rO0, Tiles.tile0 x0 x1 x2 x3⟩] := by
  unfold out0_4 Hand.tile0 Hand.tile1 Hand.tile2 Hand.tile3 projQ projK projV projQ0
  simp only [View.ld_unit_zero (S := S1x1024x768) hz3, View.ld_unit_zero (S := S768) hz1, View.ld_unit_zero (S := S768x192) hz2]
  rw [← Tiles.store0_eq x0 x1 x2 x3, ← Tiles.store1_eq x0 x1 x2 x3, ← Tiles.store2_eq x0 x1 x2 x3, ← Tiles.store3_eq x0 x1 x2 x3]

/-- Row `256 a + r` of the block is row `r` of the `a`-th rectangle. -/
theorem emb_rO0 (r : Fin 256) (h : Fin 64) (s : Fin 1024) (hs : s.val = r.val) :
    (ix3 (0 : Fin 1) s h : S1x1024x64.Idx) = rO0.emb (ix3 (0 : Fin 1) r h : S1x256x64.Idx) := by
  funext a; apply Fin.ext
  match a with
  | ⟨0, _⟩ => rfl
  | ⟨1, _⟩ => show s.val = 0 + 1 * r.val; omega
  | ⟨2, _⟩ => show h.val = 0 + 1 * h.val; omega
theorem emb_rO1 (r : Fin 256) (h : Fin 64) (s : Fin 1024) (hs : s.val = 256 + r.val) :
    (ix3 (0 : Fin 1) s h : S1x1024x64.Idx) = rO1.emb (ix3 (0 : Fin 1) r h : S1x256x64.Idx) := by
  funext a; apply Fin.ext
  match a with
  | ⟨0, _⟩ => rfl
  | ⟨1, _⟩ => show s.val = 256 + 1 * r.val; omega
  | ⟨2, _⟩ => show h.val = 0 + 1 * h.val; omega
theorem emb_rO2 (r : Fin 256) (h : Fin 64) (s : Fin 1024) (hs : s.val = 512 + r.val) :
    (ix3 (0 : Fin 1) s h : S1x1024x64.Idx) = rO2.emb (ix3 (0 : Fin 1) r h : S1x256x64.Idx) := by
  funext a; apply Fin.ext
  match a with
  | ⟨0, _⟩ => rfl
  | ⟨1, _⟩ => show s.val = 512 + 1 * r.val; omega
  | ⟨2, _⟩ => show h.val = 0 + 1 * h.val; omega
theorem emb_rO3 (r : Fin 256) (h : Fin 64) (s : Fin 1024) (hs : s.val = 768 + r.val) :
    (ix3 (0 : Fin 1) s h : S1x1024x64.Idx) = rO3.emb (ix3 (0 : Fin 1) r h : S1x256x64.Idx) := by
  funext a; apply Fin.ext
  match a with
  | ⟨0, _⟩ => rfl
  | ⟨1, _⟩ => show s.val = 768 + 1 * r.val; omega
  | ⟨2, _⟩ => show h.val = 0 + 1 * h.val; omega

/-- A row below `256 a` is outside the `a`-th rectangle. -/
theorem not_mem_rO1 (h : Fin 64) (s : Fin 1024) (hs : s.val < 256) : (ix3 (0 : Fin 1) s h : S1x1024x64.Idx) ∉ rO1.set := by
  rw [Rect.mem_set_unit]; intro hh
  have h1 : 256 ≤ s.val ∧ s.val < 256 + 256 := hh 1
  omega
theorem not_mem_rO2 (h : Fin 64) (s : Fin 1024) (hs : s.val < 512) : (ix3 (0 : Fin 1) s h : S1x1024x64.Idx) ∉ rO2.set := by
  rw [Rect.mem_set_unit]; intro hh
  have h1 : 512 ≤ s.val ∧ s.val < 512 + 256 := hh 1
  omega
theorem not_mem_rO3 (h : Fin 64) (s : Fin 1024) (hs : s.val < 768) : (ix3 (0 : Fin 1) s h : S1x1024x64.Idx) ∉ rO3.set := by
  rw [Rect.mem_set_unit]; intro hh
  have h1 : 768 ≤ s.val ∧ s.val < 768 + 256 := hh 1
  omega

/-- The canon of four row tiles, read at a row of each tile. -/
theorem canon4_rows3 (p3 p2 p1 p0 : Vec F S1x256x64 .f32) (r : Fin 256) (h : Fin 64) (s : Fin 1024) (hs : s.val = 768 + r.val) :
    View.canon ([⟨rO3, p3⟩, ⟨rO2, p2⟩, ⟨rO1, p1⟩, ⟨rO0, p0⟩] : List (View.Piece (Elt F) S1x1024x64 .f32)) (ix3 (0 : Fin 1) s h)
      = p3 (ix3 (0 : Fin 1) r h) := by
  rw [emb_rO3 r h s hs]
  exact View.canon_cons_emb rO3 p3 _ _
theorem canon4_rows2 (p3 p2 p1 p0 : Vec F S1x256x64 .f32) (r : Fin 256) (h : Fin 64) (s : Fin 1024) (hs : s.val = 512 + r.val) :
    View.canon ([⟨rO3, p3⟩, ⟨rO2, p2⟩, ⟨rO1, p1⟩, ⟨rO0, p0⟩] : List (View.Piece (Elt F) S1x1024x64 .f32)) (ix3 (0 : Fin 1) s h)
      = p2 (ix3 (0 : Fin 1) r h) := by
  rw [View.canon_cons_of_not_mem (⟨rO3, p3⟩ : View.Piece (Elt F) S1x1024x64 .f32) [⟨rO2, p2⟩, ⟨rO1, p1⟩, ⟨rO0, p0⟩] (not_mem_rO3 h s (by omega)),
    emb_rO2 r h s hs]
  exact View.canon_cons_emb rO2 p2 _ _
theorem canon4_rows1 (p3 p2 p1 p0 : Vec F S1x256x64 .f32) (r : Fin 256) (h : Fin 64) (s : Fin 1024) (hs : s.val = 256 + r.val) :
    View.canon ([⟨rO3, p3⟩, ⟨rO2, p2⟩, ⟨rO1, p1⟩, ⟨rO0, p0⟩] : List (View.Piece (Elt F) S1x1024x64 .f32)) (ix3 (0 : Fin 1) s h)
      = p1 (ix3 (0 : Fin 1) r h) := by
  rw [View.canon_cons_of_not_mem (⟨rO3, p3⟩ : View.Piece (Elt F) S1x1024x64 .f32) [⟨rO2, p2⟩, ⟨rO1, p1⟩, ⟨rO0, p0⟩] (not_mem_rO3 h s (by omega)),
    View.canon_cons_of_not_mem (⟨rO2, p2⟩ : View.Piece (Elt F) S1x1024x64 .f32) [⟨rO1, p1⟩, ⟨rO0, p0⟩] (not_mem_rO2 h s (by omega)),
    emb_rO1 r h s hs]
  exact View.canon_cons_emb rO1 p1 _ _
theorem canon4_rows0 (p3 p2 p1 p0 : Vec F S1x256x64 .f32) (r : Fin 256) (h : Fin 64) (s : Fin 1024) (hs : s.val = r.val) :
    View.canon ([⟨rO3, p3⟩, ⟨rO2, p2⟩, ⟨rO1, p1⟩, ⟨rO0, p0⟩] : List (View.Piece (Elt F) S1x1024x64 .f32)) (ix3 (0 : Fin 1) s h)
      = p0 (ix3 (0 : Fin 1) r h) := by
  rw [View.canon_cons_of_not_mem (⟨rO3, p3⟩ : View.Piece (Elt F) S1x1024x64 .f32) [⟨rO2, p2⟩, ⟨rO1, p1⟩, ⟨rO0, p0⟩] (not_mem_rO3 h s (by omega)),
    View.canon_cons_of_not_mem (⟨rO2, p2⟩ : View.Piece (Elt F) S1x1024x64 .f32) [⟨rO1, p1⟩, ⟨rO0, p0⟩] (not_mem_rO2 h s (by omega)),
    View.canon_cons_of_not_mem (⟨rO1, p1⟩ : View.Piece (Elt F) S1x1024x64 .f32) [⟨rO0, p0⟩] (not_mem_rO1 h s (by omega)),
    emb_rO0 r h s hs]
  exact View.canon_cons_emb rO0 p0 _ _

/-- Rows 768 … 1023 of the output block are tile 3. -/
theorem out0_4_rows3 (x0 : Vec F S1x1024x768 .f32) (x1 x2 : Vec F S768 .f32) (x3 : Vec F S768x192 .bf16)
    (r : Fin 256) (h : Fin 64) (s : Fin 1024) (hs : s.val = 768 + r.val) :
    out0_4 x0 x1 x2 x3 (ix3 (0 : Fin 1) s h) = Tiles.tile3 x0 x1 x2 x3 (ix3 (0 : Fin 1) r h) := by
  rw [out0_4_eq_tiles]; exact canon4_rows3 _ _ _ _ r h s hs
/-- Rows 512 … 767 are tile 2. -/
theorem out0_4_rows2 (x0 : Vec F S1x1024x768 .f32) (x1 x2 : Vec F S768 .f32) (x3 : Vec F S768x192 .bf16)
    (r : Fin 256) (h : Fin 64) (s : Fin 1024) (hs : s.val = 512 + r.val) :
    out0_4 x0 x1 x2 x3 (ix3 (0 : Fin 1) s h) = Tiles.tile2 x0 x1 x2 x3 (ix3 (0 : Fin 1) r h) := by
  rw [out0_4_eq_tiles]; exact canon4_rows2 _ _ _ _ r h s hs
/-- Rows 256 … 511 are tile 1. -/
theorem out0_4_rows1 (x0 : Vec F S1x1024x768 .f32) (x1 x2 : Vec F S768 .f32) (x3 : Vec F S768x192 .bf16)
    (r : Fin 256) (h : Fin 64) (s : Fin 1024) (hs : s.val = 256 + r.val) :
    out0_4 x0 x1 x2 x3 (ix3 (0 : Fin 1) s h) = Tiles.tile1 x0 x1 x2 x3 (ix3 (0 : Fin 1) r h) := by
  rw [out0_4_eq_tiles]; exact canon4_rows1 _ _ _ _ r h s hs
/-- Rows 0 … 255 are tile 0. -/
theorem out0_4_rows0 (x0 : Vec F S1x1024x768 .f32) (x1 x2 : Vec F S768 .f32) (x3 : Vec F S768x192 .bf16)
    (r : Fin 256) (h : Fin 64) (s : Fin 1024) (hs : s.val = r.val) :
    out0_4 x0 x1 x2 x3 (ix3 (0 : Fin 1) s h) = Tiles.tile0 x0 x1 x2 x3 (ix3 (0 : Fin 1) r h) := by
  rw [out0_4_eq_tiles]; exact canon4_rows0 _ _ _ _ r h s hs

end Tiles

/-! ## The arrays the region reads, at the ideal instance -/

section Arrays

variable (m : (ℓ : Loc nD τ sig) → Buf (Elt Ideal) ℓ) (ρ : Dev nD → PrngReg)

/-- The fused projection matrix, from the three weight matrices: column `j` of row `d` is the query weight
    `(j, d)` for `j < 64`, the key weight `(j - 64, d)` for `64 ≤ j < 128`, the value weight `(j - 128, d)` beyond. -/
def fusedW (wka wqa wva : FVec Ideal S64x768 .f32) : Vec Ideal S768x192 .bf16 := fun p =>
  if h0 : (p 1).val < 64 then wqa (ix2 (n0 := 64) (n1 := 768) ⟨(p 1).val, h0⟩ (p 0))
  else if h1 : (p 1).val < 128 then wka (ix2 (n0 := 64) (n1 := 768) ⟨(p 1).val - 64, by omega⟩ (p 0))
  else wva (ix2 (n0 := 64) (n1 := 768) ⟨(p 1).val - 128, by have h2 : (p 1).val < 192 := (p 1).isLt; omega⟩ (p 0))

theorem fusedW_apply (wka wqa wva : FVec Ideal S64x768 .f32) (d : Fin 768) (j : Fin 192) :
    fusedW wka wqa wva (ix2 d j) = if h0 : j.val < 64 then wqa (ix2 ⟨j.val, h0⟩ d)
      else if h1 : j.val < 128 then wka (ix2 ⟨j.val - 64, by omega⟩ d)
      else wva (ix2 ⟨j.val - 128, by have h2 := j.isLt; omega⟩ d) := rfl

/-- The three transposed weight matrices, in the order the program concatenates them. -/
abbrev wPieces (c : Dev nD) : List ((s : Shape) × (s.Idx → EReal)) :=
  [⟨S768x64, transpose S768x64 [1, 0] (m ((c : Thread nD τ).loc main_arg4) : S64x768.Idx → EReal) transposes_S64x768_S768x64_1_0⟩,
   ⟨S768x64, transpose S768x64 [1, 0] (m ((c : Thread nD τ).loc main_arg3) : S64x768.Idx → EReal) transposes_S64x768_S768x64_1_0⟩,
   ⟨S768x64, transpose S768x64 [1, 0] (m ((c : Thread nD τ).loc main_arg5) : S64x768.Idx → EReal) transposes_S64x768_S768x64_1_0⟩]

/-- The array the fourth window reads, as the region finds it: the transposed weights side by side (the conversion
    to bf16 is the identity on extended reals). -/
theorem V_main_v4 (c : Dev nD) :
    (V m c main_v4 : S768x192.Idx → EReal) = fusedW (m ((c : Thread nD τ).loc main_arg3)) (m ((c : Thread nD τ).loc main_arg4)) (m ((c : Thread nD τ).loc main_arg5)) := by
  have e : (V m c main_v4 : S768x192.Idx → EReal) =
      truncf (F := Ideal) .bf16 (concatenate S768x192 1 (wPieces m c) concatenates_S768x64_S768x64_S768x64_S768x192_d1) bitsLt_bf16_f32 := by
    dsimp only [V, hostOps0]; after_results; rfl
  rw [e]
  funext p
  obtain ⟨d, j, rfl⟩ : ∃ (d : Fin 768) (j : Fin 192), p = ix2 d j := ⟨p 0, p 1, eq_ix2 p⟩
  rw [fusedW_apply]
  show concatenate S768x192 1 (wPieces m c) concatenates_S768x64_S768x64_S768x64_S768x192_d1 (ix2 d j) = _
  by_cases h0 : j.val < 64
  · rw [dif_pos h0]
    refine (concatenate_apply_piece (t := S768x192) (1 : Fin 2) (wPieces m c) concatenates_S768x64_S768x64_S768x64_S768x192_d1 (ix2 d j) 0 (show (0 : Nat) < 3 from by decide) S768x64 _ rfl rfl 0 rfl
      (ix2 d ⟨j.val, h0⟩) (fun b hb => by match b with | ⟨0, _⟩ => rfl | ⟨1, _⟩ => exact absurd rfl hb) (by show 0 + j.val = j.val; omega)).trans ?_
    exact transpose_ix2_apply _ _ d ⟨j.val, h0⟩
  · rw [dif_neg h0]
    by_cases h1 : j.val < 128
    · rw [dif_pos h1]
      refine (concatenate_apply_piece (t := S768x192) (1 : Fin 2) (wPieces m c) concatenates_S768x64_S768x64_S768x64_S768x192_d1 (ix2 d j) 1 (show (1 : Nat) < 3 from by decide) S768x64 _ rfl rfl 64 rfl
        (ix2 d ⟨j.val - 64, by omega⟩) (fun b hb => by match b with | ⟨0, _⟩ => rfl | ⟨1, _⟩ => exact absurd rfl hb) (by show 64 + (j.val - 64) = j.val; omega)).trans ?_
      exact transpose_ix2_apply _ _ d ⟨j.val - 64, by omega⟩
    · rw [dif_neg h1]
      have h2 : j.val < 192 := j.isLt
      refine (concatenate_apply_piece (t := S768x192) (1 : Fin 2) (wPieces m c) concatenates_S768x64_S768x64_S768x64_S768x192_d1 (ix2 d j) 2 (show (2 : Nat) < 3 from by decide) S768x64 _ rfl rfl 128 rfl
        (ix2 d ⟨j.val - 128, by omega⟩) (fun b hb => by match b with | ⟨0, _⟩ => rfl | ⟨1, _⟩ => exact absurd rfl hb) (by show 128 + (j.val - 128) = j.val; omega)).trans ?_
      exact transpose_ix2_apply _ _ d ⟨j.val - 128, by omega⟩

/-- The printed index maps over the grid: the activation and output windows are at block `t` of the batch axis, the
    others at block zero. -/
theorem idx_facts : ∀ t : Fin cfg0.N, win0_0.index t (0 : Fin 3) = t.val ∧ win0_0.index t (1 : Fin 3) = 0 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Grid point `t` as a batch index. -/
def batchOf (t : Fin cfg0.N) : Fin 32 := ⟨t.val, lt_of_lt_of_eq t.isLt N_0⟩

/-- Batch entry `b` of the activations, as a block with a leading unit axis. -/
def xblock (xa : FVec Ideal S32x1024x768 .f32) (b : Fin 32) : Vec Ideal S1x1024x768 .f32 :=
  fun y => xa (ix3 (n0 := 32) (n1 := 1024) (n2 := 768) b (y 1) (y 2))

theorem xblock_apply (xa : FVec Ideal S32x1024x768 .f32) (b : Fin 32) (u : Fin 1) (s : Fin 1024) (d : Fin 768) :
    xblock xa b (ix3 u s d) = xa (ix3 b s d) := rfl

/-- The activation window's block at point `t` is batch entry `t` of the argument. -/
theorem iblk0_eq (c : Dev nD) (t : Fin cfg0.N) :
    (iblk m c 0 t : Vec Ideal S1x1024x768 .f32) = xblock (m ((c : Thread nD τ).loc main_arg0)) (batchOf t) := by
  obtain ⟨e0, e1, e2, -⟩ := idx_facts t
  funext y
  unfold iblk
  rw [View.read_apply]
  show V m c main_arg0 _ = (m ((c : Thread nD τ).loc main_arg0) : S32x1024x768.Idx → EReal) _
  rw [V_main_arg0]
  congr 1
  funext a
  apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 1024 + 1 * (y 1).val = (y 1).val; omega
  | ⟨2, _⟩ => show win0_0.index t (2 : Fin 3) * 768 + 1 * (y 2).val = (y 2).val; omega

/-- The two LayerNorm windows' blocks are the whole arguments. -/
theorem iblk1_eq (c : Dev nD) (t : Fin cfg0.N) :
    (iblk m c 1 t : Vec Ideal S768 .f32) = (m ((c : Thread nD τ).loc main_arg1) : S768.Idx → EReal) := by
  obtain ⟨-, -, -, e3, -⟩ := idx_facts t
  funext y
  unfold iblk
  rw [View.read_apply]
  show V m c main_arg1 _ = (m ((c : Thread nD τ).loc main_arg1) : S768.Idx → EReal) _
  rw [V_main_arg1]
  congr 1
  funext a
  apply Fin.ext
  match a with
  | ⟨0, _⟩ => show win0_1.index t (0 : Fin 1) * 768 + 1 * (y 0).val = (y 0).val; omega
theorem iblk2_eq (c : Dev nD) (t : Fin cfg0.N) :
    (iblk m c 2 t : Vec Ideal S768 .f32) = (m ((c : Thread nD τ).loc main_arg2) : S768.Idx → EReal) := by
  obtain ⟨-, -, -, -, e4, -⟩ := idx_facts t
  funext y
  unfold iblk
  rw [View.read_apply]
  show V m c main_arg2 _ = (m ((c : Thread nD τ).loc main_arg2) : S768.Idx → EReal) _
  rw [V_main_arg2]
  congr 1
  funext a
  apply Fin.ext
  match a with
  | ⟨0, _⟩ => show win0_2.index t (0 : Fin 1) * 768 + 1 * (y 0).val = (y 0).val; omega

/-- The projection window's block is the whole fused matrix. -/
theorem iblk3_eq (c : Dev nD) (t : Fin cfg0.N) :
    (iblk m c 3 t : Vec Ideal S768x192 .bf16) = fusedW (m ((c : Thread nD τ).loc main_arg3)) (m ((c : Thread nD τ).loc main_arg4)) (m ((c : Thread nD τ).loc main_arg5)) := by
  obtain ⟨-, -, -, -, -, e5, e6, -⟩ := idx_facts t
  rw [← V_main_v4 m c]
  funext y
  unfold iblk
  rw [View.read_apply]
  show V m c main_v4 _ = V m c main_v4 y
  congr 1
  funext a
  apply Fin.ext
  match a with
  | ⟨0, _⟩ => show win0_3.index t (0 : Fin 2) * 768 + 1 * (y 0).val = (y 0).val; omega
  | ⟨1, _⟩ => show win0_3.index t (1 : Fin 2) * 192 + 1 * (y 1).val = (y 1).val; omega

/-! ## The output array as one function of the arguments -/

/-- The kernel's result: entry `(b, s, h)` is entry `(0, s, h)` of the output block computed from batch entry `b` of
    the activations, the two LayerNorm vectors and the fused projection matrix. -/
def Gk (xa : FVec Ideal S32x1024x768 .f32) (ga ba : FVec Ideal S768 .f32) (wka wqa wva : FVec Ideal S64x768 .f32) :
    FVec Ideal S32x1024x64 .f32 :=
  fun i => out0_4 (F := Ideal) (xblock xa (i 0)) ga ba (fusedW wka wqa wva) (ix3 (n0 := 1) (n1 := 1024) (n2 := 64) (0 : Fin 1) (i 1) (i 2))

/-- The result at an index of batch entry `b` is the output block of that entry at the index inside the block. -/
theorem Gk_block (xa : FVec Ideal S32x1024x768 .f32) (ga ba : FVec Ideal S768 .f32) (wka wqa wva : FVec Ideal S64x768 .f32)
    (b : Fin 32) (j : S1x1024x64.Idx) (i : S32x1024x64.Idx)
    (h0 : (i 0).val = b.val) (h1 : (i 1).val = (j 1).val) (h2 : (i 2).val = (j 2).val) :
    Gk xa ga ba wka wqa wva i = out0_4 (F := Ideal) (xblock xa b) ga ba (fusedW wka wqa wva) j := by
  have eb : i 0 = b := Fin.ext h0
  have ej : (ix3 (n0 := 1) (n1 := 1024) (n2 := 64) (0 : Fin 1) (i 1) (i 2) : S1x1024x64.Idx) = j := by
    funext a; apply Fin.ext
    match a with
    | ⟨0, _⟩ => show (0 : Nat) = (j 0).val; have hj : (j 0).val < 1 := (j 0).isLt; omega
    | ⟨1, _⟩ => exact h1
    | ⟨2, _⟩ => exact h2
  unfold Gk
  rw [eb, ej]

variable {m}

-- the block's index is moved between the window's own index type and the literal one: many small unfoldings
set_option maxHeartbeats 2000000 in
/-- What point `t` writes back is block `t` of `Gk` of the arguments. -/
theorem flushed_eq (c : Dev nD) (t : Fin cfg0.N) :
    (dats m 0 c).flushed 4 t = ((cfg0.win 4).blk t).view.read (Elt Ideal)
      (Gk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  show (cfg0.win 4).cut (grid0.coords t) ((dats m 0 c).after 4 t) = _
  rw [after0_4, iblk0_eq m c t, iblk1_eq m c t, iblk2_eq m c t, iblk3_eq m c t]
  obtain ⟨-, -, -, -, -, -, -, e7, e8, e9⟩ := idx_facts t
  funext j
  rw [View.read_apply]
  refine (Gk_block _ _ _ _ _ _ (batchOf t) ((cfg0.win 4).xinj (grid0.coords t) j) (((cfg0.win 4).blk t).view.emb j) ?_ ?_ ?_).symm
  · show win0_4.index t (0 : Fin 3) * 1 + 1 * (j 0).val = t.val; have hj : (j 0).val < 1 := (j 0).isLt; omega
  · show win0_4.index t (1 : Fin 3) * 1024 + 1 * (j 1).val = (j 1).val; omega
  · show win0_4.index t (2 : Fin 3) * 64 + 1 * (j 2).val = (j 2).val; omega

/-- An index of the output array is in point `t`'s block iff each coordinate is in the block's range on its axis. -/
theorem mem_blk4 (t : Fin cfg0.N) (i : S32x1024x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v5).slice (win0_4.rect t)).set ↔ _
  rw [View.set_slice_whole, Rect.mem_set_unit]
  exact Iff.rfl

/-- Every index of the output array is in the block of the point its batch coordinate names. -/
theorem covered (i : S32x1024x64.Idx) : ∃ t : Fin cfg0.N, (cfg0.win 4).flush t = true ∧ i ∈ ((cfg0.win 4).blk t).view.set := by
  have hi0 : (i 0).val < 32 := (i 0).isLt
  have hi1 : (i 1).val < 1024 := (i 1).isLt
  have hi2 : (i 2).val < 64 := (i 2).isLt
  let t : Fin cfg0.N := ⟨(i 0).val, lt_of_lt_of_eq hi0 N_0.symm⟩
  obtain ⟨-, -, -, -, -, -, -, e7, e8, e9⟩ := idx_facts t
  have e7' : win0_4.index t (0 : Fin 3) = (i 0).val := e7
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

variable (m)

/-- The output array after the run is `Gk` of the argument arrays. -/
theorem final (c : Dev nD) : (dats m 0 c).arrAt 4 cfg0.N =
    Gk (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) :=
  (dats m 0 c).arrAt_eq_of_cover 4 _ (fun t _ => flushed_eq c t) covered

/-- The run, read: the result array is `Gk` of the argument arrays, and the arguments end as they started. -/
theorem run_value : θ_run defs (onTc (τ := τ) (main (F := Ideal))) ⟨m, fun _ => 0, ρ⟩ (fun r => ∀ c : Dev nD,
      r.2.mem ((c.tc : Thread nD τ).loc main_v5) =
        Gk (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Arrays

/-! ## The result, row tile by row tile -/

/-- The result at row `256 a + r` of batch entry `b` is row `r` of tile `a` of that entry. -/
theorem Gk_rows0 (xa : FVec Ideal S32x1024x768 .f32) (ga ba : FVec Ideal S768 .f32) (wka wqa wva : FVec Ideal S64x768 .f32)
    (b : Fin 32) (r : Fin 256) (h : Fin 64) (s : Fin 1024) (hs : s.val = r.val) :
    Gk xa ga ba wka wqa wva (ix3 b s h) = Tiles.tile0 (F := Ideal) (xblock xa b) ga ba (fusedW wka wqa wva) (ix3 (0 : Fin 1) r h) :=
  out0_4_rows0 (F := Ideal) (xblock xa b) ga ba (fusedW wka wqa wva) r h s hs
theorem Gk_rows1 (xa : FVec Ideal S32x1024x768 .f32) (ga ba : FVec Ideal S768 .f32) (wka wqa wva : FVec Ideal S64x768 .f32)
    (b : Fin 32) (r : Fin 256) (h : Fin 64) (s : Fin 1024) (hs : s.val = 256 + r.val) :
    Gk xa ga ba wka wqa wva (ix3 b s h) = Tiles.tile1 (F := Ideal) (xblock xa b) ga ba (fusedW wka wqa wva) (ix3 (0 : Fin 1) r h) :=
  out0_4_rows1 (F := Ideal) (xblock xa b) ga ba (fusedW wka wqa wva) r h s hs
theorem Gk_rows2 (xa : FVec Ideal S32x1024x768 .f32) (ga ba : FVec Ideal S768 .f32) (wka wqa wva : FVec Ideal S64x768 .f32)
    (b : Fin 32) (r : Fin 256) (h : Fin 64) (s : Fin 1024) (hs : s.val = 512 + r.val) :
    Gk xa ga ba wka wqa wva (ix3 b s h) = Tiles.tile2 (F := Ideal) (xblock xa b) ga ba (fusedW wka wqa wva) (ix3 (0 : Fin 1) r h) :=
  out0_4_rows2 (F := Ideal) (xblock xa b) ga ba (fusedW wka wqa wva) r h s hs
theorem Gk_rows3 (xa : FVec Ideal S32x1024x768 .f32) (ga ba : FVec Ideal S768 .f32) (wka wqa wva : FVec Ideal S64x768 .f32)
    (b : Fin 32) (r : Fin 256) (h : Fin 64) (s : Fin 1024) (hs : s.val = 768 + r.val) :
    Gk xa ga ba wka wqa wva (ix3 b s h) = Tiles.tile3 (F := Ideal) (xblock xa b) ga ba (fusedW wka wqa wva) (ix3 (0 : Fin 1) r h) :=
  out0_4_rows3 (F := Ideal) (xblock xa b) ga ba (fusedW wka wqa wva) r h s hs

end Cert.KernelIdeal.HandValue

end
-- ==== Proof.KernelOut.lean ====
/-
  The kernel's output block of one batch entry, for real inputs, is the specification's attention: row `s` lies in
  tile `s / 256`, at row `s mod 256` of that tile.
-/
import proofs.«105540_j9242769622267_2_alg».proof.Proof.KernelAttn
import proofs.«105540_j9242769622267_2_alg».proof.Proof.KernelIdealValue

noncomputable section

namespace Cert.KernelIdeal.Attn

open Idealize.ShloMosaic Idealize.ShloMosaic.ValueIdx Cert.KernelIdeal Cert.KernelIdeal.Gen Cert.KernelIdeal.Tiles
open Cert.KernelIdeal.Hand Cert.KernelIdeal.HandValue AttnSpec

/-- Entry `(0, s, h)` of what the body leaves in the output buffer. -/
theorem out0_4_real (v0 : Vec Ideal S1x1024x768 .f32) (v20 v24 : Vec Ideal S768 .f32) (v29 : Vec Ideal S768x192 .bf16)
    (X : Fin 1024 → Fin 768 → ℝ) (γ β : Fin 768 → ℝ) (Wq Wk Wv : Fin 64 → Fin 768 → ℝ)
    (hx : ∀ s d, v0 (ix3 (0 : Fin 1) s d) = ((X s d : ℝ) : EReal))
    (hg : ∀ d, v20 (ix1 d) = ((γ d : ℝ) : EReal)) (hb : ∀ d, v24 (ix1 d) = ((β d : ℝ) : EReal))
    (hw : ∀ d j, v29 (ix2 d j) = ((wcat Wq Wk Wv d j : ℝ) : EReal))
    (s : Fin 1024) (h : Fin 64) :
    out0_4 v0 v20 v24 v29 (ix3 (0 : Fin 1) s h) = ((out X γ β Wk Wq Wv s h : ℝ) : EReal) := by
  have hs := s.isLt
  by_cases h0 : s.val < 256
  · rw [out0_4_rows0 v0 v20 v24 v29 ⟨s.val, h0⟩ h s rfl]
    exact tile0_apply v0 v20 v24 v29 X γ β Wq Wk Wv hx hg hb hw ⟨s.val, h0⟩ h s (by show s.val = 256 * 0 + s.val; omega)
  · by_cases h1 : s.val < 512
    · rw [out0_4_rows1 v0 v20 v24 v29 ⟨s.val - 256, by omega⟩ h s (by show s.val = 256 + (s.val - 256); omega)]
      exact tile1_apply v0 v20 v24 v29 X γ β Wq Wk Wv hx hg hb hw ⟨s.val - 256, by omega⟩ h s
        (by show s.val = 256 * 1 + (s.val - 256); omega)
    · by_cases h2 : s.val < 768
      · rw [out0_4_rows2 v0 v20 v24 v29 ⟨s.val - 512, by omega⟩ h s (by show s.val = 512 + (s.val - 512); omega)]
        exact tile2_apply v0 v20 v24 v29 X γ β Wq Wk Wv hx hg hb hw ⟨s.val - 512, by omega⟩ h s
          (by show s.val = 256 * 2 + (s.val - 512); omega)
      · rw [out0_4_rows3 v0 v20 v24 v29 ⟨s.val - 768, by omega⟩ h s (by show s.val = 768 + (s.val - 768); omega)]
        exact tile3_apply v0 v20 v24 v29 X γ β Wq Wk Wv hx hg hb hw ⟨s.val - 768, by omega⟩ h s
          (by show s.val = 256 * 3 + (s.val - 768); omega)

end Cert.KernelIdeal.Attn

end
-- ==== Proof.RefLayerNorm.lean ====
/-
  The reference's layer normalisation, entry by entry: with real inputs, the row mean, the row
  variance and the normalised array are the coerced real mean, variance and normalised entry.
-/
import proofs.«105540_j9242769622267_2_alg».proof.Proof.Gen.ReferenceIdeal.Read
import proofs.«105540_j9242769622267_2_alg».proof.Proof.Spec
import proofs.«105540_j9242769622267_2_alg».proof.Proof.LibOnlineSoftmax

noncomputable section

namespace Cert.ReferenceIdeal.RefValue

open Cert.ReferenceIdeal Cert.ReferenceIdeal.Gen Cert.ReferenceIdeal.Read Idealize.ShloMosaic Idealize.ShloMosaic.ValueIdx
open scoped BigOperators

variable (xa : FVec Ideal S32x1024x768 .f32) (ga ba : FVec Ideal S768 .f32)
  (x : Fin 32 → Fin 1024 → Fin 768 → ℝ) (γ β : Fin 768 → ℝ)

/-- The row mean: the sum of the 768 entries over 768. -/
theorem mean_at (hx : ∀ b s d, xa (ix3 b s d) = ((x b s d : ℝ) : EReal)) (b : Fin 32) (s : Fin 1024) (z : Fin 1) :
    val_main_v3 (F := Ideal) xa (ix3 b s z) = ((AttnSpec.mu (x b s) : ℝ) : EReal) := by
  have e : ∀ k : Fin 768, idx_main_v0 (idx_main_v1 (ix3 b s z)) k = ix3 b s k := fun k =>
    funext fun a => Fin.ext (by match a with | ⟨0, _⟩ => rfl | ⟨1, _⟩ => rfl | ⟨2, _⟩ => rfl)
  rw [val_main_v3_apply, val_main_v1_apply, val_main_v2_apply, val_main_cst_0_apply, val_main_v0_apply,
    val_main_cst_apply]
  simp only [Ideal.hostDivf_def, Ideal.ofBits_def, AttnSpec.ofBits_768, AttnSpec.ofBits_zero, zero_add, e, hx]
  rw [← OnlineSoftmax.coe_sum, OnlineSoftmax.div_coe_coe _ (by norm_num)]
  rfl

/-- The row variance: the mean of the squared deviations from the row mean. -/
theorem var_at (hx : ∀ b s d, xa (ix3 b s d) = ((x b s d : ℝ) : EReal)) (b : Fin 32) (s : Fin 1024) (z : Fin 1) :
    val_main_v10 (F := Ideal) xa (ix3 b s z) = ((AttnSpec.var (x b s) : ℝ) : EReal) := by
  have e : ∀ k : Fin 768, idx_main_v7 (idx_main_v8 (ix3 b s z)) k = ix3 b s k := fun k =>
    funext fun a => Fin.ext (by match a with | ⟨0, _⟩ => rfl | ⟨1, _⟩ => rfl | ⟨2, _⟩ => rfl)
  have e4 : ∀ k : Fin 768, idx_main_v4 (ix3 b s k) = ix3 b s (⟨0, Nat.one_pos⟩ : Fin 1) := fun k =>
    funext fun a => Fin.ext (by match a with | ⟨0, _⟩ => rfl | ⟨1, _⟩ => rfl | ⟨2, _⟩ => rfl)
  rw [val_main_v10_apply, val_main_v8_apply, val_main_v9_apply, val_main_cst_2_apply, val_main_v7_apply,
    val_main_cst_1_apply]
  simp only [val_main_v6_apply, val_main_v5_apply, val_main_v4_apply, e, e4, mean_at xa x hx, hx,
    Ideal.hostDivf_def, Ideal.ofBits_def, Ideal.subf_def, Ideal.mulf_def, AttnSpec.ofBits_768, AttnSpec.ofBits_zero,
    zero_add, ← EReal.coe_sub, ← EReal.coe_mul]
  rw [← OnlineSoftmax.coe_sum, OnlineSoftmax.div_coe_coe _ (by norm_num)]
  rfl

/-- The reciprocal square root of the variance plus ε. -/
theorem rstd_at (hx : ∀ b s d, xa (ix3 b s d) = ((x b s d : ℝ) : EReal)) (b : Fin 32) (s : Fin 1024) (z : Fin 1) :
    val_main_v15 (F := Ideal) xa (ix3 b s z)
      = (((Real.sqrt (AttnSpec.var (x b s) + AttnSpec.epsR))⁻¹ : ℝ) : EReal) := by
  have hpos := AttnSpec.var_eps_pos (x b s)
  rw [val_main_v15_apply, val_main_v14_apply, val_main_v13_apply, val_main_cst_3_apply, var_at xa x hx]
  simp only [Ideal.hostUnary_rsqrt_def, Ideal.addf_def, Ideal.ofBits_def, AttnSpec.ofBits_eps, ← EReal.coe_add]
  rw [Ideal.rsqrt_coe, if_neg (not_lt.mpr hpos.le), if_neg hpos.ne']

/-- The normalised array. -/
theorem xn_at (hx : ∀ b s d, xa (ix3 b s d) = ((x b s d : ℝ) : EReal)) (hg : ∀ d, ga (ix1 d) = ((γ d : ℝ) : EReal))
    (hb : ∀ d, ba (ix1 d) = ((β d : ℝ) : EReal)) (b : Fin 32) (s : Fin 1024) (d : Fin 768) :
    val_main_v23 (F := Ideal) xa ga ba (ix3 b s d) = ((AttnSpec.xn (x b s) γ β d : ℝ) : EReal) := by
  have e11 : idx_main_v11 (ix3 b s d) = ix3 b s (⟨0, Nat.one_pos⟩ : Fin 1) :=
    funext fun a => Fin.ext (by match a with | ⟨0, _⟩ => rfl | ⟨1, _⟩ => rfl | ⟨2, _⟩ => rfl)
  have e16 : idx_main_v16 (ix3 b s d) = ix3 b s (⟨0, Nat.one_pos⟩ : Fin 1) :=
    funext fun a => Fin.ext (by match a with | ⟨0, _⟩ => rfl | ⟨1, _⟩ => rfl | ⟨2, _⟩ => rfl)
  have e18 : idx_main_v18 (idx_main_v19 (ix3 b s d)) = ix1 d :=
    funext fun a => Fin.ext (by match a with | ⟨0, _⟩ => rfl)
  have e21 : idx_main_v21 (idx_main_v22 (ix3 b s d)) = ix1 d :=
    funext fun a => Fin.ext (by match a with | ⟨0, _⟩ => rfl)
  rw [val_main_v23_apply, val_main_v20_apply, val_main_v22_apply, val_main_v21_apply, val_main_v17_apply,
    val_main_v19_apply, val_main_v18_apply, val_main_v12_apply, val_main_v16_apply, val_main_v11_apply,
    e11, e16, e18, e21, mean_at xa x hx, rstd_at xa x hx, hx, hg, hb]
  simp only [Ideal.addf_def, Ideal.mulf_def, Ideal.subf_def, ← EReal.coe_sub, ← EReal.coe_mul, ← EReal.coe_add]
  rfl

end Cert.ReferenceIdeal.RefValue

end
-- ==== Proof.RefProj.lean ====
/-
  The reference's three projections and its scores, entry by entry: with real inputs they are the
  coerced real projections of the normalised rows and the coerced real scaled inner products.
-/
import proofs.«105540_j9242769622267_2_alg».proof.Proof.RefLayerNorm

noncomputable section

namespace Cert.ReferenceIdeal.RefValue

open Cert.ReferenceIdeal Cert.ReferenceIdeal.Gen Cert.ReferenceIdeal.Read Idealize.ShloMosaic Idealize.ShloMosaic.ValueIdx
open scoped BigOperators

variable (xa : FVec Ideal S32x1024x768 .f32) (ga ba : FVec Ideal S768 .f32)
  (x : Fin 32 → Fin 1024 → Fin 768 → ℝ) (γ β : Fin 768 → ℝ)

/-- A normalised row against one real direction, as the contraction's sum. -/
theorem proj_sum (hx : ∀ b s d, xa (ix3 b s d) = ((x b s d : ℝ) : EReal)) (hg : ∀ d, ga (ix1 d) = ((γ d : ℝ) : EReal))
    (hb : ∀ d, ba (ix1 d) = ((β d : ℝ) : EReal)) (w : FVec Ideal S64x768 .f32) (W : Fin 64 → Fin 768 → ℝ)
    (hw : ∀ h d, w (ix2 h d) = ((W h d : ℝ) : EReal)) (b : Fin 32) (s : Fin 1024) (h : Fin 64) :
    ∑ k : Fin 768, val_main_v23 (F := Ideal) xa ga ba (ix3 b s k) * w (ix2 h k)
      = ((AttnSpec.proj (x b s) γ β (W h) : ℝ) : EReal) := by
  simp only [xn_at xa ga ba x γ β hx hg hb, hw, ← EReal.coe_mul]
  rw [← OnlineSoftmax.coe_sum]
  rfl

variable (wka wqa wva : FVec Ideal S64x768 .f32) (Wk Wq Wv : Fin 64 → Fin 768 → ℝ)

/-- The key projection. -/
theorem key_at (hx : ∀ b s d, xa (ix3 b s d) = ((x b s d : ℝ) : EReal)) (hg : ∀ d, ga (ix1 d) = ((γ d : ℝ) : EReal))
    (hb : ∀ d, ba (ix1 d) = ((β d : ℝ) : EReal)) (hwk : ∀ h d, wka (ix2 h d) = ((Wk h d : ℝ) : EReal))
    (b : Fin 32) (s : Fin 1024) (h : Fin 64) :
    val_main_v24 (F := Ideal) xa ga ba wka (ix3 b s h) = ((AttnSpec.proj (x b s) γ β (Wk h) : ℝ) : EReal) := by
  have el : ∀ k : Fin 768, lidx_main_v24 (ix3 b s h) k = ix3 b s k := fun k =>
    funext fun a => Fin.ext (by match a with | ⟨0, _⟩ => rfl | ⟨1, _⟩ => rfl | ⟨2, _⟩ => rfl)
  have er : ∀ k : Fin 768, ridx_main_v24 (ix3 b s h) k = ix2 h k := fun k =>
    funext fun a => Fin.ext (by match a with | ⟨0, _⟩ => rfl | ⟨1, _⟩ => rfl)
  rw [val_main_v24_apply]
  simp only [el, er]
  exact proj_sum xa ga ba x γ β hx hg hb wka Wk hwk b s h

/-- The query projection. -/
theorem query_at (hx : ∀ b s d, xa (ix3 b s d) = ((x b s d : ℝ) : EReal)) (hg : ∀ d, ga (ix1 d) = ((γ d : ℝ) : EReal))
    (hb : ∀ d, ba (ix1 d) = ((β d : ℝ) : EReal)) (hwq : ∀ h d, wqa (ix2 h d) = ((Wq h d : ℝ) : EReal))
    (b : Fin 32) (s : Fin 1024) (h : Fin 64) :
    val_main_v25 (F := Ideal) xa ga ba wqa (ix3 b s h) = ((AttnSpec.proj (x b s) γ β (Wq h) : ℝ) : EReal) := by
  have el : ∀ k : Fin 768, lidx_main_v25 (ix3 b s h) k = ix3 b s k := fun k =>
    funext fun a => Fin.ext (by match a with | ⟨0, _⟩ => rfl | ⟨1, _⟩ => rfl | ⟨2, _⟩ => rfl)
  have er : ∀ k : Fin 768, ridx_main_v25 (ix3 b s h) k = ix2 h k := fun k =>
    funext fun a => Fin.ext (by match a with | ⟨0, _⟩ => rfl | ⟨1, _⟩ => rfl)
  rw [val_main_v25_apply]
  simp only [el, er]
  exact proj_sum xa ga ba x γ β hx hg hb wqa Wq hwq b s h

/-- The value projection. -/
theorem value_at (hx : ∀ b s d, xa (ix3 b s d) = ((x b s d : ℝ) : EReal)) (hg : ∀ d, ga (ix1 d) = ((γ d : ℝ) : EReal))
    (hb : ∀ d, ba (ix1 d) = ((β d : ℝ) : EReal)) (hwv : ∀ h d, wva (ix2 h d) = ((Wv h d : ℝ) : EReal))
    (b : Fin 32) (s : Fin 1024) (h : Fin 64) :
    val_main_v26 (F := Ideal) xa ga ba wva (ix3 b s h) = ((AttnSpec.proj (x b s) γ β (Wv h) : ℝ) : EReal) := by
  have el : ∀ k : Fin 768, lidx_main_v26 (ix3 b s h) k = ix3 b s k := fun k =>
    funext fun a => Fin.ext (by match a with | ⟨0, _⟩ => rfl | ⟨1, _⟩ => rfl | ⟨2, _⟩ => rfl)
  have er : ∀ k : Fin 768, ridx_main_v26 (ix3 b s h) k = ix2 h k := fun k =>
    funext fun a => Fin.ext (by match a with | ⟨0, _⟩ => rfl | ⟨1, _⟩ => rfl)
  rw [val_main_v26_apply]
  simp only [el, er]
  exact proj_sum xa ga ba x γ β hx hg hb wva Wv hwv b s h

/-- The square root of the literal 64 is 8. -/
theorem sqrt_64 : Ideal.sqrt (Ideal.ofBits .f32 0x42800000#32) = ((8 : ℝ) : EReal) := by
  rw [AttnSpec.ofBits_64, Ideal.sqrt_coe, if_neg (by norm_num),
    show (64 : ℝ) = 8 ^ 2 by norm_num, Real.sqrt_sq (by norm_num)]

/-- The scaled score of query row `q` against key row `k`. -/
theorem score_at (hx : ∀ b s d, xa (ix3 b s d) = ((x b s d : ℝ) : EReal)) (hg : ∀ d, ga (ix1 d) = ((γ d : ℝ) : EReal))
    (hb : ∀ d, ba (ix1 d) = ((β d : ℝ) : EReal)) (hwk : ∀ h d, wka (ix2 h d) = ((Wk h d : ℝ) : EReal))
    (hwq : ∀ h d, wqa (ix2 h d) = ((Wq h d : ℝ) : EReal)) (b : Fin 32) (q k : Fin 1024) :
    val_main_v30 (F := Ideal) xa ga ba wka wqa (ix3 b q k)
      = ((AttnSpec.score (x b) γ β Wq Wk q k : ℝ) : EReal) := by
  have el : ∀ j : Fin 64, lidx_main_v27 (ix3 b q k) j = ix3 b q j := fun j =>
    funext fun a => Fin.ext (by match a with | ⟨0, _⟩ => rfl | ⟨1, _⟩ => rfl | ⟨2, _⟩ => rfl)
  have er : ∀ j : Fin 64, ridx_main_v27 (ix3 b q k) j = ix3 b k j := fun j =>
    funext fun a => Fin.ext (by match a with | ⟨0, _⟩ => rfl | ⟨1, _⟩ => rfl | ⟨2, _⟩ => rfl)
  rw [val_main_v30_apply, val_main_v29_apply, val_main_v28_apply, val_main_cst_4_apply, val_main_v27_apply]
  simp only [el, er, query_at xa ga ba x γ β wqa Wq hx hg hb hwq, key_at xa ga ba x γ β wka Wk hx hg hb hwk,
    Ideal.hostDivf_def, Ideal.hostUnary_sqrt_def, Ideal.ofBits_def, sqrt_64, ← EReal.coe_mul]
  rw [← OnlineSoftmax.coe_sum, OnlineSoftmax.div_coe_coe _ (by norm_num)]
  rfl

end Cert.ReferenceIdeal.RefValue

end
-- ==== Proof.RefMask.lean ====
/-
  The reference's causal mask and its masked scores, entry by entry: the lower-triangular mask is the
  comparison of the row and column coordinates, and the masked score of query row q against key row k is
  the coerced real score when k ≤ q and -∞ otherwise.
-/
import proofs.«105540_j9242769622267_2_alg».proof.Proof.RefProj

noncomputable section

namespace Cert.ReferenceIdeal.RefValue

open Cert.ReferenceIdeal Cert.ReferenceIdeal.Gen Cert.ReferenceIdeal.Read Idealize.ShloMosaic Idealize.ShloMosaic.ValueIdx
open scoped BigOperators

/-- A small natural number as a 32-bit word, read signed. -/
theorem toInt_ofNat_small (n : Nat) (h : n < 1024) : (BitVec.ofNat 32 n).toInt = (n : Int) := by
  rw [BitVec.toInt_eq_toNat_of_lt (by rw [BitVec.toNat_ofNat]; omega), BitVec.toNat_ofNat]; omega

/-- Row coordinate at least column coordinate, on words. -/
theorem tril_bit (q k : Fin 1024) :
    IntOp.cmpi .sge (IntOp.addi (BitVec.ofNat 32 q.val) 0#32) (BitVec.ofNat 32 k.val)
      = if k.val ≤ q.val then 1#1 else 0#1 := by
  have hq := toInt_ofNat_small q.val q.isLt
  have hk := toInt_ofNat_small k.val k.isLt
  have h0 : IntOp.addi (BitVec.ofNat 32 q.val) 0#32 = BitVec.ofNat 32 q.val := by
    show BitVec.ofNat 32 q.val + 0#32 = _
    rw [BitVec.add_zero]
  rw [h0]
  by_cases h : k.val ≤ q.val
  · rw [if_pos h, IntOp.cmpi_sge, hq, hk]; omega
  · rw [if_neg h]
    refine eq_zero_of_ne_one fun hc => h ?_
    rw [IntOp.cmpi_sge, hq, hk] at hc; omega

/-- The lower-triangular mask. -/
theorem tril_at (q k : Fin 1024) :
    val_main_v32 (F := Ideal) (ix2 q k) = if k.val ≤ q.val then 1#1 else 0#1 := by
  rw [val_main_v32_apply, val_main_call0_v4_apply, val_main_call0_v2_apply, val_main_call0_v0_apply,
    val_main_call0_v1_apply, val_main_call0_c_apply, val_main_call0_v3_apply, val_main_v31_apply, val_main_c_apply,
    val_main_call0_v5_apply, val_main_call0_c_0_apply]
  show Scalar.select (IntOp.cmpi .sge (IntOp.addi (BitVec.ofNat 32 q.val) 0#32) (BitVec.ofNat 32 k.val)) 1#1 0#1 = _
  rw [tril_bit]
  by_cases h : k.val ≤ q.val
  · rw [if_pos h, select_one]
  · rw [if_neg h, select_zero]

variable (xa : FVec Ideal S32x1024x768 .f32) (ga ba : FVec Ideal S768 .f32)
  (x : Fin 32 → Fin 1024 → Fin 768 → ℝ) (γ β : Fin 768 → ℝ)
  (wka wqa : FVec Ideal S64x768 .f32) (Wk Wq : Fin 64 → Fin 768 → ℝ)

/-- The masked scores. -/
theorem masked_at (hx : ∀ b s d, xa (ix3 b s d) = ((x b s d : ℝ) : EReal)) (hg : ∀ d, ga (ix1 d) = ((γ d : ℝ) : EReal))
    (hb : ∀ d, ba (ix1 d) = ((β d : ℝ) : EReal)) (hwk : ∀ h d, wka (ix2 h d) = ((Wk h d : ℝ) : EReal))
    (hwq : ∀ h d, wqa (ix2 h d) = ((Wq h d : ℝ) : EReal)) (b : Fin 32) (q k : Fin 1024) :
    val_main_v33 (F := Ideal) xa ga ba wka wqa (ix3 b q k)
      = if k.val ≤ q.val then ((AttnSpec.score (x b) γ β Wq Wk q k : ℝ) : EReal) else ⊥ := by
  have e : idx_main_call1_v1 (ix3 b q k) = ix2 q k :=
    funext fun a => Fin.ext (by match a with | ⟨0, _⟩ => rfl | ⟨1, _⟩ => rfl)
  rw [val_main_v33_apply, val_main_call1_v1_apply, val_main_call1_v2_apply, val_main_call1_v0_apply,
    val_main_cst_5_apply, e, tril_at, score_at xa ga ba x γ β wka wqa Wk Wq hx hg hb hwk hwq]
  by_cases h : k.val ≤ q.val
  · rw [if_pos h, if_pos h, select_one]
  · rw [if_neg h, if_neg h, select_zero, Ideal.ofBits_def, AttnSpec.ofBits_neg_inf]

end Cert.ReferenceIdeal.RefValue

end
-- ==== Proof.RefSoftmax.lean ====
/-
  The reference's softmax stages, entry by entry: the row maximum of the masked scores is a real
  number, the exponentials of the shifted masked scores vanish on the masked keys, and their row sum
  is the sum over the keys a query row attends to.
-/
import proofs.«105540_j9242769622267_2_alg».proof.Proof.RefMask

noncomputable section

namespace Cert.ReferenceIdeal.RefValue

open Cert.ReferenceIdeal Cert.ReferenceIdeal.Gen Cert.ReferenceIdeal.Read Idealize.ShloMosaic Idealize.ShloMosaic.ValueIdx
open scoped BigOperators

/-- A fold of `max` from `-∞` over extended reals none of which is `+∞` and one of which is not `-∞` is a real. -/
theorem fold_max_real {ι : Type*} (t : Finset ι) (f : ι → EReal) (hf : ∀ i ∈ t, f i ≠ ⊤) (i₀ : ι) (hi : i₀ ∈ t)
    (h₀ : f i₀ ≠ ⊥) : ∃ M : ℝ, t.fold max (⊥ : EReal) f = (M : EReal) := by
  have h1 : t.fold max (⊥ : EReal) f < ⊤ := by
    rw [Finset.fold_max_lt]
    exact ⟨bot_lt_top, fun i hi => lt_top_iff_ne_top.mpr (hf i hi)⟩
  have h2 : ⊥ < t.fold max (⊥ : EReal) f := by
    rw [Finset.lt_fold_max]
    exact Or.inr ⟨i₀, hi, bot_lt_iff_ne_bot.mpr h₀⟩
  exact ⟨_, (EReal.coe_toReal h1.ne h2.ne').symm⟩

/-- A (batch, query) index with the key coordinate put back. -/
theorem lift_row (h : S32x1024x1024.Reduces [2] S32x1024) (b : Fin 32) (q : Fin 1024)
    (k : Fin (S32x1024x1024.size 2)) :
    h.lift (ix2 b q) k = ix3 b q (⟨k.val, k.isLt⟩ : Fin 1024) := by
  funext c; apply Fin.ext
  fin_cases c <;> rfl

variable (xa : FVec Ideal S32x1024x768 .f32) (ga ba : FVec Ideal S768 .f32)
  (x : Fin 32 → Fin 1024 → Fin 768 → ℝ) (γ β : Fin 768 → ℝ)
  (wka wqa : FVec Ideal S64x768 .f32) (Wk Wq : Fin 64 → Fin 768 → ℝ)

/-- The row maximum of the masked scores is a real number: the diagonal entry is real. -/
theorem rowmax_at (hx : ∀ b s d, xa (ix3 b s d) = ((x b s d : ℝ) : EReal)) (hg : ∀ d, ga (ix1 d) = ((γ d : ℝ) : EReal))
    (hb : ∀ d, ba (ix1 d) = ((β d : ℝ) : EReal)) (hwk : ∀ h d, wka (ix2 h d) = ((Wk h d : ℝ) : EReal))
    (hwq : ∀ h d, wqa (ix2 h d) = ((Wq h d : ℝ) : EReal)) (b : Fin 32) (q : Fin 1024) :
    ∃ M : ℝ, val_main_v36 (F := Ideal) xa ga ba wka wqa (ix2 b q) = (M : EReal) := by
  have h : S32x1024x1024.Reduces [2] S32x1024 := by decide
  obtain ⟨M, hM⟩ := fold_max_real Finset.univ (val_main_v33 (F := Ideal) xa ga ba wka wqa ∘ h.lift (ix2 b q))
    (fun k _ => by
      show val_main_v33 (F := Ideal) xa ga ba wka wqa (h.lift (ix2 b q) k) ≠ ⊤
      rw [lift_row, masked_at xa ga ba x γ β wka wqa Wk Wq hx hg hb hwk hwq]
      split_ifs
      · exact EReal.coe_ne_top _
      · exact bot_ne_top)
    (⟨q.val, q.isLt⟩ : Fin (S32x1024x1024.size 2)) (Finset.mem_univ _)
    (by
      show val_main_v33 (F := Ideal) xa ga ba wka wqa (h.lift (ix2 b q) _) ≠ ⊥
      rw [lift_row, masked_at xa ga ba x γ β wka wqa Wk Wq hx hg hb hwk hwq, if_pos (le_refl _)]
      exact EReal.coe_ne_bot _)
  refine ⟨M, ?_⟩
  rw [val_main_v36_apply, val_main_v35_apply, val_main_cst_7_apply]
  unfold val_main_v34
  rw [Host.reduce_eq_fold_single FloatOps.maximumf _ _ _ h]
  show max (Ideal.ofBits .f32 0xFF800000#32)
    (Finset.univ.fold max (Ideal.ofBits .f32 0xFF800000#32) (val_main_v33 (F := Ideal) xa ga ba wka wqa ∘ h.lift (ix2 b q))) = _
  rw [AttnSpec.ofBits_neg_inf, hM, max_bot_left]

/-- The exponential of the shifted masked score: zero on a masked key. -/
theorem exp_at (hx : ∀ b s d, xa (ix3 b s d) = ((x b s d : ℝ) : EReal)) (hg : ∀ d, ga (ix1 d) = ((γ d : ℝ) : EReal))
    (hb : ∀ d, ba (ix1 d) = ((β d : ℝ) : EReal)) (hwk : ∀ h d, wka (ix2 h d) = ((Wk h d : ℝ) : EReal))
    (hwq : ∀ h d, wqa (ix2 h d) = ((Wq h d : ℝ) : EReal)) (b : Fin 32) (q k : Fin 1024) (M : ℝ)
    (hM : val_main_v36 (F := Ideal) xa ga ba wka wqa (ix2 b q) = (M : EReal)) :
    val_main_v40 (F := Ideal) xa ga ba wka wqa (ix3 b q k)
      = if k.val ≤ q.val then Ideal.exp (((AttnSpec.score (x b) γ β Wq Wk q k : ℝ) : EReal) - (M : EReal)) else 0 := by
  have e : idx_main_v37 (idx_main_v38 (ix3 b q k)) = ix2 b q :=
    funext fun a => Fin.ext (by match a with | ⟨0, _⟩ => rfl | ⟨1, _⟩ => rfl)
  rw [val_main_v40_apply, val_main_v39_apply, val_main_v38_apply, val_main_v37_apply, e, hM,
    masked_at xa ga ba x γ β wka wqa Wk Wq hx hg hb hwk hwq]
  simp only [Ideal.hostUnary_exp_def, Ideal.subf_def]
  by_cases h : k.val ≤ q.val
  · rw [if_pos h, if_pos h]
  · rw [if_neg h, if_neg h, OnlineSoftmax.exp_bot_sub_coe]

/-- The row sum of the exponentials: the sum over the keys the query row attends to. -/
theorem denom_at (hx : ∀ b s d, xa (ix3 b s d) = ((x b s d : ℝ) : EReal)) (hg : ∀ d, ga (ix1 d) = ((γ d : ℝ) : EReal))
    (hb : ∀ d, ba (ix1 d) = ((β d : ℝ) : EReal)) (hwk : ∀ h d, wka (ix2 h d) = ((Wk h d : ℝ) : EReal))
    (hwq : ∀ h d, wqa (ix2 h d) = ((Wq h d : ℝ) : EReal)) (b : Fin 32) (q : Fin 1024) (M : ℝ)
    (hM : val_main_v36 (F := Ideal) xa ga ba wka wqa (ix2 b q) = (M : EReal)) :
    val_main_v41 (F := Ideal) xa ga ba wka wqa (ix2 b q)
      = ∑ k ∈ AttnSpec.seen q, Ideal.exp (((AttnSpec.score (x b) γ β Wq Wk q k : ℝ) : EReal) - (M : EReal)) := by
  have e : ∀ k : Fin 1024, idx_main_v41 (ix2 b q) k = ix3 b q k := fun k =>
    funext fun a => Fin.ext (by match a with | ⟨0, _⟩ => rfl | ⟨1, _⟩ => rfl | ⟨2, _⟩ => rfl)
  rw [val_main_v41_apply, val_main_cst_8_apply]
  simp only [e, exp_at xa ga ba x γ β wka wqa Wk Wq hx hg hb hwk hwq b q _ M hM, Ideal.ofBits_def, AttnSpec.ofBits_zero, zero_add]
  unfold AttnSpec.seen
  rw [Finset.sum_filter]

end Cert.ReferenceIdeal.RefValue

end
-- ==== Proof.RefClosed.lean ====
/-
  The reference program's result, entry by entry, is the attention function of the real arrays.
-/
import proofs.«105540_j9242769622267_2_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx
open scoped BigOperators

variable (xa : FVec Ideal S32x1024x768 .f32) (ga ba : FVec Ideal S768 .f32)
  (wka wqa wva : FVec Ideal S64x768 .f32)
  (x : Fin 32 → Fin 1024 → Fin 768 → ℝ) (γ β : Fin 768 → ℝ) (Wk Wq Wv : Fin 64 → Fin 768 → ℝ)

/-- With real inputs, entry (b, q, h) of the reference's result is the coerced real attention output: the
    normalise-then-sum form at the row maximum equals the quotient at shift 0, and a masked key contributes 0. -/
theorem ref_closed (hx : ∀ b s d, xa (ix3 b s d) = ((x b s d : ℝ) : EReal)) (hg : ∀ d, ga (ix1 d) = ((γ d : ℝ) : EReal))
    (hb : ∀ d, ba (ix1 d) = ((β d : ℝ) : EReal)) (hwk : ∀ h d, wka (ix2 h d) = ((Wk h d : ℝ) : EReal))
    (hwq : ∀ h d, wqa (ix2 h d) = ((Wq h d : ℝ) : EReal)) (hwv : ∀ h d, wva (ix2 h d) = ((Wv h d : ℝ) : EReal))
    (b : Fin 32) (q : Fin 1024) (h : Fin 64) :
    val_main_v45 (F := Ideal) xa ga ba wka wqa wva (ix3 b q h)
      = ((AttnSpec.out (x b) γ β Wk Wq Wv q h : ℝ) : EReal) := by
  obtain ⟨M, hM⟩ := rowmax_at xa ga ba x γ β wka wqa Wk Wq hx hg hb hwk hwq b q
  have el : ∀ k : Fin 1024, lidx_main_v45 (ix3 b q h) k = ix3 b q k := fun k =>
    funext fun a => Fin.ext (by match a with | ⟨0, _⟩ => rfl | ⟨1, _⟩ => rfl | ⟨2, _⟩ => rfl)
  have er : ∀ k : Fin 1024, ridx_main_v45 (ix3 b q h) k = ix3 b k h := fun k =>
    funext fun a => Fin.ext (by match a with | ⟨0, _⟩ => rfl | ⟨1, _⟩ => rfl | ⟨2, _⟩ => rfl)
  have e43 : ∀ k : Fin 1024, idx_main_v42 (idx_main_v43 (ix3 b q k)) = ix2 b q := fun k =>
    funext fun a => Fin.ext (by match a with | ⟨0, _⟩ => rfl | ⟨1, _⟩ => rfl)
  have hD0 := OnlineSoftmax.sum_exp_ne_zero (AttnSpec.seen_nonempty q)
    (fun k => AttnSpec.score (x b) γ β Wq Wk q k) M
  have key := OnlineSoftmax.final_div_raw (AttnSpec.seen_nonempty q)
    (fun k => AttnSpec.score (x b) γ β Wq Wk q k) (fun k => AttnSpec.proj (x b k) γ β (Wv h)) 0 M
  rw [OnlineSoftmax.div_coe_coe _ (OnlineSoftmax.sum_exp_ne_zero (AttnSpec.seen_nonempty q) _ 0)] at key
  have step : ∀ k : Fin 1024,
      Ideal.div (if k.val ≤ q.val then Ideal.exp (((AttnSpec.score (x b) γ β Wq Wk q k : ℝ) : EReal) - (M : EReal)) else 0)
          (∑ k' ∈ AttnSpec.seen q, Ideal.exp (((AttnSpec.score (x b) γ β Wq Wk q k' : ℝ) : EReal) - (M : EReal)))
          * ((AttnSpec.proj (x b k) γ β (Wv h) : ℝ) : EReal)
        = if k.val ≤ q.val then
            Ideal.div (Ideal.exp (((AttnSpec.score (x b) γ β Wq Wk q k : ℝ) : EReal) - (M : EReal)))
              (∑ k' ∈ AttnSpec.seen q, Ideal.exp (((AttnSpec.score (x b) γ β Wq Wk q k' : ℝ) : EReal) - (M : EReal)))
              * ((AttnSpec.proj (x b k) γ β (Wv h) : ℝ) : EReal)
          else 0 := fun k => by
    by_cases hk : k.val ≤ q.val
    · rw [if_pos hk, if_pos hk]
    · rw [if_neg hk, if_neg hk, OnlineSoftmax.sum_exp_coe, Ideal.div_coe hD0, zero_mul, zero_mul]
  rw [val_main_v45_apply]
  simp only [el, er, val_main_v44_apply, val_main_v43_apply, val_main_v42_apply, e43, denom_at xa ga ba x γ β wka wqa Wk Wq hx hg hb hwk hwq b q M hM,
    exp_at xa ga ba x γ β wka wqa Wk Wq hx hg hb hwk hwq b q _ M hM, value_at xa ga ba x γ β wva Wv hx hg hb hwv, Ideal.hostDivf_def, step]
  rw [← Finset.sum_filter]
  exact key.symm

open Idealize.ShloMosaic.TcCoe Idealize.SL.Sem Idealize.ShloMosaic.StableHlo in
/-- The reference run's result term, from a memory whose six argument arrays are real, entry by entry:
    the attention function of those real arrays. -/
theorem res_closed (m : (ℓ : Loc nD τ sig) → Buf (Elt Ideal) ℓ) (c : Dev nD)
    (x : Fin 32 → Fin 1024 → Fin 768 → ℝ) (γ β : Fin 768 → ℝ) (Wk Wq Wv : Fin 64 → Fin 768 → ℝ)
    (hx : ∀ b s d, (m ((c.tc : Thread nD τ).loc main_arg0) : FVec Ideal S32x1024x768 .f32) (ix3 b s d) = ((x b s d : ℝ) : EReal))
    (hg : ∀ d, (m ((c.tc : Thread nD τ).loc main_arg1) : FVec Ideal S768 .f32) (ix1 d) = ((γ d : ℝ) : EReal))
    (hb : ∀ d, (m ((c.tc : Thread nD τ).loc main_arg2) : FVec Ideal S768 .f32) (ix1 d) = ((β d : ℝ) : EReal))
    (hwk : ∀ h d, (m ((c.tc : Thread nD τ).loc main_arg3) : FVec Ideal S64x768 .f32) (ix2 h d) = ((Wk h d : ℝ) : EReal))
    (hwq : ∀ h d, (m ((c.tc : Thread nD τ).loc main_arg4) : FVec Ideal S64x768 .f32) (ix2 h d) = ((Wq h d : ℝ) : EReal))
    (hwv : ∀ h d, (m ((c.tc : Thread nD τ).loc main_arg5) : FVec Ideal S64x768 .f32) (ix2 h d) = ((Wv h d : ℝ) : EReal))
    (b : Fin 32) (q : Fin 1024) (h : Fin 64) :
    (Cert.ReferenceIdeal.Value.res_main_v45 (F := Ideal) m c : FVec Ideal S32x1024x64 .f32) (ix3 b q h)
      = ((AttnSpec.out (x b) γ β Wk Wq Wv q h : ℝ) : EReal) := by
  rw [Read.val_main_v45_eq]
  exact ref_closed _ _ _ _ _ _ x γ β Wk Wq Wv hx hg hb hwk hwq hwv b q h

end Cert.ReferenceIdeal.RefValue

end
-- ==== Proof.RealInputs.lean ====
/-
  The precondition "all six inputs are finite" read back: every entry of every input is a real number.
-/
import proofs.«105540_j9242769622267_2_alg».proof.Pre_finite_inputs
import proofs.«105540_j9242769622267_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.RealInputs

open Cert.Pre_finite_inputs Cert.Pre_finite_inputs.Gen Idealize.ShloMosaic

/-- The scalar shape has one index. -/
instance : Subsingleton S_.Idx := ⟨fun a b => funext fun d => d.elim0⟩

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

/-- From the finiteness precondition: every entry of the six inputs is a real number. -/
theorem reals_of_pre (xa : FVec Ideal S32x1024x768 .f32) (ga ba : FVec Ideal S768 .f32)
    (wka wqa wva : FVec Ideal S64x768 .f32)
    (h : Cert.Pre_finite_inputs.fn (F := Ideal) xa ga ba wka wqa wva = fun _ => 1#1) :
    (∀ i, ∃ r : ℝ, xa i = (r : EReal)) ∧ (∀ i, ∃ r : ℝ, ga i = (r : EReal)) ∧ (∀ i, ∃ r : ℝ, ba i = (r : EReal))
      ∧ (∀ i, ∃ r : ℝ, wka i = (r : EReal)) ∧ (∀ i, ∃ r : ℝ, wqa i = (r : EReal))
      ∧ (∀ i, ∃ r : ℝ, wva i = (r : EReal)) := by
  have h0 := congrFun h ValueIdx.ix0
  dsimp only [Cert.Pre_finite_inputs.fn, Cert.Pre_finite_inputs.fn_part1] at h0
  simp only [andi, IntOp.andi_eq_one] at h0
  obtain ⟨⟨⟨⟨⟨h1, h2⟩, h3⟩, h4⟩, h5⟩, h6⟩ := h0
  exact ⟨fun i => real_of_abs_lt_top (xa i) (Host.reduce_andi_all _ _ _ _ _ h1 i),
    fun i => real_of_abs_lt_top (ga i) (Host.reduce_andi_all _ _ _ _ _ h2 i),
    fun i => real_of_abs_lt_top (ba i) (Host.reduce_andi_all _ _ _ _ _ h3 i),
    fun i => real_of_abs_lt_top (wka i) (Host.reduce_andi_all _ _ _ _ _ h4 i),
    fun i => real_of_abs_lt_top (wqa i) (Host.reduce_andi_all _ _ _ _ _ h5 i),
    fun i => real_of_abs_lt_top (wva i) (Host.reduce_andi_all _ _ _ _ _ h6 i)⟩

/-- From the finiteness precondition: real arrays whose coercions are the six inputs, entry by entry. -/
theorem real_arrays_of_pre (xa : FVec Ideal S32x1024x768 .f32) (ga ba : FVec Ideal S768 .f32)
    (wka wqa wva : FVec Ideal S64x768 .f32)
    (h : Cert.Pre_finite_inputs.fn (F := Ideal) xa ga ba wka wqa wva = fun _ => 1#1) :
    ∃ (x : Fin 32 → Fin 1024 → Fin 768 → ℝ) (γ β : Fin 768 → ℝ) (Wk Wq Wv : Fin 64 → Fin 768 → ℝ),
      (∀ b s d, xa (ValueIdx.ix3 b s d) = ((x b s d : ℝ) : EReal)) ∧ (∀ d, ga (ValueIdx.ix1 d) = ((γ d : ℝ) : EReal))
      ∧ (∀ d, ba (ValueIdx.ix1 d) = ((β d : ℝ) : EReal)) ∧ (∀ h d, wka (ValueIdx.ix2 h d) = ((Wk h d : ℝ) : EReal))
      ∧ (∀ h d, wqa (ValueIdx.ix2 h d) = ((Wq h d : ℝ) : EReal)) ∧ (∀ h d, wva (ValueIdx.ix2 h d) = ((Wv h d : ℝ) : EReal)) := by
  obtain ⟨h1, h2, h3, h4, h5, h6⟩ := reals_of_pre xa ga ba wka wqa wva h
  exact ⟨fun b s d => (h1 (ValueIdx.ix3 b s d)).choose, fun d => (h2 (ValueIdx.ix1 d)).choose,
    fun d => (h3 (ValueIdx.ix1 d)).choose, fun h d => (h4 (ValueIdx.ix2 h d)).choose,
    fun h d => (h5 (ValueIdx.ix2 h d)).choose, fun h d => (h6 (ValueIdx.ix2 h d)).choose,
    fun b s d => (h1 _).choose_spec, fun d => (h2 _).choose_spec, fun d => (h3 _).choose_spec,
    fun h d => (h4 _).choose_spec, fun h d => (h5 _).choose_spec, fun h d => (h6 _).choose_spec⟩

end Cert.Pre_finite_inputs.RealInputs

end
-- ==== Proof.ClaimsBasic.lean ====
/-
  The three claims that need no arithmetic: the reference program runs and leaves its arguments unchanged,
  and each of the four named constants of the idealized kernel is the table's value -∞.
-/
import proofs.«105540_j9242769622267_2_alg».proof.Defs
import proofs.«105540_j9242769622267_2_alg».proof.Proof.Gen.ReferenceIdeal.Run
import proofs.«105540_j9242769622267_2_alg».proof.Proof.Gen.ReferenceIdeal
import proofs.«105540_j9242769622267_2_alg».proof.Proof.Gen.Pre_finite_inputs
import proofs.«105540_j9242769622267_2_alg».proof.Proof.Gen.Kernel
import proofs.«105540_j9242769622267_2_alg».proof.Proof.Gen.KernelIdeal
import Idealize.ShloMosaic.PureOps.IdealRules

noncomputable section

namespace Cert.Proof.Basic

open Idealize.ShloMosaic Idealize.ShloMosaic.TcCoe Idealize.SL.Sem

/-- Every weakly fair execution of the reference program terminates with its six arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The table gives the name "neg_big" the value -∞, and each of the four printed constants is that value. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl⟩

end Cert.Proof.Basic

end
-- ==== Proof.lean ====
/-
  Causal single-head attention after a layer normalisation: a tiled streaming-softmax kernel against the plain
  formula.

  Both programs normalise each row of the input (mean, variance, `(x - mean) · rsqrt (variance + ε) · γ + β`),
  project it onto 64 query, key and value directions, and let row `q` attend to the rows `k ≤ q` with softmax
  weights of the scores `⟨query q, key k⟩ / 8`. The reference forms the whole 1024 × 1024 score matrix, masks it
  with -∞ above the diagonal, subtracts each row's maximum, exponentiates, normalises and multiplies by the values.
  The kernel walks 256-row tiles, visits only the key tiles on or below the diagonal, masks the diagonal tile
  with a fill that denotes -∞, and keeps a running maximum, denominator and numerator per row, dividing at the end.
  On real inputs both are the same real number at every entry: a softmax-weighted sum does not depend on the shift
  subtracted inside the exponentials, and the running rescaling by `exp (m - mnew)` is exactly a change of shift.
  The inputs are real because the precondition makes them finite; every stage then stays real, since the
  variance plus ε is positive and every row sees at least its own key.
-/
import proofs.«105540_j9242769622267_2_alg».proof.Defs
import proofs.«105540_j9242769622267_2_alg».proof.Proof.KernelFrame
import proofs.«105540_j9242769622267_2_alg».proof.Proof.KernelOut
import proofs.«105540_j9242769622267_2_alg».proof.Proof.RefClosed
import proofs.«105540_j9242769622267_2_alg».proof.Proof.RealInputs
import proofs.«105540_j9242769622267_2_alg».proof.Proof.ClaimsBasic
import Idealize.ShloMosaic.Adequacy
import Idealize.ShloMosaic.Init

noncomputable section

namespace Cert.Proof

open Idealize.ShloMosaic Idealize.ShloMosaic.TcCoe Idealize.SL.Sem Idealize.ShloMosaic.ValueIdx

/-- The fused weight matrix of real weight arrays is the real fused matrix. -/
theorem fusedW_real (wka wqa wva : FVec Ideal Cert.KernelIdeal.S64x768 .f32) (Wk Wq Wv : Fin 64 → Fin 768 → ℝ)
    (hwk : ∀ h d, wka (ix2 h d) = ((Wk h d : ℝ) : EReal)) (hwq : ∀ h d, wqa (ix2 h d) = ((Wq h d : ℝ) : EReal))
    (hwv : ∀ h d, wva (ix2 h d) = ((Wv h d : ℝ) : EReal)) (d : Fin 768) (j : Fin 192) :
    Cert.KernelIdeal.HandValue.fusedW wka wqa wva (ix2 d j) = ((Cert.KernelIdeal.Attn.wcat Wq Wk Wv d j : ℝ) : EReal) := by
  rw [Cert.KernelIdeal.HandValue.fusedW_apply]
  unfold Cert.KernelIdeal.Attn.wcat
  by_cases h0 : j.val < 64
  · rw [dif_pos h0, dif_pos h0]; exact hwq _ _
  · by_cases h1 : j.val < 128
    · rw [dif_neg h0, dif_pos h1, dif_neg h0, dif_pos h1]; exact hwk _ _
    · rw [dif_neg h0, dif_neg h1, dif_neg h0, dif_neg h1]; exact hwv _ _

/-- Every entry of the kernel's result array, for real inputs, is the specification's attention. -/
theorem Gk_real (xa : FVec Ideal Cert.KernelIdeal.S32x1024x768 .f32) (ga ba : FVec Ideal Cert.KernelIdeal.S768 .f32)
    (wka wqa wva : FVec Ideal Cert.KernelIdeal.S64x768 .f32)
    (x : Fin 32 → Fin 1024 → Fin 768 → ℝ) (γ β : Fin 768 → ℝ) (Wk Wq Wv : Fin 64 → Fin 768 → ℝ)
    (hx : ∀ b s d, xa (ix3 b s d) = ((x b s d : ℝ) : EReal)) (hg : ∀ d, ga (ix1 d) = ((γ d : ℝ) : EReal))
    (hb : ∀ d, ba (ix1 d) = ((β d : ℝ) : EReal)) (hwk : ∀ h d, wka (ix2 h d) = ((Wk h d : ℝ) : EReal))
    (hwq : ∀ h d, wqa (ix2 h d) = ((Wq h d : ℝ) : EReal)) (hwv : ∀ h d, wva (ix2 h d) = ((Wv h d : ℝ) : EReal))
    (b : Fin 32) (q : Fin 1024) (h : Fin 64) :
    Cert.KernelIdeal.HandValue.Gk xa ga ba wka wqa wva (ix3 b q h) = ((AttnSpec.out (x b) γ β Wk Wq Wv q h : ℝ) : EReal) :=
  Cert.KernelIdeal.Attn.out0_4_real (Cert.KernelIdeal.HandValue.xblock xa b) ga ba (Cert.KernelIdeal.HandValue.fusedW wka wqa wva)
    (x b) γ β Wq Wk Wv (fun s d => hx b s d) hg hb (fusedW_real wka wqa wva Wk Wq Wv hwk hwq hwv) q h

theorem frame_k : Cert.frame_Kernel := fun m g _ => Cert.Kernel.Hand.frame m g

theorem frame_ki : Cert.frame_KernelIdeal := fun m g _ => Cert.KernelIdeal.Hand.frame m g

/-- Both idealized programs run; the kernel's result array is the whole-array function read off its blocks, and the
    reference's result is the same array: entry by entry both are the specification's attention of the real inputs. -/
theorem algebraic : Cert.algebraic_KernelIdeal_ReferenceIdeal := by
  intro m ρ m' ρ' hpre hagree
  refine ⟨fun c => Cert.KernelIdeal.HandValue.Gk (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨x, γ, β, Wk, Wq, Wv, hx, hg, hb, hwk, hwq, hwv⟩ :=
    Cert.Pre_finite_inputs.RealInputs.real_arrays_of_pre _ _ _ _ _ _ (hpre c)
  obtain ⟨a0, a1, a2, a3, a4, a5⟩ := hagree c
  refine funext fun (i : Cert.ReferenceIdeal.S32x1024x64.Idx) => ?_
  rw [eq_ix3 i]
  refine (Cert.ReferenceIdeal.RefValue.res_closed m' c x γ β Wk Wq Wv ?_ ?_ ?_ ?_ ?_ ?_ (i 0) (i 1) (i 2)).trans
    (Gk_real _ _ _ _ _ _ x γ β Wk Wq Wv hx hg hb hwk hwq hwv (i 0) (i 1) (i 2)).symm
  · intro b s d; rw [a0]; exact hx b s d
  · intro d; rw [a1]; exact hg d
  · intro d; rw [a2]; exact hb d
  · intro h d; rw [a3]; exact hwk h d
  · intro h d; rw [a4]; exact hwq h d
  · intro h d; rw [a5]; exact hwv h d

theorem claim : Cert.Claim :=
  ⟨Cert.Kernel.Gen.facts, Cert.KernelIdeal.Gen.facts, Cert.ReferenceIdeal.Gen.facts, Cert.Pre_finite_inputs.Gen.facts,
    frame_k, frame_ki, Cert.Proof.Basic.frame_ri, Cert.Proof.Basic.preserves, algebraic⟩

end Cert.Proof

end
